-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x32 : Shape := ⟨2, ![1600000, 32]⟩
abbrev S32x128 : Shape := ⟨2, ![32, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S1600000x32 .f32) (main_arg3 : FVec F S32x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000x32 : Shape := ⟨2, ![1600000, 32]⟩
abbrev S32x128 : Shape := ⟨2, ![32, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S1600000x128 : Shape := ⟨2, ![1600000, 128]⟩
abbrev S8000x32 : Shape := ⟨2, ![8000, 32]⟩
abbrev S8000x128 : Shape := ⟨2, ![8000, 128]⟩
abbrev S1x128 : Shape := ⟨2, ![1, 128]⟩
abbrev S_ : Shape := ⟨0, ![]⟩
abbrev S1600000x1 : Shape := ⟨2, ![1600000, 1]⟩
abbrev S160x128 : Shape := ⟨2, ![160, 128]⟩
abbrev S5000x128 : Shape := ⟨2, ![5000, 128]⟩
abbrev S8x128 : Shape := ⟨2, ![8, 128]⟩

abbrev nBuf : Space → Nat
  | .hbm => 62
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S32x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S1600000x128, .bf16⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S1600000x128, .f32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S160x128, .f32⟩
  | .hbm, ⟨37, _⟩ => ⟨S160x128, .f32⟩
  | .hbm, ⟨38, _⟩ => ⟨S_, .f32⟩
  | .hbm, ⟨39, _⟩ => ⟨S128, .f32⟩
  | .hbm, ⟨40, _⟩ => ⟨S1x128, .f32⟩
  | .hbm, ⟨41, _⟩ => ⟨S_, .f32⟩
  | .hbm, ⟨42, _⟩ => ⟨S128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S100000x128, .f32⟩
  | .local _ .vmem, ⟨0, _⟩ => ⟨S8000x32, .f32⟩
  | .local _ .vmem, ⟨1, _⟩ => ⟨S8000x32, .f32⟩
  | .local _ .vmem, ⟨2, _⟩ => ⟨S32x128, .f32⟩
  | .local _ .vmem, ⟨3, _⟩ => ⟨S128, .f32⟩
  | .local _ .vmem, ⟨4, _⟩ => ⟨S8000x128, .bf16⟩
  | .local _ .vmem, ⟨5, _⟩ => ⟨S8000x128, .bf16⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S128, .f32⟩
  | .local _ .vmem, ⟨25, _⟩ => ⟨S128, .f32⟩
  | .local _ .vmem, ⟨26, _⟩ => ⟨S128, .f32⟩
  | .local _ .vmem, ⟨27, _⟩ => ⟨S5000x128, .f32⟩
  | .local _ .vmem, ⟨28, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call0_cst : Ref sig .tc := ⟨.hbm, 28, rfl⟩
abbrev main_call0_v0 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev main_v18_2 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S8000x32_S8000x32_0_0 : ∀ a, (![0, 0] : Fin 2 → Nat) a + S8000x32.size a ≤ S8000x32.size a
  h_S8000x32 : 0 < S8000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  packedbf16_S8000x128_S8000x128_0_0 : (Rect.unit (s := S8000x128) ![0, 0] S8000x128.size inb_S8000x128_S8000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  reduces_S5000x128_S128 : S5000x128.Reduces [0] S128
  iota_S8x128_d0_w32 : S8x128.Iotas .tc 32 [0]
  shapeCasts_S1x128_S1x128 : S1x128.ShapeCasts S1x128
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S160x128_S128_d0 : S160x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  inb_S1x128_S1x128_0_0 : ∀ a, (![0, 0] : Fin 2 → Nat) a + S1x128.size a ≤ S1x128.size a
  h_S1x128 : 0 < S1x128.numel
  dot_S8000x32_S32x128_S8000x128_1_0_0_1_n_n_wf : DotDims.WF S8000x32 S32x128 S8000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S1600000x32.size a
  hwx0_0 : ∀ i : grid0.Coords, EltTy.bits .f32 = 32 ∨ (Rect.block (s := S1600000x32) S8000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S1600000x128.size a
  hwx0_3 : ∀ i : grid0.Coords, EltTy.bits .bf16 = 32 ∨ (Rect.block (s := S1600000x128) S8000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x128.size a ≤ S160x128.size a
  hwx1_7 : ∀ i : grid1.Coords, EltTy.bits .f32 = 32 ∨ (Rect.block (s := S160x128) S8x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x128.size a ≤ S160x128.size a
  hwx1_8 : ∀ i : grid1.Coords, EltTy.bits .f32 = 32 ∨ (Rect.block (s := S160x128) S8x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg2) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v18_1) S8x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v18_2) S8x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v18_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x32 : Shape := ⟨2, ![1600000, 32]⟩
abbrev S32x128 : Shape := ⟨2, ![32, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S1600000x128 : Shape := ⟨2, ![1600000, 128]⟩
abbrev S1x128 : Shape := ⟨2, ![1, 128]⟩
abbrev S_ : Shape := ⟨0, ![]⟩
abbrev S1600000x1 : Shape := ⟨2, ![1600000, 1]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S32x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S1600000x128, .f32⟩
  | .hbm, ⟨17, _⟩ => ⟨S1x128, .f32⟩
  | .hbm, ⟨18, _⟩ => ⟨S1600000x128, .f32⟩
  | .hbm, ⟨19, _⟩ => ⟨S1600000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S1600000x128, .f32⟩
  | .hbm, ⟨30, _⟩ => ⟨S_, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call0_cst : Ref sig .tc := ⟨.hbm, 30, rfl⟩
abbrev main_call0_v0 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call1_cst : Ref sig .tc := ⟨.hbm, 42, rfl⟩
abbrev main_call1_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_1 : Ref sig .tc := ⟨.hbm, 49, rfl⟩
abbrev main_v30 : Ref sig .tc := ⟨.hbm, 50, rfl⟩
abbrev main_v31 : Ref sig .tc := ⟨.hbm, 51, rfl⟩
abbrev main_cst_2 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_3 : Ref sig .tc := ⟨.hbm, 60, rfl⟩
abbrev main_v39 : Ref sig .tc := ⟨.hbm, 61, rfl⟩
abbrev main_v40 : Ref sig .tc := ⟨.hbm, 62, rfl⟩
abbrev main_cst_4 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call2_cst : Ref sig .tc := ⟨.hbm, 78, rfl⟩
abbrev main_call2_v0 : Ref sig .tc := ⟨.hbm, 79, rfl⟩
abbrev main_v54 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S1x128 : S_.BroadcastsInDim S1x128 (![] : Fin 0 → Fin S1x128.rank)
  dot_S1600000x32_S32x128_S1600000x128_1_0_0_1_n_n_wf : DotDims.WF S1600000x32 S32x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S1600000x32_S32x128_S1600000x128_1_0_0_1_n_n : DotDims S1600000x32 S32x128 S1600000x128 where
  lhsContracting := [1]
  rhsContracting := [0]
  lhsNonContracting := [0]
  rhsNonContracting := [1]
  lhsBatch := []
  rhsBatch := []
  wf := dot_S1600000x32_S32x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  @main is eight segments: host operations, the edge layer's region, three stretches of host operations (index
  arithmetic and the gather; the rectifier; the scatter-add), the node network's region, the host operations that turn
  the partial sums into a mean and a variance, and the normalization's region.  The buffer contents at every segment
  boundary are a fold from the launch memory, and every weakly fair execution ends with each unscoped buffer at the
  last boundary's contents.  The frame reads the twelve argument buffers off that final state; read the same way, the
  result buffer holds the last boundary's contents at the result's reference.
-/
import proofs.«154507_j64252710748259_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_value : θ_run defs (onTc (τ := τ) (main (F := F))) ⟨m, fun _ => 0, ρ⟩ (fun r => ∀ c : Dev nD,
      r.2.mem ((c.tc : Thread nD τ).loc main_v36) = W8 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v36 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.Gen

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«154507_j64252710748259_2_alg».proof.Proof.LibMatmulPlain
import proofs.«154507_j64252710748259_2_alg».proof.Proof.LibDotsNT
import proofs.«154507_j64252710748259_2_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.LibMlp.lean ====
/-
  A two-layer perceptron on the extended reals, read at an entry.

  For an input z : [a, k], weights W1 : [k, h], W2 : [h, n] and bias rows B1 : [1, h], B2 : [1, n] the network is
      net z (r, q) = sum over c < h of max(sum over j < k of z(r, j) * W1(j, c) + B1(0, c), 0) * W2(c, q)  +  B2(0, q),
  and its input is the residual combination z = one * x + g of two arrays.

  Three facts about it:
  * row r of the result looks at row r of z only, so the network of a block of rows is that block of the network of
    the whole array (`net_rows`);
  * widening the hidden layer from h to h' columns by zeros in W1, B1 and in the rows of W2 changes nothing
    (`net_pad`): a new hidden unit is max(sum of z(r, j) * 0 + 0, 0) and it is multiplied by 0; on the extended
    reals x * 0 = 0 for every x, the infinities included, so no finiteness is needed;
  * a bias vector laid out as a row by a reshape or by a broadcast_in_dim is the same one-row matrix (`rowOf`);
  * the spelling of a kernel tile (two matrix-unit products into zero accumulators, bias rows cast and spread over the
    rows, a splat zero under the maximum) and the spelling of the host (two dot_generals, bias vectors laid out by
    broadcast_in_dim) are both this function (`tile_net`, `host_net`).
-/
import Idealize.ShloMosaic.Lib.Pipeline.Value
import Idealize.ShloMosaic.Lib.ValueIdx
import Idealize.ShloMosaic.Lib.ValueLayout
import Idealize.ShloMosaic.PureOps.Ideal.Laws
import proofs.«154507_j64252710748259_2_alg».proof.Proof.LibDenseLayer

noncomputable section

open scoped BigOperators

namespace Cert.Mlp

open Idealize.ShloMosaic Idealize.ShloMosaic.ValueIdx

/-- A sum over `h'` places whose terms vanish from place `h` on is the sum over the first `h` places. -/
theorem sum_pad {M : Type*} [AddCommMonoid M] {h h' : ℕ} (hle : h ≤ h') (f : Fin h' → M)
    (hf : ∀ c : Fin h', h ≤ c.val → f c = 0) : ∑ c, f c = ∑ c : Fin h, f (Fin.castLE hle c) := by
  have e : ∑ c : Fin h, f (Fin.castLE hle c)
      = ∑ c ∈ Finset.univ.map ⟨Fin.castLE hle, Fin.castLE_injective hle⟩, f c := by
    rw [Finset.sum_map]; rfl
  rw [e]
  symm
  refine Finset.sum_subset (Finset.subset_univ _) fun c _ hc => hf c ?_
  by_contra hlt
  exact hc (Finset.mem_map.mpr ⟨⟨c.val, by omega⟩, Finset.mem_univ _, Fin.ext rfl⟩)

variable {a k h n : ℕ}

/-- A matrix of extended reals. -/
abbrev Mat (p q : ℕ) : Type := (⟨2, ![p, q]⟩ : Shape).Idx → EReal

/-- The residual combination: `one * x + g`, entry by entry. -/
def comb (one : EReal) (x g : Mat a k) : Mat a k := fun i => one * x i + g i

/-- The hidden layer: the biased product, rectified. -/
def hidden (z : Mat a k) (W : Mat k h) (B : Mat 1 h) : Mat a h := fun i => max (Cert.Dense.biased z W B i) 0

/-- The network: the biased product of the hidden layer. -/
def net (z : Mat a k) (W1 : Mat k h) (B1 : Mat 1 h) (W2 : Mat h n) (B2 : Mat 1 n) : Mat a n :=
  Cert.Dense.biased (hidden z W1 B1) W2 B2

/-- A vector laid out as a one-row matrix. -/
def rowOf (b : (⟨1, ![n]⟩ : Shape).Idx → EReal) : Mat 1 n := fun i => b (ix1 (i 1))

/-- The reshape [n] -> [1, n] of a vector is its one-row matrix. -/
theorem shapeCast_eq_rowOf (b : (⟨1, ![n]⟩ : Shape).Idx → EReal) (hc : (⟨1, ![n]⟩ : Shape).ShapeCasts ⟨2, ![1, n]⟩) :
    shapeCast ⟨2, ![1, n]⟩ b hc = rowOf b := by
  funext j
  obtain ⟨u, q, rfl⟩ : ∃ (u : Fin 1) (q : Fin n), j = ix2 u q := ⟨j 0, j 1, eq_ix2 j⟩
  exact shapeCast_a_1a_apply b hc u q

/-- The broadcast_in_dim [n] -> [1, n] along axis 1 of a vector is its one-row matrix. -/
theorem bcast_eq_rowOf (b : (⟨1, ![n]⟩ : Shape).Idx → EReal) (hb : (⟨1, ![n]⟩ : Shape).BroadcastsInDim ⟨2, ![1, n]⟩ ![1]) :
    broadcastInDim ⟨2, ![1, n]⟩ ![1] hb b = rowOf b := by
  funext j
  obtain ⟨u, q, rfl⟩ : ∃ (u : Fin 1) (q : Fin n), j = ix2 u q := ⟨j 0, j 1, eq_ix2 j⟩
  refine broadcastInDim_apply ![1] hb b (ix2 u q) (ix1 q) fun ax => ?_
  match ax with
  | ⟨0, _⟩ =>
    show q.val = if n = 1 then 0 else q.val
    split
    · have := q.isLt; omega
    · rfl

theorem net_ix2 (z : Mat a k) (W1 : Mat k h) (B1 : Mat 1 h) (W2 : Mat h n) (B2 : Mat 1 n) (r : Fin a) (q : Fin n) :
    net z W1 B1 W2 B2 (ix2 r q)
      = (∑ c : Fin h, max ((∑ j : Fin k, z (ix2 r j) * W1 (ix2 j c)) + B1 (ix2 (0 : Fin 1) c)) 0 * W2 (ix2 c q))
        + B2 (ix2 (0 : Fin 1) q) := rfl

/-- Row `r` of the result depends on row `r` of the input only: if `z'` holds, in row `p`, row `o p` of `z`,
    then the network of `z'` holds, in row `p`, row `o p` of the network of `z`. -/
theorem net_rows {a' : ℕ} (o : Fin a' → Fin a) (z' : Mat a' k) (z : Mat a k) (W1 : Mat k h) (B1 : Mat 1 h)
    (W2 : Mat h n) (B2 : Mat 1 n) (hz : ∀ p j, z' (ix2 p j) = z (ix2 (o p) j)) (p : Fin a') (q : Fin n) :
    net z' W1 B1 W2 B2 (ix2 p q) = net z W1 B1 W2 B2 (ix2 (o p) q) := by
  rw [net_ix2, net_ix2]
  simp only [hz]

/-- Hidden units added as zeros change nothing: `W1'`, `B1'` are `W1`, `B1` with zero columns from `h` on and
    `W2'` is `W2` with zero rows from `h` on. -/
theorem net_pad {h' : ℕ} (hle : h ≤ h') (z : Mat a k) (W1 : Mat k h) (B1 : Mat 1 h) (W2 : Mat h n) (B2 : Mat 1 n)
    (W1' : Mat k h') (B1' : Mat 1 h') (W2' : Mat h' n)
    (hW1 : ∀ (j : Fin k) (c : Fin h), W1' (ix2 j (Fin.castLE hle c)) = W1 (ix2 j c))
    (hB1 : ∀ c : Fin h, B1' (ix2 (0 : Fin 1) (Fin.castLE hle c)) = B1 (ix2 (0 : Fin 1) c))
    (hW2 : ∀ (c : Fin h) (q : Fin n), W2' (ix2 (Fin.castLE hle c) q) = W2 (ix2 c q))
    (hW2z : ∀ (c : Fin h') (q : Fin n), h ≤ c.val → W2' (ix2 c q) = 0) :
    net z W1' B1' W2' B2 = net z W1 B1 W2 B2 := by
  funext i
  obtain ⟨r, q, rfl⟩ : ∃ (r : Fin a) (q : Fin n), i = ix2 r q := ⟨i 0, i 1, eq_ix2 i⟩
  rw [net_ix2, net_ix2]
  congr 1
  rw [sum_pad hle _ (fun c hc => by rw [hW2z c q hc, mul_zero])]
  refine Finset.sum_congr rfl fun c _ => ?_
  simp only [hW1, hB1, hW2]

section Spellings

variable (d1 : DotDims ⟨2, ![a, k]⟩ ⟨2, ![k, h]⟩ ⟨2, ![a, h]⟩)
  (h1lc : d1.lhsContracting = [1]) (h1rc : d1.rhsContracting = [0]) (h1ln : d1.lhsNonContracting = [0])
  (h1rn : d1.rhsNonContracting = [1]) (h1lb : d1.lhsBatch = []) (h1rb : d1.rhsBatch = [])
  (d2 : DotDims ⟨2, ![a, h]⟩ ⟨2, ![h, n]⟩ ⟨2, ![a, n]⟩)
  (h2lc : d2.lhsContracting = [1]) (h2rc : d2.rhsContracting = [0]) (h2ln : d2.lhsNonContracting = [0])
  (h2rn : d2.rhsNonContracting = [1]) (h2lb : d2.lhsBatch = []) (h2rb : d2.rhsBatch = [])

include h1lc h1rc h1ln h1rn h1lb h1rb h2lc h2rc h2ln h2rn h2lb h2rb in
/-- The tile's spelling is the network of the combined input: both products are sums over the contracted axis, each
    bias row cast to its own shape and spread over the rows reads its column's entry, and the zero word denotes 0. -/
theorem tile_net (one : BitVec 32) (x0 x1 : FVec Ideal ⟨2, ![a, k]⟩ .f32) (x2 : FVec Ideal ⟨2, ![k, h]⟩ .f32)
    (x3 : FVec Ideal ⟨2, ![1, h]⟩ .f32) (x4 : FVec Ideal ⟨2, ![h, n]⟩ .f32) (x5 : FVec Ideal ⟨2, ![1, n]⟩ .f32)
    (c1 : (⟨2, ![a, k]⟩ : Shape).ShapeCasts ⟨2, ![a, k]⟩) (c2 : (⟨2, ![k, h]⟩ : Shape).ShapeCasts ⟨2, ![k, h]⟩)
    (c3 : (⟨2, ![1, h]⟩ : Shape).ShapeCasts ⟨2, ![1, h]⟩) (b3 : (⟨2, ![1, h]⟩ : Shape).Broadcasts ⟨2, ![a, h]⟩)
    (c4 : (⟨2, ![h, n]⟩ : Shape).ShapeCasts ⟨2, ![h, n]⟩)
    (c5 : (⟨2, ![1, n]⟩ : Shape).ShapeCasts ⟨2, ![1, n]⟩) (b5 : (⟨2, ![1, n]⟩ : Shape).Broadcasts ⟨2, ![a, n]⟩)
    (p : Fin a) (q : Fin n) :
    addf (matmul d2 none
          (maximumf
            (addf (matmul d1 none
                    (addf (mulf (broadcast ⟨2, ![a, k]⟩ (Scalar.ofBits (F := Ideal) .f32 one)) x0) (shapeCast ⟨2, ![a, k]⟩ x1 c1))
                    (shapeCast ⟨2, ![k, h]⟩ x2 c2) (constant ⟨2, ![a, h]⟩ .f32 0x00000000#32))
              (broadcastTo ⟨2, ![a, h]⟩ (shapeCast ⟨2, ![1, h]⟩ x3 c3) b3))
            (broadcast ⟨2, ![a, h]⟩ (Scalar.ofBits (F := Ideal) .f32 0x00000000#32)))
          (shapeCast ⟨2, ![h, n]⟩ x4 c4) (constant ⟨2, ![a, n]⟩ .f32 0x00000000#32))
        (broadcastTo ⟨2, ![a, n]⟩ (shapeCast ⟨2, ![1, n]⟩ x5 c5) b5) (ix2 p q)
      = net (comb (Ideal.ofBits .f32 one) x0 x1) x2 x3 x4 x5 (ix2 p q) := by
  rw [Cert.Dense.tile_biased, net_ix2]
  congr 1
  refine (Cert.LibMatmulPlain.matmul_zero_apply d2 h2lc h2rc h2ln h2rn h2lb h2rb none _ _ p q).trans ?_
  refine Finset.sum_congr rfl fun c _ => ?_
  rw [shapeCast_self, maximumf_apply, broadcast_apply, Cert.Dense.tile_biased, shapeCast_self, shapeCast_self]
  show max _ (Ideal.ofBits .f32 0x00000000#32) * _ = _
  rw [Ideal.ofBits_zero_f32]
  congr 3
  exact Cert.LibMatmulPlain.matmul_zero_apply d1 h1lc h1rc h1ln h1rn h1lb h1rb none _ _ p c

include h1lc h1rc h1ln h1rn h1lb h1rb h2lc h2rc h2ln h2rn h2lb h2rb in
/-- The host's spelling is the network of the combined input, as whole arrays: each dot_general is the product, a
    bias row laid over the rows by broadcast_in_dim reads its column's entry, the splat one and the splat zero
    read their words. -/
theorem host_net (one : BitVec 32) (x g : FVec Ideal ⟨2, ![a, k]⟩ .f32) (W1 : FVec Ideal ⟨2, ![k, h]⟩ .f32)
    (B1 : FVec Ideal ⟨2, ![1, h]⟩ .f32) (W2 : FVec Ideal ⟨2, ![h, n]⟩ .f32) (B2 : FVec Ideal ⟨2, ![1, n]⟩ .f32)
    (s1 : (⟨0, ![]⟩ : Shape).BroadcastsInDim ⟨2, ![a, k]⟩ ![]) (s0 : (⟨0, ![]⟩ : Shape).BroadcastsInDim ⟨2, ![a, h]⟩ ![])
    (hB1 : (⟨2, ![1, h]⟩ : Shape).BroadcastsInDim ⟨2, ![a, h]⟩ ![0, 1])
    (hB2 : (⟨2, ![1, n]⟩ : Shape).BroadcastsInDim ⟨2, ![a, n]⟩ ![0, 1]) :
    addf (Host.dotGeneral d2 none
          (maximumf
            (addf (Host.dotGeneral d1 none
                    (addf (mulf (broadcastInDim ⟨2, ![a, k]⟩ ![] s1 (constant (F := Ideal) ⟨0, ![]⟩ .f32 one)) x) g) W1)
              (broadcastInDim ⟨2, ![a, h]⟩ ![0, 1] hB1 B1))
            (broadcastInDim ⟨2, ![a, h]⟩ ![] s0 (constant (F := Ideal) ⟨0, ![]⟩ .f32 0x00000000#32)))
          W2)
        (broadcastInDim ⟨2, ![a, n]⟩ ![0, 1] hB2 B2)
      = net (comb (Ideal.ofBits .f32 one) x g) W1 B1 W2 B2 := by
  funext i
  obtain ⟨r, q, rfl⟩ : ∃ (r : Fin a) (q : Fin n), i = ix2 r q := ⟨i 0, i 1, eq_ix2 i⟩
  rw [Cert.Dense.host_biased, Cert.Dense.dotGeneral_eq_prod d2 h2lc h2rc h2ln h2rn h2lb h2rb, Cert.Dense.prod_ix2, net_ix2]
  congr 1
  refine Finset.sum_congr rfl fun c _ => ?_
  rw [maximumf_apply, Cert.Dense.host_biased, Cert.Dense.dotGeneral_eq_prod d1 h1lc h1rc h1ln h1rn h1lb h1rb, Cert.Dense.prod_ix2,
    broadcastInDim_apply ![] s0 _ (ix2 r c) ix0 (fun ax => ax.elim0), constant_apply, Ideal.ofBits_zero_f32]
  congr 3

end Spellings

end Cert.Mlp

end
-- ==== Proof.Spec.lean ====
/-
  What the two programs compute, as functions of arrays of extended reals.

  A graph block: every edge carries the affine image e = a W + b of its attribute row; a node's
  aggregate is the sum, over the edges arriving at it, of max(x(source) + e, 0); the node update is a
  two-layer perceptron of aggregate + x; and the result is normalized per column over ALL nodes, scaled,
  shifted and rectified.  Only the last step is spelt differently by the two programs:

  * the one-pass form `normMoments` takes the column's mean m = S1 / N and mean square S2 / N, forms the
    variance as max(S2 / N - m m (c (2 - c)), 0), and multiplies by the reciprocal square root;
  * the two-pass form `normCentred` subtracts c m first, takes the mean of the squares of the differences
    as the variance, and divides by the square root.

  Over real entries the two agree: expanding (h - c m)^2 and summing gives S2 - 2 c m S1 + N c^2 m^2, which
  divided by N is S2 / N - m^2 c (2 - c); that number is a mean of squares, so bounding it below by 0 changes
  nothing; and for a positive real v, multiplying by 1 / sqrt v is dividing by sqrt v.
-/
import Idealize.ShloMosaic.Lib.ValueIdx
import Idealize.ShloMosaic.PureOps.Ideal
import proofs.«154507_j64252710748259_2_alg».proof.Proof.LibMlp

noncomputable section

open scoped BigOperators

namespace Cert.GraphNorm

open Idealize.ShloMosaic Idealize.ShloMosaic.ValueIdx Cert.Mlp

variable {n d : ℕ}

/-- A vector of extended reals. -/
abbrev Vec1 (d : ℕ) : Type := (⟨1, ![d]⟩ : Shape).Idx → EReal

/-- The sum of column `q` over all rows. -/
def colSum (h : Mat n d) (q : Fin d) : EReal := ∑ r : Fin n, h (ix2 r q)

/-- The entrywise square. -/
def sq (h : Mat n d) : Mat n d := fun i => h i * h i

/-- The entrywise sum of two matrices. -/
def plus (a b : Mat n d) : Mat n d := fun i => a i + b i

/-- One-pass normalization: variance from the first two moments, bounded below by zero, then the reciprocal
    square root. `Nw`, `eps`, `two` are the extended reals the program's three literals denote. -/
def normMoments (Nw eps two : EReal) (h : Mat n d) (gw gb c : Vec1 d) : Mat n d := fun i =>
  let q := i 1
  let mean := Ideal.div (colSum h q) Nw
  let msq := Ideal.div (colSum (sq h) q) Nw
  let var := max (msq - (mean * mean) * (c (ix1 q) * (two - c (ix1 q)))) 0
  max ((gw (ix1 q) * (h i - c (ix1 q) * mean)) * Ideal.rsqrt (var + eps) + gb (ix1 q)) 0

/-- The centred column: entry (r, q) less c(q) times the column's mean. -/
def centred (Nw : EReal) (h : Mat n d) (c : Vec1 d) : Mat n d := fun i =>
  h i - c (ix1 (i 1)) * Ideal.div (colSum h (i 1)) Nw

/-- Two-pass normalization: the variance is the mean of the squared centred column; division by its square root. -/
def normCentred (Nw eps : EReal) (h : Mat n d) (gw gb c : Vec1 d) : Mat n d := fun i =>
  let q := i 1
  let var := Ideal.div (colSum (sq (centred Nw h c)) q) Nw
  max (Ideal.div (gw (ix1 q) * centred Nw h c i) (Ideal.sqrt (var + eps)) + gb (ix1 q)) 0

theorem normMoments_ix2 (Nw eps two : EReal) (h : Mat n d) (gw gb c : Vec1 d) (r : Fin n) (q : Fin d) :
    normMoments Nw eps two h gw gb c (ix2 r q)
      = max ((gw (ix1 q) * (h (ix2 r q) - c (ix1 q) * Ideal.div (colSum h q) Nw))
          * Ideal.rsqrt (max (Ideal.div (colSum (sq h) q) Nw
              - (Ideal.div (colSum h q) Nw * Ideal.div (colSum h q) Nw) * (c (ix1 q) * (two - c (ix1 q)))) 0 + eps)
          + gb (ix1 q)) 0 := rfl

theorem normCentred_ix2 (Nw eps : EReal) (h : Mat n d) (gw gb c : Vec1 d) (r : Fin n) (q : Fin d) :
    normCentred Nw eps h gw gb c (ix2 r q)
      = max (Ideal.div (gw (ix1 q) * (h (ix2 r q) - c (ix1 q) * Ideal.div (colSum h q) Nw))
          (Ideal.sqrt (Ideal.div (colSum (sq (centred Nw h c)) q) Nw + eps)) + gb (ix1 q)) 0 := rfl

/-- The edge layer: the biased product with the bias vector as a row. -/
def edgeLin {e k : ℕ} (a : Mat e k) (W : Mat k d) (b : Vec1 d) : Mat e d := Cert.Dense.biased a W (rowOf b)

/-- The node update: the two-layer perceptron of aggregate + x, the bias vectors as rows. -/
def nodeNet {k hd : ℕ} (agg x : Mat n k) (W1 : Mat k hd) (b1 : Vec1 hd) (W2 : Mat hd d) (b2 : Vec1 d) : Mat n d :=
  net (plus agg x) W1 (rowOf b1) W2 (rowOf b2)

end Cert.GraphNorm

end
-- ==== Proof.Region0.lean ====
/-
  The edge layer's region, read as one array.

  The grid has 200 points; point t stages rows 8000 t .. 8000 t + 7999 of the attribute array, the whole weight
  matrix and the whole bias, and writes back rows 8000 t .. 8000 t + 7999 of the edge array.  On a block the tile's
  arithmetic (the matrix unit's product of the operands rounded to bfloat16 into a zero accumulator, the bias cast to a
  row and spread over the rows, the sum rounded to bfloat16 — each rounding the identity on an extended real) is the
  edge layer e = a W + b of the block; a row of the edge layer looks at the same row of the attribute array only; and
  every row lies in the block of the point (row / 8000).  So after the region the edge array is the edge layer of the
  whole attribute array, whatever the region found in it.
-/
import proofs.«154507_j64252710748259_2_alg».proof.Proof.Gen.KernelIdeal.Frame
import proofs.«154507_j64252710748259_2_alg».proof.Proof.Spec
import Idealize.ShloMosaic.Lib.Pipeline.Value
import Idealize.ShloMosaic.Lib.ValueLayout

set_option maxRecDepth 16384

noncomputable section

namespace Cert.GraphNorm

open Idealize.ShloMosaic Idealize.ShloMosaic.ValueIdx Cert.Mlp

/-- Row `p` of the edge layer looks at row `p` of the attribute array only: if `X'` holds, in row `p`, row `o p` of
    `X`, the edge layer of `X'` holds, in row `p`, row `o p` of the edge layer of `X`. -/
theorem edgeLin_rows {a a' k d : ℕ} (o : Fin a' → Fin a) (X' : Mat a' k) (X : Mat a k) (W : Mat k d) (b : Vec1 d)
    (hX : ∀ p j, X' (ix2 p j) = X (ix2 (o p) j)) (i : (⟨2, ![a', d]⟩ : Shape).Idx) :
    edgeLin X' W b i = edgeLin X W b (ix2 (o (i 0)) (i 1)) := by
  show (∑ c : Fin k, X' (ix2 (i 0) c) * W (ix2 c (i 1))) + rowOf b (ix2 (0 : Fin 1) (i 1))
     = (∑ c : Fin k, X (ix2 (o (i 0)) c) * W (ix2 c (i 1))) + rowOf b (ix2 (0 : Fin 1) (i 1))
  exact congrArg (· + rowOf b (ix2 (0 : Fin 1) (i 1)))
    (Finset.sum_congr rfl fun c _ => congrArg (· * W (ix2 c (i 1))) (hX (i 0) c))

end Cert.GraphNorm

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The tile's arithmetic on a block of 8000 attribute rows is the edge layer of that block. -/
theorem pay_eq (x0 : FVec Ideal S8000x32 .f32) (x1 : FVec Ideal S32x128 .f32) (x2 : FVec Ideal S128 .f32) :
    k0_pay1 (F := Ideal) x0 x1 x2 = Cert.GraphNorm.edgeLin x0 x1 x2 := by
  funext j
  obtain ⟨p, q, rfl⟩ : ∃ (p : Fin 8000) (q : Fin 128), j = ix2 p q := ⟨j 0, j 1, eq_ix2 j⟩
  unfold k0_pay1
  show addf (matmul dot_S8000x32_S32x128_S8000x128_1_0_0_1_n_n none (truncf .bf16 x0 bitsLt_bf16_f32) (truncf .bf16 x1 bitsLt_bf16_f32) (constant S8000x128 .f32 0x00000000#32))
      (broadcastTo S8000x128 (shapeCast S1x128 x2 shapeCasts_S128_S1x128) broadcasts_S1x128_S8000x128) (ix2 p q) = _
  rw [addf_apply, Cert.Dense.matmul_eq_prod dot_S8000x32_S32x128_S8000x128_1_0_0_1_n_n rfl rfl rfl rfl rfl rfl,
    broadcastTo_1b_ab_apply, Cert.Mlp.shapeCast_eq_rowOf]
  rfl

/-- The printed index maps over the 200 grid points: the attribute window and the output window move one block of
    8000 rows per point; the weight matrix and the bias are one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Row `p` of point `t`'s block is row `8000 t + p` of the array. -/
def rowAt (t : Fin cfg0.N) (p : Fin 8000) : Fin 1600000 := ⟨8000 * t.val + p.val, by
  have hN : cfg0.N = 200 := N_0
  have h1 := t.isLt; have h2 := p.isLt; omega⟩

theorem blk0 (c : Dev nD) (t : Fin cfg0.N) (p : Fin 8000) (k : Fin 32) :
    iblk0 V c 0 t (ix2 p k) = V c (Pipeline.arrRef spec0 0) (ix2 (rowAt t p) k) := by
  obtain ⟨e0, e1, -, -, -, -, -⟩ := idx_facts t
  show V c (Pipeline.arrRef spec0 0) (((cfg0.win 0).blk t).view.emb (ix2 p k)) = _
  refine congrArg _ (funext fun a => Fin.ext ?_)
  match a with
  | ⟨0, _⟩ => show win0_0.index t (0 : Fin 2) * 8000 + 1 * p.val = 8000 * t.val + p.val; omega
  | ⟨1, _⟩ => show win0_0.index t (1 : Fin 2) * 32 + 1 * k.val = k.val; omega

theorem blk1 (c : Dev nD) (t : Fin cfg0.N) : iblk0 V c 1 t = V c (Pipeline.arrRef spec0 1) := by
  obtain ⟨-, -, e2, e3, -, -, -⟩ := idx_facts t
  funext y
  show V c (Pipeline.arrRef spec0 1) (((cfg0.win 1).blk t).view.emb y) = _
  refine congrArg _ (funext fun a => Fin.ext ?_)
  match a with
  | ⟨0, _⟩ => show win0_1.index t (0 : Fin 2) * 32 + 1 * (y 0).val = (y 0).val; omega
  | ⟨1, _⟩ => show win0_1.index t (1 : Fin 2) * 128 + 1 * (y 1).val = (y 1).val; omega

theorem blk2 (c : Dev nD) (t : Fin cfg0.N) : iblk0 V c 2 t = V c (Pipeline.arrRef spec0 2) := by
  obtain ⟨-, -, -, -, e4, -, -⟩ := idx_facts t
  funext y
  show V c (Pipeline.arrRef spec0 2) (((cfg0.win 2).blk t).view.emb y) = _
  refine congrArg _ (funext fun a => Fin.ext ?_)
  match a with
  | ⟨0, _⟩ => show win0_2.index t (0 : Fin 1) * 128 + 1 * (y 0).val = (y 0).val; omega

/-- What point `t` writes back is block `t` of the edge layer of the whole arrays. -/
theorem flushed_eq (c : Dev nD) (t : Fin cfg0.N) :
    (dat0 (F := Ideal) V c).flushed 3 t = ((cfg0.win 3).blk t).view.read (Elt Ideal)
      (Cert.GraphNorm.edgeLin (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero hz2]
  simp only [View.ld_unit_zero (S := S8000x32) hz2, View.ld_unit_zero (S := S32x128) hz2, View.ld_unit_zero (S := S128) hz1]
  rw [pay_eq, blk1, blk2]
  obtain ⟨-, -, -, -, -, e5, e6⟩ := idx_facts t
  funext j
  show Cert.GraphNorm.edgeLin (iblk0 V c 0 t) (V c (Pipeline.arrRef spec0 1)) (V c (Pipeline.arrRef spec0 2)) j
     = Cert.GraphNorm.edgeLin (V c (Pipeline.arrRef spec0 0)) (V c (Pipeline.arrRef spec0 1)) (V c (Pipeline.arrRef spec0 2)) (((cfg0.win 3).blk t).view.emb j)
  rw [Cert.GraphNorm.edgeLin_rows (rowAt t) _ _ _ _ (blk0 V c t)]
  refine congrArg _ (funext fun a => Fin.ext ?_)
  match a with
  | ⟨0, _⟩ => show 8000 * t.val + (j 0).val = win0_3.index t (0 : Fin 2) * 8000 + 1 * (j 0).val; omega
  | ⟨1, _⟩ => show (j 1).val = win0_3.index t (1 : Fin 2) * 128 + 1 * (j 1).val; omega

theorem mem_blk (t : Fin cfg0.N) (i : S1600000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_v4).slice (win0_3.rect t)).set ↔ _
  rw [View.set_slice_whole, Rect.mem_set_unit]
  exact Iff.rfl

/-- Every row lies in the block of the point `row / 8000`. -/
theorem cover (i : S1600000x128.Idx) : ∃ t : Fin cfg0.N, (cfg0.win 3).flush t = true ∧ i ∈ ((cfg0.win 3).blk t).view.set := by
  have hi0 : (i 0).val < 1600000 := (i 0).isLt
  have hi1 : (i 1).val < 128 := (i 1).isLt
  have hN : cfg0.N = 200 := N_0
  let t : Fin cfg0.N := ⟨(i 0).val / 8000, by omega⟩
  obtain ⟨-, -, -, -, -, e5, e6⟩ := idx_facts t
  refine ⟨t, flush0_3 t, ?_⟩
  rw [mem_blk]
  intro a
  have ht : t.val = (i 0).val / 8000 := rfl
  match a with
  | ⟨0, _⟩ => show win0_3.index t (0 : Fin 2) * 8000 ≤ (i 0).val ∧ (i 0).val < win0_3.index t (0 : Fin 2) * 8000 + 8000; omega
  | ⟨1, _⟩ => show win0_3.index t (1 : Fin 2) * 128 ≤ (i 1).val ∧ (i 1).val < win0_3.index t (1 : Fin 2) * 128 + 128; omega

/-- After the region the edge array holds the edge layer of the attribute array, the weights and the bias. -/
theorem final_e (c : Dev nD) : (dat0 (F := Ideal) V c).arrAt 3 cfg0.N
    = Cert.GraphNorm.edgeLin (V c (Pipeline.arrRef spec0 0)) (V c (Pipeline.arrRef spec0 1)) (V c (Pipeline.arrRef spec0 2)) :=
  (dat0 (F := Ideal) V c).arrAt_eq_of_cover 3 _ (fun t _ => flushed_eq V c t) cover

end Cert.KernelIdeal.Region0

end
-- ==== Proof.HostValues.lean ====
/-
  The buffer contents at the boundaries of the kernel's host code, up to the node network's region.

  Each stretch of host operations is read once, over ANY contents W of the buffers before it: the buffer an
  operation writes holds the operation's function of the buffers it reads, and a buffer no operation of the stretch
  writes holds what it held.  Chaining the stretches from the launch memory m: the first region finds the arguments
  as launched and leaves the edge layer of (edge attributes, weights, bias) in the edge array; the three stretches
  after it gather the source rows of x (a negative row number wrapped round by the number of nodes), add the edge
  array, rectify, and scatter-add into zeros at the destination rows — the aggregate `aggK` of the launch contents —,
  and leave every argument as launched.
-/
import proofs.«154507_j64252710748259_2_alg».proof.Proof.KernelRun
import proofs.«154507_j64252710748259_2_alg».proof.Proof.Spec
import proofs.«154507_j64252710748259_2_alg».proof.Proof.Region0
import Idealize.ShloMosaic.Lib.StableHlo.Run
import Idealize.ShloMosaic.PureOps.Ideal

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

/-- The source rows of the edges: row 0 of the index array, a negative number wrapped round by the number of nodes,
    laid out as a column. -/
def srcCol (x1 : S2x1600000.Idx → BitVec 32) : S1600000x1.Idx → BitVec 32 :=
  broadcastInDim S1600000x1 ![0] bcast_S1600000_S1600000x1_0
    (select (cmpi .slt (shapeCast S1600000 (extractStridedSlice S1x1600000 ![0, 0] x1 slices_S2x1600000_S1x1600000_0_0) shapeCasts_S1x1600000_S1600000)
        (broadcastInDim S1600000 ![] bcast_S_S1600000 (constantI S_ 32 0#32)))
      (addi (shapeCast S1600000 (extractStridedSlice S1x1600000 ![0, 0] x1 slices_S2x1600000_S1x1600000_0_0) shapeCasts_S1x1600000_S1600000)
        (broadcastInDim S1600000 ![] bcast_S_S1600000 (constantI S_ 32 100000#32)))
      (shapeCast S1600000 (extractStridedSlice S1x1600000 ![0, 0] x1 slices_S2x1600000_S1x1600000_0_0) shapeCasts_S1x1600000_S1600000))

/-- The destination rows of the edges: row 1 of the index array laid out as a column. -/
def dstCol (x1 : S2x1600000.Idx → BitVec 32) : S1600000x1.Idx → BitVec 32 :=
  broadcastInDim S1600000x1 ![0] bcast_S1600000_S1600000x1_0
    (shapeCast S1600000 (extractStridedSlice S1x1600000 ![1, 0] x1 slices_S2x1600000_S1x1600000_1_0) shapeCasts_S1x1600000_S1600000)

/-- The aggregation as the kernel's host code spells it: gather the source rows of x, add the edge array, rectify,
    scatter-add into zeros at the destination rows. -/
def aggK (x0 : S100000x128.Idx → EReal) (x1 : S2x1600000.Idx → BitVec 32) (e : S1600000x128.Idx → EReal) : S100000x128.Idx → EReal :=
  Host.scatterAdd (F := Ideal) scatter_S100000x128_S1600000x1_S1600000x128_1_0_0_1
    (broadcastInDim S100000x128 ![] bcast_S_S100000x128 (constant (F := Ideal) S_ .f32 0x00000000#32))
    (dstCol x1)
    (maximumf (addf (Host.gather gather_S100000x128_S1600000x1_S1600000x128_1_0_n_n_0_1_1128 x0 (srcCol x1)) e)
      (broadcastInDim S1600000x128 ![] bcast_S_S1600000x128 (constant (F := Ideal) S_ .f32 0x00000000#32)))

section Stretches

variable (W : Valuation τ sig (Elt Ideal))

theorem s0_v1 : after (hostOps0 (F := Ideal)) W (Proc.devRef .tc main_v1)
    = shapeCast S1600000 (extractStridedSlice S1x1600000 ![0, 0] (W (Proc.devRef .tc main_arg1)) slices_S2x1600000_S1x1600000_0_0) shapeCasts_S1x1600000_S1600000 := by
  after_results <;> rfl

theorem s0_v3 : after (hostOps0 (F := Ideal)) W (Proc.devRef .tc main_v3)
    = shapeCast S1600000 (extractStridedSlice S1x1600000 ![1, 0] (W (Proc.devRef .tc main_arg1)) slices_S2x1600000_S1x1600000_1_0) shapeCasts_S1x1600000_S1600000 := by
  after_results <;> rfl

theorem s1_v13 : after (hostOps1 (F := Ideal)) W (Proc.devRef .tc main_v13)
    = (addf (F := Ideal) (Host.gather gather_S100000x128_S1600000x1_S1600000x128_1_0_n_n_0_1_1128 (W (Proc.devRef .tc main_arg0))
        (broadcastInDim S1600000x1 ![0] bcast_S1600000_S1600000x1_0
          (select (cmpi .slt (W (Proc.devRef .tc main_v1)) (broadcastInDim S1600000 ![] bcast_S_S1600000 (constantI S_ 32 0#32)))
            (addi (W (Proc.devRef .tc main_v1)) (broadcastInDim S1600000 ![] bcast_S_S1600000 (constantI S_ 32 100000#32)))
            (W (Proc.devRef .tc main_v1)))))
      (extf (F := Ideal) .f32 (W (Proc.devRef .tc main_v4)) bitsLt_bf16_f32) : (⟨S1600000x128, .f32⟩ : BufTy).Contents (Elt Ideal)) := by
  after_results <;> rfl

theorem s11_v14 : after (hostOps1_1 (F := Ideal)) W (Proc.devRef .tc main_v14)
    = maximumf (W (Proc.devRef .tc main_v13)) (broadcastInDim S1600000x128 ![] bcast_S_S1600000x128 (constant (F := Ideal) S_ .f32 0x00000000#32)) := by
  after_results <;> rfl

theorem s12_v17 : after (hostOps1_2 (F := Ideal)) W (Proc.devRef .tc main_v17)
    = Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (W (Proc.devRef .tc main_v3)))
        (W (Proc.devRef .tc main_v14)) := by
  after_results <;> rfl

/-! A stretch leaves alone every buffer it does not write. -/

theorem keep0_main_arg0 : after (hostOps0 (F := Ideal)) W (Proc.devRef .tc main_arg0) = W (Proc.devRef .tc main_arg0) := by
  after_results <;> rfl
theorem keep0_main_arg1 : after (hostOps0 (F := Ideal)) W (Proc.devRef .tc main_arg1) = W (Proc.devRef .tc main_arg1) := by
  after_results <;> rfl
theorem keep0_main_arg2 : after (hostOps0 (F := Ideal)) W (Proc.devRef .tc main_arg2) = W (Proc.devRef .tc main_arg2) := by
  after_results <;> rfl
theorem keep0_main_arg3 : after (hostOps0 (F := Ideal)) W (Proc.devRef .tc main_arg3) = W (Proc.devRef .tc main_arg3) := by
  after_results <;> rfl
theorem keep0_main_arg4 : after (hostOps0 (F := Ideal)) W (Proc.devRef .tc main_arg4) = W (Proc.devRef .tc main_arg4) := by
  after_results <;> rfl
theorem keep0_main_arg5 : after (hostOps0 (F := Ideal)) W (Proc.devRef .tc main_arg5) = W (Proc.devRef .tc main_arg5) := by
  after_results <;> rfl
theorem keep0_main_arg6 : after (hostOps0 (F := Ideal)) W (Proc.devRef .tc main_arg6) = W (Proc.devRef .tc main_arg6) := by
  after_results <;> rfl
theorem keep0_main_arg7 : after (hostOps0 (F := Ideal)) W (Proc.devRef .tc main_arg7) = W (Proc.devRef .tc main_arg7) := by
  after_results <;> rfl
theorem keep0_main_arg8 : after (hostOps0 (F := Ideal)) W (Proc.devRef .tc main_arg8) = W (Proc.devRef .tc main_arg8) := by
  after_results <;> rfl
theorem keep0_main_arg9 : after (hostOps0 (F := Ideal)) W (Proc.devRef .tc main_arg9) = W (Proc.devRef .tc main_arg9) := by
  after_results <;> rfl
theorem keep0_main_arg10 : after (hostOps0 (F := Ideal)) W (Proc.devRef .tc main_arg10) = W (Proc.devRef .tc main_arg10) := by
  after_results <;> rfl
theorem keep0_main_arg11 : after (hostOps0 (F := Ideal)) W (Proc.devRef .tc main_arg11) = W (Proc.devRef .tc main_arg11) := by
  after_results <;> rfl
theorem keep1_main_arg0 : after (hostOps1 (F := Ideal)) W (Proc.devRef .tc main_arg0) = W (Proc.devRef .tc main_arg0) := by
  after_results <;> rfl
theorem keep1_main_arg5 : after (hostOps1 (F := Ideal)) W (Proc.devRef .tc main_arg5) = W (Proc.devRef .tc main_arg5) := by
  after_results <;> rfl
theorem keep1_main_arg6 : after (hostOps1 (F := Ideal)) W (Proc.devRef .tc main_arg6) = W (Proc.devRef .tc main_arg6) := by
  after_results <;> rfl
theorem keep1_main_arg7 : after (hostOps1 (F := Ideal)) W (Proc.devRef .tc main_arg7) = W (Proc.devRef .tc main_arg7) := by
  after_results <;> rfl
theorem keep1_main_arg8 : after (hostOps1 (F := Ideal)) W (Proc.devRef .tc main_arg8) = W (Proc.devRef .tc main_arg8) := by
  after_results <;> rfl
theorem keep1_main_arg9 : after (hostOps1 (F := Ideal)) W (Proc.devRef .tc main_arg9) = W (Proc.devRef .tc main_arg9) := by
  after_results <;> rfl
theorem keep1_main_arg10 : after (hostOps1 (F := Ideal)) W (Proc.devRef .tc main_arg10) = W (Proc.devRef .tc main_arg10) := by
  after_results <;> rfl
theorem keep1_main_arg11 : after (hostOps1 (F := Ideal)) W (Proc.devRef .tc main_arg11) = W (Proc.devRef .tc main_arg11) := by
  after_results <;> rfl
theorem keep1_main_v3 : after (hostOps1 (F := Ideal)) W (Proc.devRef .tc main_v3) = W (Proc.devRef .tc main_v3) := by
  after_results <;> rfl
theorem keep2_main_arg9 : after (hostOps2 (F := Ideal)) W (Proc.devRef .tc main_arg9) = W (Proc.devRef .tc main_arg9) := by
  after_results <;> rfl
theorem keep2_main_arg10 : after (hostOps2 (F := Ideal)) W (Proc.devRef .tc main_arg10) = W (Proc.devRef .tc main_arg10) := by
  after_results <;> rfl
theorem keep2_main_arg11 : after (hostOps2 (F := Ideal)) W (Proc.devRef .tc main_arg11) = W (Proc.devRef .tc main_arg11) := by
  after_results <;> rfl
theorem keep2_main_v18_0 : after (hostOps2 (F := Ideal)) W (Proc.devRef .tc main_v18_0) = W (Proc.devRef .tc main_v18_0) := by
  after_results <;> rfl
theorem keep1_1_main_arg0 : after (hostOps1_1 (F := Ideal)) W (Proc.devRef .tc main_arg0) = W (Proc.devRef .tc main_arg0) := by
  after_results <;> rfl
theorem keep1_1_main_arg5 : after (hostOps1_1 (F := Ideal)) W (Proc.devRef .tc main_arg5) = W (Proc.devRef .tc main_arg5) := by
  after_results <;> rfl
theorem keep1_1_main_arg6 : after (hostOps1_1 (F := Ideal)) W (Proc.devRef .tc main_arg6) = W (Proc.devRef .tc main_arg6) := by
  after_results <;> rfl
theorem keep1_1_main_arg7 : after (hostOps1_1 (F := Ideal)) W (Proc.devRef .tc main_arg7) = W (Proc.devRef .tc main_arg7) := by
  after_results <;> rfl
theorem keep1_1_main_arg8 : after (hostOps1_1 (F := Ideal)) W (Proc.devRef .tc main_arg8) = W (Proc.devRef .tc main_arg8) := by
  after_results <;> rfl
theorem keep1_1_main_arg9 : after (hostOps1_1 (F := Ideal)) W (Proc.devRef .tc main_arg9) = W (Proc.devRef .tc main_arg9) := by
  after_results <;> rfl
theorem keep1_1_main_arg10 : after (hostOps1_1 (F := Ideal)) W (Proc.devRef .tc main_arg10) = W (Proc.devRef .tc main_arg10) := by
  after_results <;> rfl
theorem keep1_1_main_arg11 : after (hostOps1_1 (F := Ideal)) W (Proc.devRef .tc main_arg11) = W (Proc.devRef .tc main_arg11) := by
  after_results <;> rfl
theorem keep1_1_main_v3 : after (hostOps1_1 (F := Ideal)) W (Proc.devRef .tc main_v3) = W (Proc.devRef .tc main_v3) := by
  after_results <;> rfl
theorem keep1_2_main_arg0 : after (hostOps1_2 (F := Ideal)) W (Proc.devRef .tc main_arg0) = W (Proc.devRef .tc main_arg0) := by
  after_results <;> rfl
theorem keep1_2_main_arg5 : after (hostOps1_2 (F := Ideal)) W (Proc.devRef .tc main_arg5) = W (Proc.devRef .tc main_arg5) := by
  after_results <;> rfl
theorem keep1_2_main_arg6 : after (hostOps1_2 (F := Ideal)) W (Proc.devRef .tc main_arg6) = W (Proc.devRef .tc main_arg6) := by
  after_results <;> rfl
theorem keep1_2_main_arg7 : after (hostOps1_2 (F := Ideal)) W (Proc.devRef .tc main_arg7) = W (Proc.devRef .tc main_arg7) := by
  after_results <;> rfl
theorem keep1_2_main_arg8 : after (hostOps1_2 (F := Ideal)) W (Proc.devRef .tc main_arg8) = W (Proc.devRef .tc main_arg8) := by
  after_results <;> rfl
theorem keep1_2_main_arg9 : after (hostOps1_2 (F := Ideal)) W (Proc.devRef .tc main_arg9) = W (Proc.devRef .tc main_arg9) := by
  after_results <;> rfl
theorem keep1_2_main_arg10 : after (hostOps1_2 (F := Ideal)) W (Proc.devRef .tc main_arg10) = W (Proc.devRef .tc main_arg10) := by
  after_results <;> rfl
theorem keep1_2_main_arg11 : after (hostOps1_2 (F := Ideal)) W (Proc.devRef .tc main_arg11) = W (Proc.devRef .tc main_arg11) := by
  after_results <;> rfl

end Stretches

section Boundaries

variable (m : (ℓ : Loc nD τ sig) → Buf (Elt Ideal) ℓ) (ρ : Dev nD → PrngReg) (c : Dev nD)

/-! ### Region 0's entry: the arguments as launched -/
theorem W1_arg0 : W1 m ρ c (Proc.devRef .tc main_arg0) = m ((c : Thread nD τ).loc main_arg0) :=
  (keep0_main_arg0 (W0 m ρ c)).trans rfl
theorem W1_arg1 : W1 m ρ c (Proc.devRef .tc main_arg1) = m ((c : Thread nD τ).loc main_arg1) :=
  (keep0_main_arg1 (W0 m ρ c)).trans rfl
theorem W1_arg2 : W1 m ρ c (Proc.devRef .tc main_arg2) = m ((c : Thread nD τ).loc main_arg2) :=
  (keep0_main_arg2 (W0 m ρ c)).trans rfl
theorem W1_arg3 : W1 m ρ c (Proc.devRef .tc main_arg3) = m ((c : Thread nD τ).loc main_arg3) :=
  (keep0_main_arg3 (W0 m ρ c)).trans rfl
theorem W1_arg4 : W1 m ρ c (Proc.devRef .tc main_arg4) = m ((c : Thread nD τ).loc main_arg4) :=
  (keep0_main_arg4 (W0 m ρ c)).trans rfl
theorem W1_arg5 : W1 m ρ c (Proc.devRef .tc main_arg5) = m ((c : Thread nD τ).loc main_arg5) :=
  (keep0_main_arg5 (W0 m ρ c)).trans rfl
theorem W1_arg6 : W1 m ρ c (Proc.devRef .tc main_arg6) = m ((c : Thread nD τ).loc main_arg6) :=
  (keep0_main_arg6 (W0 m ρ c)).trans rfl
theorem W1_arg7 : W1 m ρ c (Proc.devRef .tc main_arg7) = m ((c : Thread nD τ).loc main_arg7) :=
  (keep0_main_arg7 (W0 m ρ c)).trans rfl
theorem W1_arg8 : W1 m ρ c (Proc.devRef .tc main_arg8) = m ((c : Thread nD τ).loc main_arg8) :=
  (keep0_main_arg8 (W0 m ρ c)).trans rfl
theorem W1_arg9 : W1 m ρ c (Proc.devRef .tc main_arg9) = m ((c : Thread nD τ).loc main_arg9) :=
  (keep0_main_arg9 (W0 m ρ c)).trans rfl
theorem W1_arg10 : W1 m ρ c (Proc.devRef .tc main_arg10) = m ((c : Thread nD τ).loc main_arg10) :=
  (keep0_main_arg10 (W0 m ρ c)).trans rfl
theorem W1_arg11 : W1 m ρ c (Proc.devRef .tc main_arg11) = m ((c : Thread nD τ).loc main_arg11) :=
  (keep0_main_arg11 (W0 m ρ c)).trans rfl

/-! ### Region 0's exit -/

/-- The edge array after the first region: the edge layer of the launch contents. -/
theorem W2_v4 : W2 m ρ c (Proc.devRef .tc main_v4)
    = Cert.GraphNorm.edgeLin (m ((c : Thread nD τ).loc main_arg2)) (m ((c : Thread nD τ).loc main_arg3)) (m ((c : Thread nD τ).loc main_arg4)) := by
  refine ((W2_arr m ρ c 3).trans (Cert.KernelIdeal.Region0.final_e (V1 m ρ) c)).trans ?_
  show Cert.GraphNorm.edgeLin (W1 m ρ c (Proc.devRef .tc main_arg2)) (W1 m ρ c (Proc.devRef .tc main_arg3)) (W1 m ρ c (Proc.devRef .tc main_arg4)) = _
  rw [W1_arg2, W1_arg3, W1_arg4]

theorem W2_v1 : W2 m ρ c (Proc.devRef .tc main_v1)
    = shapeCast S1600000 (extractStridedSlice S1x1600000 ![0, 0] (m ((c : Thread nD τ).loc main_arg1)) slices_S2x1600000_S1x1600000_0_0) shapeCasts_S1x1600000_S1600000 :=
  (W2_of_ne m ρ c main_v1 (by decide)).trans ((s0_v1 (W0 m ρ c)).trans rfl)

theorem W2_v3 : W2 m ρ c (Proc.devRef .tc main_v3)
    = shapeCast S1600000 (extractStridedSlice S1x1600000 ![1, 0] (m ((c : Thread nD τ).loc main_arg1)) slices_S2x1600000_S1x1600000_1_0) shapeCasts_S1x1600000_S1600000 :=
  (W2_of_ne m ρ c main_v3 (by decide)).trans ((s0_v3 (W0 m ρ c)).trans rfl)

theorem W2_arg0 : W2 m ρ c (Proc.devRef .tc main_arg0) = m ((c : Thread nD τ).loc main_arg0) :=
  (W2_of_ne m ρ c main_arg0 (by decide)).trans (W1_arg0 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)

/-! ### Region 1's entry -/

theorem W5_arg0 : W5 m ρ c (Proc.devRef .tc main_arg0) = m ((c : Thread nD τ).loc main_arg0) := by
  show after hostOps1_2 (after hostOps1_1 (after hostOps1 (W2 m ρ c))) (Proc.devRef .tc main_arg0) = _
  rw [keep1_2_main_arg0, keep1_1_main_arg0, keep1_main_arg0]
  exact W2_arg0 m ρ c
theorem W5_arg5 : W5 m ρ c (Proc.devRef .tc main_arg5) = m ((c : Thread nD τ).loc main_arg5) := by
  show after hostOps1_2 (after hostOps1_1 (after hostOps1 (W2 m ρ c))) (Proc.devRef .tc main_arg5) = _
  rw [keep1_2_main_arg5, keep1_1_main_arg5, keep1_main_arg5]
  exact W2_arg5 m ρ c
theorem W5_arg6 : W5 m ρ c (Proc.devRef .tc main_arg6) = m ((c : Thread nD τ).loc main_arg6) := by
  show after hostOps1_2 (after hostOps1_1 (after hostOps1 (W2 m ρ c))) (Proc.devRef .tc main_arg6) = _
  rw [keep1_2_main_arg6, keep1_1_main_arg6, keep1_main_arg6]
  exact W2_arg6 m ρ c
theorem W5_arg7 : W5 m ρ c (Proc.devRef .tc main_arg7) = m ((c : Thread nD τ).loc main_arg7) := by
  show after hostOps1_2 (after hostOps1_1 (after hostOps1 (W2 m ρ c))) (Proc.devRef .tc main_arg7) = _
  rw [keep1_2_main_arg7, keep1_1_main_arg7, keep1_main_arg7]
  exact W2_arg7 m ρ c
theorem W5_arg8 : W5 m ρ c (Proc.devRef .tc main_arg8) = m ((c : Thread nD τ).loc main_arg8) := by
  show after hostOps1_2 (after hostOps1_1 (after hostOps1 (W2 m ρ c))) (Proc.devRef .tc main_arg8) = _
  rw [keep1_2_main_arg8, keep1_1_main_arg8, keep1_main_arg8]
  exact W2_arg8 m ρ c
theorem W5_arg9 : W5 m ρ c (Proc.devRef .tc main_arg9) = m ((c : Thread nD τ).loc main_arg9) := by
  show after hostOps1_2 (after hostOps1_1 (after hostOps1 (W2 m ρ c))) (Proc.devRef .tc main_arg9) = _
  rw [keep1_2_main_arg9, keep1_1_main_arg9, keep1_main_arg9]
  exact W2_arg9 m ρ c
theorem W5_arg10 : W5 m ρ c (Proc.devRef .tc main_arg10) = m ((c : Thread nD τ).loc main_arg10) := by
  show after hostOps1_2 (after hostOps1_1 (after hostOps1 (W2 m ρ c))) (Proc.devRef .tc main_arg10) = _
  rw [keep1_2_main_arg10, keep1_1_main_arg10, keep1_main_arg10]
  exact W2_arg10 m ρ c
theorem W5_arg11 : W5 m ρ c (Proc.devRef .tc main_arg11) = m ((c : Thread nD τ).loc main_arg11) := by
  show after hostOps1_2 (after hostOps1_1 (after hostOps1 (W2 m ρ c))) (Proc.devRef .tc main_arg11) = _
  rw [keep1_2_main_arg11, keep1_1_main_arg11, keep1_main_arg11]
  exact W2_arg11 m ρ c

/-- The aggregate buffer when the node network's region is entered. -/
theorem W5_v17 : W5 m ρ c (Proc.devRef .tc main_v17)
    = aggK (m ((c : Thread nD τ).loc main_arg0)) (m ((c : Thread nD τ).loc main_arg1))
        (Cert.GraphNorm.edgeLin (m ((c : Thread nD τ).loc main_arg2)) (m ((c : Thread nD τ).loc main_arg3)) (m ((c : Thread nD τ).loc main_arg4))) := by
  show after hostOps1_2 (after hostOps1_1 (after hostOps1 (W2 m ρ c))) (Proc.devRef .tc main_v17) = _
  rw [s12_v17, s11_v14, keep1_1_main_v3, keep1_main_v3, s1_v13, W2_v3, W2_arg0, W2_v1, W2_v4]
  rfl

end Boundaries

end Cert.KernelIdeal.HostValue

end
-- ==== Proof.SpecBlocks.lean ====
/-
  Two shapes the kernel passes between its regions.

  The node network's region does not return the column sums of its result: each of its 20 grid points returns a block
  of 8 rows whose first row holds the column sums over the point's 5000 rows and whose other rows are zero
  (`blockSums`); the 160 rows are added up afterwards.  The normalization's region receives the mean and the variance
  as two one-row arrays and applies them entry by entry (`normApply`).
-/
import proofs.«154507_j64252710748259_2_alg».proof.Proof.Spec

noncomputable section

open scoped BigOperators

namespace Cert.GraphNorm

open Idealize.ShloMosaic Idealize.ShloMosaic.ValueIdx Cert.Mlp

/-- The per-point partial sums: row 8 t of the result holds the column sums of rows 5000 t .. 5000 t + 4999, the rows
    8 t + 1 .. 8 t + 7 hold zero. -/
def blockSums (H : Mat 100000 128) : Mat 160 128 := fun i =>
  if (i 0).val % 8 = 0 then
    ∑ r : Fin 5000, H (ix2 (⟨5000 * ((i 0).val / 8) + r.val, by
      have h1 : (i 0).val < 160 := (i 0).isLt
      have h2 := r.isLt
      omega⟩ : Fin 100000) (i 1))
  else 0

/-- The normalization as the last region applies it, given the mean and the variance as one-row arrays. -/
def normApply {n d : ℕ} (eps : EReal) (h : Mat n d) (mean var : Mat 1 d) (gw gb c : Vec1 d) : Mat n d := fun i =>
  max ((gw (ix1 (i 1)) * (h i - c (ix1 (i 1)) * mean (ix2 (0 : Fin 1) (i 1))))
      * Ideal.rsqrt (var (ix2 (0 : Fin 1) (i 1)) + eps) + gb (ix1 (i 1))) 0

end Cert.GraphNorm

end
-- ==== Proof.LibColumnSum.lean ====
/-
  Reading a sum down the columns of a matrix, and a sum over the indices of a vector.

  A float sum along the first axis of an `[m, n]` array is an `[n]` vector; read at column `q` it is the sum over the
  `m` rows of the entries of that column: putting the summed coordinate `k` back into the reduced index `q` gives the
  entry `(k, q)`. A vector's indices are the functions from the one axis into `Fin n`; a sum over them is the sum over
  `Fin n` of the summand at the index with that coordinate.
-/
import Idealize.ShloMosaic.Lib.Pipeline.Value
import Idealize.ShloMosaic.Lib.ValueIdx
import Idealize.ShloMosaic.PureOps.Ideal.Laws

noncomputable section

open scoped BigOperators

namespace Cert.LibColumnSum

open Idealize.ShloMosaic Idealize.ShloMosaic.ValueIdx

/-- Putting the summed row number `k` back into the reduced index `q` gives the entry `(k, q)`. -/
theorem lift_rows {m n : ℕ} (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

/-- A float sum along the first axis from the zero pattern, read at column `q`, is the sum of that column's entries
    on the extended reals. -/
theorem colSum_apply {m n : ℕ} (src : FVec Ideal ⟨2, ![m, n]⟩ .f32) (h : (⟨2, ![m, n]⟩ : Shape).Reduces [0] (⟨1, ![n]⟩ : Shape))
    (hφ : FKind.Formats .f32) (hacc : (0x00000000#32 : BitVec 32) = 0x00000000#32) (q : Fin n) :
    multiReduction .add [0] (⟨1, ![n]⟩ : Shape) src 0x00000000#32 h hφ hacc (ix1 q) = ∑ k : Fin m, src (ix2 k q) := by
  refine (Ideal.multiReduction_add_single src 0x00000000#32 h hφ hacc (ix1 q)).trans ?_
  exact Finset.sum_congr rfl fun k _ => congrArg src (lift_rows h q k)

/-- The indices of an `[n]` vector are the numbers below `n`. -/
def idxEquiv1 {n : ℕ} : Fin n ≃ (⟨1, ![n]⟩ : Shape).Idx where
  toFun := ix1
  invFun j := j 0
  left_inv _ := rfl
  right_inv j := (eq_ix1 j).symm

/-- A sum over the indices of an `[n]` vector is the sum over `Fin n`. -/
theorem sum_idx1 {M : Type*} [AddCommMonoid M] {n : ℕ} (f : (⟨1, ![n]⟩ : Shape).Idx → M) :
    ∑ j : (⟨1, ![n]⟩ : Shape).Idx, f j = ∑ k : Fin n, f (ix1 k) :=
  (Equiv.sum_comp idxEquiv1 f).symm

end Cert.LibColumnSum

end
-- ==== Proof.Region1.lean ====
/-
  The node network's region, read as three arrays.

  The grid has 20 points.  Point t stages rows 5000 t .. 5000 t + 4999 of the aggregate and of the node features, the
  two weight matrices and the two bias vectors whole, and writes back rows 5000 t .. 5000 t + 4999 of the result and
  rows 8 t .. 8 t + 7 of each of two arrays of partial sums.

  On a block the tile's arithmetic is the two-layer perceptron of aggregate + features: both products are taken by
  the matrix unit from operands rounded to bfloat16 into a zero accumulator (a rounding does nothing to an extended
  real, and the product is the sum over the contracted axis), each bias vector is cast to a row and spread over the
  rows, and the splat zero under the maximum denotes 0.  Row p of the network looks at row p of its input only, so the
  network of block t's rows is block t of the network of the whole arrays; and every row r lies in the block of the
  point r / 5000.  So after the region the result array is the network of the whole arrays, whatever the region found
  in it.

  The partial sums: the block a point writes has, in row 0, the column sums over the point's 5000 rows of the network
  (for the second array: of its entrywise square), and zero in rows 1 .. 7 — a select on "the row number is 0" between
  the sums spread over the 8 rows and the zero block.  Row i of the partial-sum array lies in the block of the point
  i / 8, at row i mod 8 of that block.
-/
import proofs.«154507_j64252710748259_2_alg».proof.Proof.Gen.KernelIdeal.Frame
import proofs.«154507_j64252710748259_2_alg».proof.Proof.SpecBlocks
import proofs.«154507_j64252710748259_2_alg».proof.Proof.LibColumnSum
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

section Tile

variable {a k h n : ℕ}
variable (d1 : DotDims ⟨2, ![a, k]⟩ ⟨2, ![k, h]⟩ ⟨2, ![a, h]⟩)
  (h1lc : d1.lhsContracting = [1]) (h1rc : d1.rhsContracting = [0]) (h1ln : d1.lhsNonContracting = [0])
  (h1rn : d1.rhsNonContracting = [1]) (h1lb : d1.lhsBatch = []) (h1rb : d1.rhsBatch = [])
  (d2 : DotDims ⟨2, ![a, h]⟩ ⟨2, ![h, n]⟩ ⟨2, ![a, n]⟩)
  (h2lc : d2.lhsContracting = [1]) (h2rc : d2.rhsContracting = [0]) (h2ln : d2.lhsNonContracting = [0])
  (h2rn : d2.rhsNonContracting = [1]) (h2lb : d2.lhsBatch = []) (h2rb : d2.rhsBatch = [])

include h1lc h1rc h1ln h1rn h1lb h1rb h2lc h2rc h2ln h2rn h2lb h2rb in
/-- The tile's spelling is the node network of the two input blocks: both products are sums over the contracted axis,
    each bias vector cast to a row and spread over the rows reads its column's entry, the input is the entrywise sum of
    the two blocks, and the zero word denotes 0. -/
theorem tile_nodeNet (x0 x1 : FVec Ideal ⟨2, ![a, k]⟩ .f32) (x2 : FVec Ideal ⟨2, ![k, h]⟩ .f32)
    (x3 : FVec Ideal ⟨1, ![h]⟩ .f32) (x4 : FVec Ideal ⟨2, ![h, n]⟩ .f32) (x5 : FVec Ideal ⟨1, ![n]⟩ .f32)
    (c0 : (⟨2, ![a, k]⟩ : Shape).ShapeCasts ⟨2, ![a, k]⟩)
    (c3 : (⟨1, ![h]⟩ : Shape).ShapeCasts ⟨2, ![1, h]⟩) (b3 : (⟨2, ![1, h]⟩ : Shape).Broadcasts ⟨2, ![a, h]⟩)
    (c5 : (⟨1, ![n]⟩ : Shape).ShapeCasts ⟨2, ![1, n]⟩) (b5 : (⟨2, ![1, n]⟩ : Shape).Broadcasts ⟨2, ![a, n]⟩)
    (hb : FTy.bf16.bits < FTy.f32.bits) (p : Fin a) (q : Fin n) :
    addf (matmul d2 none
          (truncf .bf16 (maximumf
            (addf (matmul d1 none (truncf .bf16 (addf (shapeCast ⟨2, ![a, k]⟩ x0 c0) x1) hb) (truncf .bf16 x2 hb)
                    (constant (F := Ideal) ⟨2, ![a, h]⟩ .f32 0x00000000#32))
              (broadcastTo ⟨2, ![a, h]⟩ (shapeCast ⟨2, ![1, h]⟩ x3 c3) b3))
            (broadcast ⟨2, ![a, h]⟩ (Scalar.ofBits (F := Ideal) .f32 0x00000000#32))) hb)
          (truncf .bf16 x4 hb) (constant (F := Ideal) ⟨2, ![a, n]⟩ .f32 0x00000000#32))
        (broadcastTo ⟨2, ![a, n]⟩ (shapeCast ⟨2, ![1, n]⟩ x5 c5) b5) (ix2 p q)
      = Cert.GraphNorm.nodeNet x0 x1 x2 x3 x4 x5 (ix2 p q) := by
  rw [Cert.Mlp.shapeCast_eq_rowOf x5 c5, Cert.Mlp.shapeCast_eq_rowOf x3 c3, shapeCast_self,
    Cert.Dense.matmul_eq_prod d2 h2lc h2rc h2ln h2rn h2lb h2rb, Cert.Dense.matmul_eq_prod d1 h1lc h1rc h1ln h1rn h1lb h1rb,
    addf_apply, broadcastTo_1b_ab_apply, Cert.Dense.prod_ix2]
  unfold Cert.GraphNorm.nodeNet
  rw [Cert.Mlp.net_ix2]
  congr 1
  refine Finset.sum_congr rfl fun c _ => ?_
  rw [maximumf_apply, broadcast_apply, addf_apply, broadcastTo_1b_ab_apply, Cert.Dense.prod_ix2]
  show max _ (Ideal.ofBits .f32 0x00000000#32) * _ = _
  rw [Ideal.ofBits_zero_f32]
  rfl

end Tile

/-- The body's result block, entry by entry, is the node network of the six loaded blocks. -/
theorem pay_h (x0 x1 : Vec Ideal S5000x128 .f32) (x2 : Vec Ideal S128x128 .f32) (x3 : Vec Ideal S128 .f32)
    (x4 : Vec Ideal S128x128 .f32) (x5 : Vec Ideal S128 .f32) (p : Fin 5000) (q : Fin 128) :
    k1_pay2 (F := Ideal) x0 x1 x2 x3 x4 x5 (ix2 p q) = Cert.GraphNorm.nodeNet x0 x1 x2 x3 x4 x5 (ix2 p q) := by
  unfold k1_pay2
  exact tile_nodeNet dot_S5000x128_S128x128_S5000x128_1_0_0_1_n_n rfl rfl rfl rfl rfl rfl
    dot_S5000x128_S128x128_S5000x128_1_0_0_1_n_n rfl rfl rfl rfl rfl rfl x0 x1 x2 x3 x4 x5 _ _ _ _ _ _ p q

/-! ## The grid, the index maps and the blocks -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The grid has 20 points. -/
theorem t_lt (t : Fin cfg1.N) : t.val < 20 := by
  have hN : cfg1.N = 20 := N_1
  have h := t.isLt
  omega

/-- Row `p` of block `t` is row `5000 t + p` of the array. -/
def row (t : Fin cfg1.N) (p : Fin 5000) : Fin 100000 :=
  ⟨5000 * t.val + p.val, by have := t_lt t; have := p.isLt; omega⟩

/-- The printed index maps over the 20 grid points: the aggregate, the features, the result and the two partial-sum
    windows move one block per point along the rows; the weights and the biases are one block. -/
theorem idx_facts : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 1) = 0
  ∧ win1_4.index t (0 : Fin 2) = 0 ∧ win1_4.index t (1 : Fin 2) = 0
  ∧ win1_5.index t (0 : Fin 1) = 0
  ∧ win1_6.index t (0 : Fin 2) = t.val ∧ win1_6.index t (1 : Fin 2) = 0
  ∧ win1_7.index t (0 : Fin 2) = t.val ∧ win1_7.index t (1 : Fin 2) = 0
  ∧ win1_8.index t (0 : Fin 2) = t.val ∧ win1_8.index t (1 : Fin 2) = 0 :=
  (by decide +kernel : ∀ t : Fin grid1.N, _)

/-- The six arrays as the region finds them, and the network of them. -/
abbrev NET (c : Dev nD) : Cert.Mlp.Mat 100000 128 :=
  Cert.GraphNorm.nodeNet (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))

/-- The aggregate's block at point `t` holds rows `5000 t ..` of the aggregate. -/
theorem iblk_0 (c : Dev nD) (t : Fin cfg1.N) (p : Fin 5000) (q : Fin 128) :
    iblk1 V c 0 t (ix2 p q) = V c (Pipeline.arrRef spec1 0) (ix2 (row t p) q) := by
  obtain ⟨e0, e1, -⟩ := idx_facts t
  show V c (Pipeline.arrRef spec1 0) (((cfg1.win 0).blk t).view.emb (ix2 p q)) = _
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * q.val = q.val; omega

/-- The features' block at point `t` holds rows `5000 t ..` of the features. -/
theorem iblk_1 (c : Dev nD) (t : Fin cfg1.N) (p : Fin 5000) (q : Fin 128) :
    iblk1 V c 1 t (ix2 p q) = V c (Pipeline.arrRef spec1 1) (ix2 (row t p) q) := by
  obtain ⟨-, -, e0, e1, -⟩ := idx_facts t
  show V c (Pipeline.arrRef spec1 1) (((cfg1.win 1).blk t).view.emb (ix2 p q)) = _
  refine congrArg _ (funext fun a => Fin.ext ?_)
  match a with
  | ⟨0, _⟩ => show win1_1.index t (0 : Fin 2) * 5000 + 1 * p.val = 5000 * t.val + p.val; omega
  | ⟨1, _⟩ => show win1_1.index t (1 : Fin 2) * 128 + 1 * q.val = q.val; omega

/-- The weights' and the biases' blocks are the whole arrays, at every point. -/
theorem iblk_2 (c : Dev nD) (t : Fin cfg1.N) : iblk1 V c 2 t = V c (Pipeline.arrRef spec1 2) := by
  obtain ⟨-, -, -, -, e0, e1, -⟩ := idx_facts t
  funext j
  show V c (Pipeline.arrRef spec1 2) (((cfg1.win 2).blk t).view.emb j) = _
  refine congrArg _ (funext fun a => Fin.ext ?_)
  match a with
  | ⟨0, _⟩ => show win1_2.index t (0 : Fin 2) * 128 + 1 * (j 0).val = (j 0).val; omega
  | ⟨1, _⟩ => show win1_2.index t (1 : Fin 2) * 128 + 1 * (j 1).val = (j 1).val; omega

theorem iblk_3 (c : Dev nD) (t : Fin cfg1.N) : iblk1 V c 3 t = V c (Pipeline.arrRef spec1 3) := by
  obtain ⟨-, -, -, -, -, -, e0, -⟩ := idx_facts t
  funext j
  show V c (Pipeline.arrRef spec1 3) (((cfg1.win 3).blk t).view.emb j) = _
  refine congrArg _ (funext fun a => Fin.ext ?_)
  match a with
  | ⟨0, _⟩ => show win1_3.index t (0 : Fin 1) * 128 + 1 * (j 0).val = (j 0).val; omega

theorem iblk_4 (c : Dev nD) (t : Fin cfg1.N) : iblk1 V c 4 t = V c (Pipeline.arrRef spec1 4) := by
  obtain ⟨-, -, -, -, -, -, -, e0, e1, -⟩ := idx_facts t
  funext j
  show V c (Pipeline.arrRef spec1 4) (((cfg1.win 4).blk t).view.emb j) = _
  refine congrArg _ (funext fun a => Fin.ext ?_)
  match a with
  | ⟨0, _⟩ => show win1_4.index t (0 : Fin 2) * 128 + 1 * (j 0).val = (j 0).val; omega
  | ⟨1, _⟩ => show win1_4.index t (1 : Fin 2) * 128 + 1 * (j 1).val = (j 1).val; omega

theorem iblk_5 (c : Dev nD) (t : Fin cfg1.N) : iblk1 V c 5 t = V c (Pipeline.arrRef spec1 5) := by
  obtain ⟨-, -, -, -, -, -, -, -, -, e0, -⟩ := idx_facts t
  funext j
  show V c (Pipeline.arrRef spec1 5) (((cfg1.win 5).blk t).view.emb j) = _
  refine congrArg _ (funext fun a => Fin.ext ?_)
  match a with
  | ⟨0, _⟩ => show win1_5.index t (0 : Fin 1) * 128 + 1 * (j 0).val = (j 0).val; omega

/-- The network of block `t`'s rows is block `t` of the network. -/
theorem net_block (c : Dev nD) (t : Fin cfg1.N) (p : Fin 5000) (q : Fin 128) :
    Cert.GraphNorm.nodeNet (iblk1 V c 0 t) (iblk1 V c 1 t) (iblk1 V c 2 t) (iblk1 V c 3 t) (iblk1 V c 4 t) (iblk1 V c 5 t) (ix2 p q)
      = NET V c (ix2 (row t p) q) := by
  rw [iblk_2, iblk_3, iblk_4, iblk_5]
  unfold NET Cert.GraphNorm.nodeNet
  exact Cert.Mlp.net_rows (row t) _ _ _ _ _ _
    (fun p' j => congrArg₂ (fun x y : EReal => x + y) (iblk_0 V c t p' j) (iblk_1 V c t p' j)) p q

/-- What point `t` writes back to the result window is block `t` of the network of the whole arrays. -/
theorem flushed_h (c : Dev nD) (t : Fin cfg1.N) :
    (dat1 (F := Ideal) V c).flushed 6 t = ((cfg1.win 6).blk t).view.read (Elt Ideal) (NET V c) := by
  show (cfg1.win 6).cut (grid1.coords t) ((dat1 (F := Ideal) V c).after 6 t) = _
  rw [after1_6]
  unfold out1_6
  rw [View.canon_unit_zero hz2]
  simp only [View.ld_unit_zero (S := S5000x128) hz2, View.ld_unit_zero (S := S128x128) hz2, View.ld_unit_zero (S := S128) hz1]
  obtain ⟨-, -, -, -, -, -, -, -, -, -, e0, e1, -⟩ := idx_facts t
  funext j
  obtain ⟨p, q, rfl⟩ : ∃ (p : Fin 5000) (q : Fin 128), j = ix2 p q := ⟨j 0, j 1, eq_ix2 j⟩
  show k1_pay2 (F := Ideal) (iblk1 V c 0 t) (iblk1 V c 1 t) (iblk1 V c 2 t) (iblk1 V c 3 t) (iblk1 V c 4 t) (iblk1 V c 5 t) (ix2 p q)
     = NET V c (((cfg1.win 6).blk t).view.emb (ix2 p q))
  refine (pay_h _ _ _ _ _ _ p q).trans ((net_block V c t p q).trans ?_)
  refine congrArg _ (funext fun a => Fin.ext ?_)
  match a with
  | ⟨0, _⟩ => show 5000 * t.val + p.val = win1_6.index t (0 : Fin 2) * 5000 + 1 * p.val; omega
  | ⟨1, _⟩ => show q.val = win1_6.index t (1 : Fin 2) * 128 + 1 * q.val; omega

/-- An index is in point `t`'s block of the result iff each coordinate is in the block's range on its axis. -/
theorem mem_blk6 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v18_0).slice (win1_6.rect t)).set ↔ _
  rw [View.set_slice_whole, Rect.mem_set_unit]
  exact Iff.rfl

/-- Every row lies in the block of the point `row / 5000`. -/
theorem cover6 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  let t : Fin cfg1.N := ⟨(i 0).val / 5000, by omega⟩
  obtain ⟨-, -, -, -, -, -, -, -, -, -, e0, e1, -⟩ := idx_facts t
  refine ⟨t, flush1_6 t, ?_⟩
  rw [mem_blk6]
  intro a
  have ht : t.val = (i 0).val / 5000 := rfl
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the region the result array holds the network of the whole arrays. -/
theorem final_h (c : Dev nD) : (dat1 (F := Ideal) V c).arrAt 6 cfg1.N = NET V c :=
  (dat1 (F := Ideal) V c).arrAt_eq_of_cover 6 _ (fun t _ => flushed_h V c t) cover6

/-! ## The partial sums -/

/-- A select whose condition is "the row number is 0", the row number below 8, is the `if` on the row number. -/
theorem select_row0 {α : Type} (h : Nat) (hh : h < 8) (A B : α) :
    Scalar.select (IntOp.cmpi .eq (BitVec.ofNat 32 h) 0#32) A B = if h = 0 then A else B := by
  interval_cases h <;> rfl

/-- The block of partial sums of a block `H` of 5000 rows: row 0 holds the column sums of `H`, rows 1 .. 7 hold zero. -/
theorem sums_tile (H : FVec Ideal S5000x128 .f32) (u : Fin 8) (q : Fin 128) :
    select (cmpi .eq (iota .tc S8x128 32 [0] iota_S8x128_d0_w32) (broadcast S8x128 0#32))
        (broadcastTo S8x128 (shapeCast S1x128 (shapeCast S1x128
          (multiReduction .add [0] S128 H 0x00000000#32 reduces_S5000x128_S128 (.inl rfl) rfl)
          shapeCasts_S128_S1x128) shapeCasts_S1x128_S1x128) broadcasts_S1x128_S8x128)
        (k1_pay4 (F := Ideal)) (ix2 u q)
      = if u.val = 0 then ∑ r : Fin 5000, H (ix2 r q) else 0 := by
  have hi : iota .tc S8x128 32 [0] iota_S8x128_d0_w32 (ix2 u q) = BitVec.ofNat 32 u.val :=
    iota_single_apply .tc S8x128 32 0 iota_S8x128_d0_w32 (ix2 u q)
  rw [select_apply]
  show Scalar.select (IntOp.cmpi .eq (iota .tc S8x128 32 [0] iota_S8x128_d0_w32 (ix2 u q)) 0#32) _ _ = _
  rw [hi, select_row0 u.val u.isLt]
  refine if_congr Iff.rfl ?_ ?_
  · refine (Cert.LibKeepdims.row_spread_apply _ shapeCasts_S1x128_S1x128 broadcasts_S1x128_S8x128 u q).trans ?_
    refine (shapeCast_a_1a_apply _ shapeCasts_S128_S1x128 (0 : Fin 1) q).trans ?_
    exact Cert.LibColumnSum.colSum_apply H reduces_S5000x128_S128 (.inl rfl) rfl q
  · show Ideal.ofBits .f32 0x00000000#32 = 0
    exact Ideal.ofBits_zero_f32

/-- The first partial-sum block the body leaves: the column sums of the network of the loaded blocks in row 0. -/
theorem pay_sum (x0 x1 : Vec Ideal S5000x128 .f32) (x2 : Vec Ideal S128x128 .f32) (x3 : Vec Ideal S128 .f32)
    (x4 : Vec Ideal S128x128 .f32) (x5 : Vec Ideal S128 .f32) (u : Fin 8) (q : Fin 128) :
    k1_pay5 (F := Ideal) x0 x1 x2 x3 x4 x5 (ix2 u q)
      = if u.val = 0 then ∑ r : Fin 5000, Cert.GraphNorm.nodeNet x0 x1 x2 x3 x4 x5 (ix2 r q) else 0 := by
  unfold k1_pay5
  refine (sums_tile (k1_pay2 (F := Ideal) x0 x1 x2 x3 x4 x5) u q).trans ?_
  exact if_congr Iff.rfl (Finset.sum_congr rfl fun r _ => pay_h x0 x1 x2 x3 x4 x5 r q) rfl

/-- The second: the column sums of the entrywise square of that network in row 0. -/
theorem pay_sumsq (x0 x1 : Vec Ideal S5000x128 .f32) (x2 : Vec Ideal S128x128 .f32) (x3 : Vec Ideal S128 .f32)
    (x4 : Vec Ideal S128x128 .f32) (x5 : Vec Ideal S128 .f32) (u : Fin 8) (q : Fin 128) :
    k1_pay1 (F := Ideal) (k1_pay3 (F := Ideal) x0 x1 x2 x3 x4 x5) (iota .tc S8x128 32 [0] iota_S8x128_d0_w32) (k1_pay4 (F := Ideal)) (ix2 u q)
      = if u.val = 0 then ∑ r : Fin 5000, Cert.GraphNorm.sq (Cert.GraphNorm.nodeNet x0 x1 x2 x3 x4 x5) (ix2 r q) else 0 := by
  unfold k1_pay1 k1_pay3
  refine (sums_tile (mulf (k1_pay2 (F := Ideal) x0 x1 x2 x3 x4 x5) (k1_pay2 (F := Ideal) x0 x1 x2 x3 x4 x5)) u q).trans ?_
  refine if_congr Iff.rfl (Finset.sum_congr rfl fun r _ => ?_) rfl
  rw [mulf_apply, pay_h]
  rfl

/-- Row `u` of block `t` of a partial-sum array is row `8 t + u` of the array. -/
def srow (t : Fin cfg1.N) (u : Fin 8) : Fin 160 :=
  ⟨8 * t.val + u.val, by have := t_lt t; have := u.isLt; omega⟩

/-- The partial sums of an array read at row `u` of block `t`: the column sums over block `t`'s 5000 rows when `u` is 0,
    zero otherwise. -/
theorem blockSums_at (H : Cert.Mlp.Mat 100000 128) (t : Fin cfg1.N) (u : Fin 8) (q : Fin 128) :
    Cert.GraphNorm.blockSums H (ix2 (srow t u) q) = if u.val = 0 then ∑ r : Fin 5000, H (ix2 (row t r) q) else 0 := by
  have hu := u.isLt
  unfold Cert.GraphNorm.blockSums
  show (if (8 * t.val + u.val) % 8 = 0 then
      ∑ r : Fin 5000, H (ix2 (⟨5000 * ((8 * t.val + u.val) / 8) + r.val, _⟩ : Fin 100000) q) else 0) = _
  refine if_congr (by omega) (Finset.sum_congr rfl fun r _ => congrArg H (congrArg (fun x => ix2 x q) (Fin.ext ?_))) rfl
  show 5000 * ((8 * t.val + u.val) / 8) + r.val = 5000 * t.val + r.val
  omega

/-- What point `t` writes back to the first partial-sum window is block `t` of the partial sums of the network. -/
theorem flushed_sum (c : Dev nD) (t : Fin cfg1.N) :
    (dat1 (F := Ideal) V c).flushed 7 t = ((cfg1.win 7).blk t).view.read (Elt Ideal) (Cert.GraphNorm.blockSums (NET V c)) := by
  show (cfg1.win 7).cut (grid1.coords t) ((dat1 (F := Ideal) V c).after 7 t) = _
  rw [after1_7]
  unfold out1_7
  rw [View.canon_unit_zero hz2]
  simp only [View.ld_unit_zero (S := S5000x128) hz2, View.ld_unit_zero (S := S128x128) hz2, View.ld_unit_zero (S := S128) hz1]
  obtain ⟨-, -, -, -, -, -, -, -, -, -, -, -, e0, e1, -⟩ := idx_facts t
  funext j
  obtain ⟨u, q, rfl⟩ : ∃ (u : Fin 8) (q : Fin 128), j = ix2 u q := ⟨j 0, j 1, eq_ix2 j⟩
  show k1_pay5 (F := Ideal) (iblk1 V c 0 t) (iblk1 V c 1 t) (iblk1 V c 2 t) (iblk1 V c 3 t) (iblk1 V c 4 t) (iblk1 V c 5 t) (ix2 u q)
     = Cert.GraphNorm.blockSums (NET V c) (((cfg1.win 7).blk t).view.emb (ix2 u q))
  refine (pay_sum _ _ _ _ _ _ u q).trans ?_
  refine (if_congr Iff.rfl (Finset.sum_congr rfl fun r _ => net_block V c t r q) rfl).trans ?_
  refine (blockSums_at (NET V c) t u q).symm.trans (congrArg _ (funext fun a => Fin.ext ?_))
  match a with
  | ⟨0, _⟩ => show 8 * t.val + u.val = win1_7.index t (0 : Fin 2) * 8 + 1 * u.val; omega
  | ⟨1, _⟩ => show q.val = win1_7.index t (1 : Fin 2) * 128 + 1 * q.val; omega

/-- What point `t` writes back to the second is block `t` of the partial sums of the network's entrywise square. -/
theorem flushed_sumsq (c : Dev nD) (t : Fin cfg1.N) :
    (dat1 (F := Ideal) V c).flushed 8 t
      = ((cfg1.win 8).blk t).view.read (Elt Ideal) (Cert.GraphNorm.blockSums (Cert.GraphNorm.sq (NET V c))) := by
  show (cfg1.win 8).cut (grid1.coords t) ((dat1 (F := Ideal) V c).after 8 t) = _
  rw [after1_8]
  unfold out1_8
  rw [View.canon_unit_zero hz2]
  simp only [View.ld_unit_zero (S := S5000x128) hz2, View.ld_unit_zero (S := S128x128) hz2, View.ld_unit_zero (S := S128) hz1]
  obtain ⟨-, -, -, -, -, -, -, -, -, -, -, -, -, -, e0, e1⟩ := idx_facts t
  funext j
  obtain ⟨u, q, rfl⟩ : ∃ (u : Fin 8) (q : Fin 128), j = ix2 u q := ⟨j 0, j 1, eq_ix2 j⟩
  show k1_pay1 (F := Ideal) (k1_pay3 (F := Ideal) (iblk1 V c 0 t) (iblk1 V c 1 t) (iblk1 V c 2 t) (iblk1 V c 3 t) (iblk1 V c 4 t) (iblk1 V c 5 t))
        (iota .tc S8x128 32 [0] iota_S8x128_d0_w32) (k1_pay4 (F := Ideal)) (ix2 u q)
     = Cert.GraphNorm.blockSums (Cert.GraphNorm.sq (NET V c)) (((cfg1.win 8).blk t).view.emb (ix2 u q))
  refine (pay_sumsq _ _ _ _ _ _ u q).trans ?_
  refine (if_congr Iff.rfl (Finset.sum_congr rfl fun r _ =>
    congrArg₂ (fun x y : EReal => x * y) (net_block V c t r q) (net_block V c t r q)) rfl).trans ?_
  refine (blockSums_at (Cert.GraphNorm.sq (NET V c)) t u q).symm.trans (congrArg _ (funext fun a => Fin.ext ?_))
  match a with
  | ⟨0, _⟩ => show 8 * t.val + u.val = win1_8.index t (0 : Fin 2) * 8 + 1 * u.val; omega
  | ⟨1, _⟩ => show q.val = win1_8.index t (1 : Fin 2) * 128 + 1 * q.val; omega

/-- An index is in point `t`'s block of a partial-sum array iff each coordinate is in the block's range on its axis. -/
theorem mem_blk7 (t : Fin cfg1.N) (i : S160x128.Idx) :
    i ∈ ((cfg1.win 7).blk t).view.set ↔ ∀ a : Fin 2, win1_7.index t a * S8x128.size a ≤ (i a).val ∧ (i a).val < win1_7.index t a * S8x128.size a + S8x128.size a := by
  show i ∈ ((View.whole main_v18_1).slice (win1_7.rect t)).set ↔ _
  rw [View.set_slice_whole, Rect.mem_set_unit]
  exact Iff.rfl

/-- The same for the second partial-sum array. -/
theorem mem_blk8 (t : Fin cfg1.N) (i : S160x128.Idx) :
    i ∈ ((cfg1.win 8).blk t).view.set ↔ ∀ a : Fin 2, win1_8.index t a * S8x128.size a ≤ (i a).val ∧ (i a).val < win1_8.index t a * S8x128.size a + S8x128.size a := by
  show i ∈ ((View.whole main_v18_2).slice (win1_8.rect t)).set ↔ _
  rw [View.set_slice_whole, Rect.mem_set_unit]
  exact Iff.rfl

/-- Every row of a partial-sum array lies in the block of the point `row / 8`. -/
theorem cover7 (i : S160x128.Idx) : ∃ t : Fin cfg1.N, (cfg1.win 7).flush t = true ∧ i ∈ ((cfg1.win 7).blk t).view.set := by
  have hi0 : (i 0).val < 160 := (i 0).isLt
  have hi1 : (i 1).val < 128 := (i 1).isLt
  have hN : cfg1.N = 20 := N_1
  let t : Fin cfg1.N := ⟨(i 0).val / 8, by omega⟩
  obtain ⟨-, -, -, -, -, -, -, -, -, -, -, -, e0, e1, -⟩ := idx_facts t
  refine ⟨t, flush1_7 t, ?_⟩
  rw [mem_blk7]
  intro a
  have ht : t.val = (i 0).val / 8 := rfl
  match a with
  | ⟨0, _⟩ => show win1_7.index t (0 : Fin 2) * 8 ≤ (i 0).val ∧ (i 0).val < win1_7.index t (0 : Fin 2) * 8 + 8; omega
  | ⟨1, _⟩ => show win1_7.index t (1 : Fin 2) * 128 ≤ (i 1).val ∧ (i 1).val < win1_7.index t (1 : Fin 2) * 128 + 128; omega

/-- The same for the second partial-sum array. -/
theorem cover8 (i : S160x128.Idx) : ∃ t : Fin cfg1.N, (cfg1.win 8).flush t = true ∧ i ∈ ((cfg1.win 8).blk t).view.set := by
  have hi0 : (i 0).val < 160 := (i 0).isLt
  have hi1 : (i 1).val < 128 := (i 1).isLt
  have hN : cfg1.N = 20 := N_1
  let t : Fin cfg1.N := ⟨(i 0).val / 8, by omega⟩
  obtain ⟨-, -, -, -, -, -, -, -, -, -, -, -, -, -, e0, e1⟩ := idx_facts t
  refine ⟨t, flush1_8 t, ?_⟩
  rw [mem_blk8]
  intro a
  have ht : t.val = (i 0).val / 8 := rfl
  match a with
  | ⟨0, _⟩ => show win1_8.index t (0 : Fin 2) * 8 ≤ (i 0).val ∧ (i 0).val < win1_8.index t (0 : Fin 2) * 8 + 8; omega
  | ⟨1, _⟩ => show win1_8.index t (1 : Fin 2) * 128 ≤ (i 1).val ∧ (i 1).val < win1_8.index t (1 : Fin 2) * 128 + 128; omega

/-- After the region the first partial-sum array holds the partial sums of the network of the whole arrays. -/
theorem final_sum (c : Dev nD) : (dat1 (F := Ideal) V c).arrAt 7 cfg1.N = Cert.GraphNorm.blockSums (NET V c) :=
  (dat1 (F := Ideal) V c).arrAt_eq_of_cover 7 _ (fun t _ => flushed_sum V c t) cover7

/-- And the second the partial sums of its entrywise square. -/
theorem final_sumsq (c : Dev nD) :
    (dat1 (F := Ideal) V c).arrAt 8 cfg1.N = Cert.GraphNorm.blockSums (Cert.GraphNorm.sq (NET V c)) :=
  (dat1 (F := Ideal) V c).arrAt_eq_of_cover 8 _ (fun t _ => flushed_sumsq V c t) cover8

end Cert.KernelIdeal.Region1

end
-- ==== Proof.Region2.lean ====
/-
  The normalization region, read as one array.

  The grid has 20 points; point t stages rows 5000 t .. 5000 t + 4999 of the node array h, and the whole of the two
  one-row arrays (the column means and the column variances) and of the three vectors (scale, shift, mean weight), and
  writes back rows 5000 t .. 5000 t + 4999 of the result.  On a block the tile's arithmetic is entrywise: at (p, q) it
  takes h(p, q), subtracts c(q) m(0, q), multiplies by g(q) and by the reciprocal square root of v(0, q) + eps, adds
  b(q) and bounds the sum below by 0 — each vector cast to a row and each row spread over the 5000 rows reads its entry
  of column q, whatever the row.  So row p of the result looks at row p of h only, the block of the result is the result
  of the block, and since every row lies in the block of the point (row / 5000), after the region the result array is
  that entrywise function of the whole arrays, whatever the region found in it.
-/
import proofs.«154507_j64252710748259_2_alg».proof.Proof.Gen.KernelIdeal.Frame
import proofs.«154507_j64252710748259_2_alg».proof.Proof.SpecBlocks
import Idealize.ShloMosaic.Lib.Pipeline.Value
import Idealize.ShloMosaic.Lib.ValueIdx
import Idealize.ShloMosaic.Lib.ValueLayout

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.GraphNorm Cert.Mlp

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

theorem normApply_ix2 {n d : ℕ} (eps : EReal) (h : Cert.Mlp.Mat n d) (mean var : Cert.Mlp.Mat 1 d) (gw gb c : Vec1 d) (r : Fin n) (q : Fin d) :
    normApply eps h mean var gw gb c (ix2 r q)
      = max ((gw (ix1 q) * (h (ix2 r q) - c (ix1 q) * mean (ix2 (0 : Fin 1) q))) * Ideal.rsqrt (var (ix2 (0 : Fin 1) q) + eps) + gb (ix1 q)) 0 := rfl

/-- Row `p` of the result looks at row `p` of `h` only: if `h'` holds, in row `p`, row `o p` of `h`, the
    normalization of `h'` holds, in row `p`, row `o p` of the normalization of `h` (the statistics and the three
    vectors the same). -/
theorem normApply_rows {n n' d : ℕ} (eps : EReal) (o : Fin n' → Fin n) (h' : Cert.Mlp.Mat n' d) (h : Cert.Mlp.Mat n d)
    (mean var : Cert.Mlp.Mat 1 d) (gw gb c : Vec1 d) (hh : ∀ p q, h' (ix2 p q) = h (ix2 (o p) q))
    (i : (⟨2, ![n', d]⟩ : Shape).Idx) :
    normApply eps h' mean var gw gb c i = normApply eps h mean var gw gb c (ix2 (o (i 0)) (i 1)) := by
  have e : h' i = h (ix2 (o (i 0)) (i 1)) := (congrArg h' (eq_ix2 i)).trans (hh (i 0) (i 1))
  show max ((gw (ix1 (i 1)) * (h' i - c (ix1 (i 1)) * mean (ix2 (0 : Fin 1) (i 1)))) * Ideal.rsqrt (var (ix2 (0 : Fin 1) (i 1)) + eps) + gb (ix1 (i 1))) 0
     = max ((gw (ix1 (i 1)) * (h (ix2 (o (i 0)) (i 1)) - c (ix1 (i 1)) * mean (ix2 (0 : Fin 1) (i 1)))) * Ideal.rsqrt (var (ix2 (0 : Fin 1) (i 1)) + eps) + gb (ix1 (i 1))) 0
  rw [e]

/-- A vector cast to a row and spread over the rows reads, at `(p, q)`, its entry `q`. -/
theorem vec_spread_apply {α : Type} {a b : ℕ} (v : (⟨1, ![b]⟩ : Shape).Idx → α) (hc : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The tile's arithmetic at `(p, q)`: every layout step reads column `q`, the zero word denotes 0. -/
theorem pay_apply (x0 : FVec Ideal S5000x128 .f32) (x5 : FVec Ideal S128 .f32) (x1 x2 : FVec Ideal S1x128 .f32)
    (x3 x4 : FVec Ideal S128 .f32) (p : Fin 5000) (q : Fin 128) :
    Gen.k2_pay1 (F := Ideal) x0 x5 x1 x2 x3 x4 (ix2 p q)
      = max ((x3 (ix1 q) * (x0 (ix2 p q) - x5 (ix1 q) * x1 (ix2 (0 : Fin 1) q)))
          * Ideal.rsqrt (x2 (ix2 (0 : Fin 1) q) + Ideal.ofBits .f32 0x3727C5AC#32) + x4 (ix1 q)) 0 := by
  have e3 := vec_spread_apply x3 shapeCasts_S128_S1x128 broadcasts_S1x128_S5000x128 p q
  have e4 := vec_spread_apply x4 shapeCasts_S128_S1x128 broadcasts_S1x128_S5000x128 p q
  have e5 : broadcastTo S5000x128 (mulf (shapeCast S1x128 x5 shapeCasts_S128_S1x128) (shapeCast S1x128 x1 shapeCasts_S1x128_S1x128))
      broadcasts_S1x128_S5000x128 (ix2 p q) = x5 (ix1 q) * x1 (ix2 (0 : Fin 1) q) := by
    refine (broadcastTo_1b_ab_apply _ broadcasts_S1x128_S5000x128 p q).trans ?_
    show shapeCast S1x128 x5 shapeCasts_S128_S1x128 (ix2 (0 : Fin 1) q) * shapeCast S1x128 x1 shapeCasts_S1x128_S1x128 (ix2 (0 : Fin 1) q) = _
    rw [shapeCast_a_1a_apply, shapeCast_self]
  have e2 : broadcastTo S5000x128 (rsqrt (addf (shapeCast S1x128 x2 shapeCasts_S1x128_S1x128)
        (broadcast S1x128 (FloatOps.ofBits (F := Ideal) .f32 0x3727C5AC#32)))) broadcasts_S1x128_S5000x128 (ix2 p q)
      = Ideal.rsqrt (x2 (ix2 (0 : Fin 1) q) + Ideal.ofBits .f32 0x3727C5AC#32) := by
    refine (broadcastTo_1b_ab_apply _ broadcasts_S1x128_S5000x128 p q).trans ?_
    rw [shapeCast_self]
    rfl
  unfold Gen.k2_pay1
  show max (broadcastTo S5000x128 (shapeCast S1x128 x3 shapeCasts_S128_S1x128) broadcasts_S1x128_S5000x128 (ix2 p q)
      * (shapeCast S5000x128 x0 shapeCasts_S5000x128_S5000x128 (ix2 p q)
        - broadcastTo S5000x128 (mulf (shapeCast S1x128 x5 shapeCasts_S128_S1x128) (shapeCast S1x128 x1 shapeCasts_S1x128_S1x128))
            broadcasts_S1x128_S5000x128 (ix2 p q))
      * broadcastTo S5000x128 (rsqrt (addf (shapeCast S1x128 x2 shapeCasts_S1x128_S1x128)
          (broadcast S1x128 (FloatOps.ofBits (F := Ideal) .f32 0x3727C5AC#32)))) broadcasts_S1x128_S5000x128 (ix2 p q)
      + broadcastTo S5000x128 (shapeCast S1x128 x4 shapeCasts_S128_S1x128) broadcasts_S1x128_S5000x128 (ix2 p q))
    (Ideal.ofBits .f32 0x00000000#32) = _
  rw [e3, e4, e5, e2, shapeCast_self, Ideal.ofBits_zero_f32]

/-- The tile's arithmetic on a block of 5000 rows is the normalization of that block. -/
theorem pay_eq (x0 : FVec Ideal S5000x128 .f32) (x5 : FVec Ideal S128 .f32) (x1 x2 : FVec Ideal S1x128 .f32)
    (x3 x4 : FVec Ideal S128 .f32) :
    Gen.k2_pay1 (F := Ideal) x0 x5 x1 x2 x3 x4
      = Cert.GraphNorm.normApply (Ideal.ofBits .f32 0x3727C5AC#32) x0 x1 x2 x3 x4 x5 := by
  funext j
  obtain ⟨p, q, rfl⟩ : ∃ (p : Fin 5000) (q : Fin 128), j = ix2 p q := ⟨j 0, j 1, eq_ix2 j⟩
  exact pay_apply x0 x5 x1 x2 x3 x4 p q

/-- The printed index maps over the 20 grid points: the node window and the output window move one block of 5000 rows
    per point; the two one-row arrays and the three vectors are one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0 ∧ win2_4.index t (0 : Fin 1) = 0 ∧ win2_5.index t (0 : Fin 1) = 0
    ∧ win2_6.index t (0 : Fin 2) = t.val ∧ win2_6.index t (1 : Fin 2) = 0 :=
  (by decide +kernel : ∀ t : Fin grid2.N, _)

/-- Row `p` of point `t`'s block is row `5000 t + p` of the array. -/
def rowAt (t : Fin cfg2.N) (p : Fin 5000) : Fin 100000 := ⟨5000 * t.val + p.val, by
  have hN : cfg2.N = 20 := N_2
  have h1 := t.isLt; have h2 := p.isLt; omega⟩

theorem blk_h (c : Dev nD) (t : Fin cfg2.N) (p : Fin 5000) (q : Fin 128) :
    iblk2 V c 0 t (ix2 p q) = V c (Pipeline.arrRef spec2 0) (ix2 (rowAt t p) q) := by
  obtain ⟨e0, e1, -⟩ := idx_facts t
  show V c (Pipeline.arrRef spec2 0) (((cfg2.win 0).blk t).view.emb (ix2 p q)) = _
  refine congrArg _ (funext fun a => Fin.ext ?_)
  match a with
  | ⟨0, _⟩ => show win2_0.index t (0 : Fin 2) * 5000 + 1 * p.val = 5000 * t.val + p.val; omega
  | ⟨1, _⟩ => show win2_0.index t (1 : Fin 2) * 128 + 1 * q.val = q.val; omega

theorem blk_mean (c : Dev nD) (t : Fin cfg2.N) : iblk2 V c 1 t = V c (Pipeline.arrRef spec2 1) := by
  obtain ⟨-, -, e2, e3, -⟩ := idx_facts t
  funext y
  show V c (Pipeline.arrRef spec2 1) (((cfg2.win 1).blk t).view.emb y) = _
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

theorem blk_var (c : Dev nD) (t : Fin cfg2.N) : iblk2 V c 2 t = V c (Pipeline.arrRef spec2 2) := by
  obtain ⟨-, -, -, -, e4, e5, -⟩ := idx_facts t
  funext y
  show V c (Pipeline.arrRef spec2 2) (((cfg2.win 2).blk t).view.emb y) = _
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

theorem blk_gw (c : Dev nD) (t : Fin cfg2.N) : iblk2 V c 3 t = V c (Pipeline.arrRef spec2 3) := by
  obtain ⟨-, -, -, -, -, -, e6, -⟩ := idx_facts t
  funext y
  show V c (Pipeline.arrRef spec2 3) (((cfg2.win 3).blk t).view.emb y) = _
  refine congrArg _ (funext fun a => Fin.ext ?_)
  match a with
  | ⟨0, _⟩ => show win2_3.index t (0 : Fin 1) * 128 + 1 * (y 0).val = (y 0).val; omega

theorem blk_gb (c : Dev nD) (t : Fin cfg2.N) : iblk2 V c 4 t = V c (Pipeline.arrRef spec2 4) := by
  obtain ⟨-, -, -, -, -, -, -, e7, -⟩ := idx_facts t
  funext y
  show V c (Pipeline.arrRef spec2 4) (((cfg2.win 4).blk t).view.emb y) = _
  refine congrArg _ (funext fun a => Fin.ext ?_)
  match a with
  | ⟨0, _⟩ => show win2_4.index t (0 : Fin 1) * 128 + 1 * (y 0).val = (y 0).val; omega

theorem blk_gms (c : Dev nD) (t : Fin cfg2.N) : iblk2 V c 5 t = V c (Pipeline.arrRef spec2 5) := by
  obtain ⟨-, -, -, -, -, -, -, -, e8, -⟩ := idx_facts t
  funext y
  show V c (Pipeline.arrRef spec2 5) (((cfg2.win 5).blk t).view.emb y) = _
  refine congrArg _ (funext fun a => Fin.ext ?_)
  match a with
  | ⟨0, _⟩ => show win2_5.index t (0 : Fin 1) * 128 + 1 * (y 0).val = (y 0).val; omega

/-- What the body leaves in the output's buffer, from any six blocks: the normalization of the first by the others. -/
theorem out_eq (x0 : FVec Ideal S5000x128 .f32) (x1 x2 : FVec Ideal S1x128 .f32) (x3 x4 x5 : FVec Ideal S128 .f32) :
    out2_6 (F := Ideal) x0 x1 x2 x3 x4 x5
      = Cert.GraphNorm.normApply (Ideal.ofBits .f32 0x3727C5AC#32) x0 x1 x2 x3 x4 x5 := by
  unfold out2_6
  rw [View.canon_unit_zero hz2]
  simp only [View.ld_unit_zero (S := S5000x128) hz2, View.ld_unit_zero (S := S1x128) hz2, View.ld_unit_zero (S := S128) hz1]
  exact pay_eq x0 x5 x1 x2 x3 x4

set_option maxHeartbeats 1000000 in
/-- What point `t` writes back is block `t` of the normalization of the whole arrays. -/
theorem flushed_eq (c : Dev nD) (t : Fin cfg2.N) :
    (dat2 (F := Ideal) V c).flushed 6 t = ((cfg2.win 6).blk t).view.read (Elt Ideal)
      (Cert.GraphNorm.normApply (Ideal.ofBits .f32 0x3727C5AC#32) (V c (Pipeline.arrRef spec2 0)) (V c (Pipeline.arrRef spec2 1))
        (V c (Pipeline.arrRef spec2 2)) (V c (Pipeline.arrRef spec2 3)) (V c (Pipeline.arrRef spec2 4)) (V c (Pipeline.arrRef spec2 5))) := by
  show (cfg2.win 6).cut (grid2.coords t) ((dat2 (F := Ideal) V c).after 6 t) = _
  rw [after2_6, out_eq, blk_mean, blk_var, blk_gw, blk_gb, blk_gms]
  obtain ⟨-, -, -, -, -, -, -, -, -, e9, e10⟩ := idx_facts t
  funext j
  refine (normApply_rows _ (rowAt t) _ _ _ _ _ _ _ (blk_h V c t) j).trans ?_
  rw [View.read_apply]
  refine congrArg _ (funext fun a => Fin.ext ?_)
  match a with
  | ⟨0, _⟩ => show 5000 * t.val + (j 0).val = win2_6.index t (0 : Fin 2) * 5000 + 1 * (j 0).val; omega
  | ⟨1, _⟩ => show (j 1).val = win2_6.index t (1 : Fin 2) * 128 + 1 * (j 1).val; omega

theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v36).slice (win2_6.rect t)).set ↔ _
  rw [View.set_slice_whole, Rect.mem_set_unit]
  exact Iff.rfl

/-- Every row lies in the block of the point `row / 5000`. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  let t : Fin cfg2.N := ⟨(i 0).val / 5000, by omega⟩
  obtain ⟨-, -, -, -, -, -, -, -, -, e9, e10⟩ := idx_facts t
  refine ⟨t, flush2_6 t, ?_⟩
  rw [mem_blk]
  intro a
  have ht : t.val = (i 0).val / 5000 := rfl
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- After the region the result array holds the normalization of the node array by the two one-row arrays and the
    three vectors, as the region found them. -/
theorem final_out (c : Dev nD) : (Gen.dat2 (F := Ideal) V c).arrAt 6 cfg2.N
    = Cert.GraphNorm.normApply (Ideal.ofBits .f32 0x3727C5AC#32) (V c (Pipeline.arrRef spec2 0)) (V c (Pipeline.arrRef spec2 1))
        (V c (Pipeline.arrRef spec2 2)) (V c (Pipeline.arrRef spec2 3)) (V c (Pipeline.arrRef spec2 4)) (V c (Pipeline.arrRef spec2 5)) :=
  (dat2 (F := Ideal) V c).arrAt_eq_of_cover 6 _ (fun t _ => flushed_eq V c t) cover

end Cert.KernelIdeal.Region2

end
-- ==== Proof.NormAlgebra.lean ====
/-
  The algebra behind the normalization step, and the constants it reads.

  * The three float patterns the programs spell denote the reals 100000 and 2 and a positive real (about 1e-5).
  * One-pass and two-pass column normalization agree on real entries. With m = S1 / N the sum over a column of
    (h_j - c m)^2 is S2 - 2 c m S1 + N c^2 m^2, so the mean of those squares is S2 / N - m^2 c (2 - c): the variance the
    one-pass form computes from the first two moments is the variance the two-pass form computes from the centred
    column. That number is a mean of squares, hence not negative, so bounding it below by zero changes nothing; and
    for the positive real v = variance + shift, multiplying by 1 / sqrt v is dividing by sqrt v.
  * A sum over T blocks of J places, where each block's first place holds the sum of that block's B entries and the
    other places hold zero, is the sum of all T * B entries.
-/
import proofs.«154507_j64252710748259_2_alg».proof.Proof.Spec

noncomputable section

open scoped BigOperators

namespace Cert.GraphNorm

open Idealize.ShloMosaic Idealize.ShloMosaic.ValueIdx Cert.Mlp

/-! ### The three constants -/

/-- The pattern of 100000.0 denotes the real 100000: (2^23 + 4411392) * 2^(143 - 127 - 23) = 12800000 / 128. -/
theorem word_N : Ideal.ofBits .f32 0x47C35000#32 = (((100000 : ℕ) : ℝ) : EReal) := by
  simp [Ideal.ofBits, Ideal.ieee, -EReal.coe_mul]; norm_num

/-- The pattern of 2.0 denotes the real 2. -/
theorem word_two : Ideal.ofBits .f32 0x40000000#32 = ((2 : ℝ) : EReal) := by
  simp [Ideal.ofBits, Ideal.ieee, -EReal.coe_mul]; norm_num

/-- The pattern of the shift denotes (2^23 + 2606508) * 2^(110 - 127 - 23) = 10995116 * 2^(-40). -/
theorem word_eps_val : Ideal.ofBits .f32 0x3727C5AC#32 = (((10995116 : ℝ) * (2 : ℝ) ^ (-40 : ℤ) : ℝ) : EReal) := by
  simp [Ideal.ofBits, Ideal.ieee, -EReal.coe_mul]

/-- So the shift is a positive real. -/
theorem word_eps : ∃ e : ℝ, 0 < e ∧ Ideal.ofBits .f32 0x3727C5AC#32 = (e : EReal) :=
  ⟨(10995116 : ℝ) * (2 : ℝ) ^ (-40 : ℤ), by positivity, word_eps_val⟩

/-! ### Real entries: the two normalizations agree -/

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The quotient of two reals by a nonzero divisor is the real quotient. -/
theorem div_real (x y : ℝ) (hy : y ≠ 0) : Ideal.div (x : EReal) (y : EReal) = ((x / y : ℝ) : EReal) := by
  rw [Ideal.div_coe hy, ← EReal.coe_mul, mul_one_div]

/-- For a positive real v, multiplying by the reciprocal square root of v is dividing by the square root of v,
    whatever the other factor is. -/
theorem mul_rsqrt_eq_div_sqrt (x : EReal) (v : ℝ) (hv : 0 < v) :
    x * Ideal.rsqrt (v : EReal) = Ideal.div x (Ideal.sqrt (v : EReal)) := by
  have hs : Real.sqrt v ≠ 0 := (Real.sqrt_pos.mpr hv).ne'
  rw [Ideal.rsqrt_coe, Ideal.sqrt_coe, if_neg (not_lt.mpr hv.le), if_neg hv.ne', if_neg (not_lt.mpr hv.le),
    Ideal.div_coe hs, one_div]

/-- The variance identity over the reals: with m = S1 / n, the mean square less m m (c (2 - c)) is the mean of the
    squares of the entries less c m, since the sum of (f j - a)^2 is S2 - 2 a S1 + n a^2. -/
theorem var_real {n : ℕ} (hn : 0 < n) (f : Fin n → ℝ) (c : ℝ) :
    (∑ j, f j * f j) / (n : ℝ) - ((∑ j, f j) / (n : ℝ) * ((∑ j, f j) / (n : ℝ))) * (c * (2 - c))
      = (∑ j, (f j - c * ((∑ j, f j) / (n : ℝ))) * (f j - c * ((∑ j, f j) / (n : ℝ)))) / (n : ℝ) := by
  have hN : (n : ℝ) ≠ 0 := Nat.cast_ne_zero.mpr hn.ne'
  have e : ∀ a : ℝ, ∑ j, (f j - a) * (f j - a) = (∑ j, f j * f j) - 2 * a * (∑ j, f j) + (n : ℝ) * (a * a) := by
    intro a
    have : ∀ j, (f j - a) * (f j - a) = f j * f j - 2 * a * f j + a * a := fun j => by ring
    simp only [this]
    rw [Finset.sum_add_distrib, Finset.sum_sub_distrib, ← Finset.mul_sum, Finset.sum_const, Finset.card_univ,
      Fintype.card_fin, nsmul_eq_mul]
  rw [e]
  field_simp
  ring

/-- The same on the extended reals, with the bound below by zero (vacuous: a mean of squares is not negative) and the
    positive shift added. -/
theorem var_coe {n : ℕ} (hn : 0 < n) (f : Fin n → ℝ) (c e : ℝ) :
    max ((((∑ j, f j * f j) / (n : ℝ) : ℝ) : EReal)
        - ((((∑ j, f j) / (n : ℝ) : ℝ) : EReal) * (((∑ j, f j) / (n : ℝ) : ℝ) : EReal))
          * ((c : EReal) * (((2 : ℝ) : EReal) - (c : EReal)))) 0 + (e : EReal)
      = (((∑ j, (f j - c * ((∑ j, f j) / (n : ℝ))) * (f j - c * ((∑ j, f j) / (n : ℝ)))) / (n : ℝ) + e : ℝ) : EReal) := by
  have hnn : 0 ≤ (∑ j, (f j - c * ((∑ j, f j) / (n : ℝ))) * (f j - c * ((∑ j, f j) / (n : ℝ)))) / (n : ℝ) :=
    div_nonneg (Finset.sum_nonneg fun j _ => mul_self_nonneg _) (Nat.cast_nonneg n)
  rw [← EReal.coe_sub (2 : ℝ) c, ← EReal.coe_mul c, ← EReal.coe_mul ((∑ j, f j) / (n : ℝ)), ← EReal.coe_mul, ← EReal.coe_sub,
    var_real hn f c, max_eq_left (EReal.coe_nonneg.mpr hnn), ← EReal.coe_add]

/-- One-pass and two-pass normalization agree on real entries: the two variances are the same real number, not
    negative, and with the positive shift the reciprocal square root multiplies as the square root divides. -/
theorem normMoments_eq_normCentred {n d : ℕ} (Nw eps two : EReal) (hN : Nw = (((n : ℕ) : ℝ) : EReal)) (hn : 0 < n)
    (heps : ∃ e : ℝ, 0 < e ∧ eps = (e : EReal)) (htwo : two = ((2 : ℝ) : EReal)) (h : Cert.Mlp.Mat n d)
    (gw gb c : Vec1 d) (hh : ∀ i, ∃ r : ℝ, h i = (r : EReal)) (hgw : ∀ i, ∃ r : ℝ, gw i = (r : EReal))
    (hgb : ∀ i, ∃ r : ℝ, gb i = (r : EReal)) (hc : ∀ i, ∃ r : ℝ, c i = (r : EReal)) :
    normMoments Nw eps two h gw gb c = normCentred Nw eps h gw gb c := by
  subst hN htwo
  obtain ⟨e, he, rfl⟩ := heps
  choose hr hhr using hh
  have hNne : ((n : ℕ) : ℝ) ≠ 0 := Nat.cast_ne_zero.mpr hn.ne'
  funext i
  obtain ⟨r, q, rfl⟩ : ∃ (r : Fin n) (q : Fin d), i = ix2 r q := ⟨i 0, i 1, eq_ix2 i⟩
  obtain ⟨f, hf⟩ : ∃ f : Fin n → ℝ, ∀ j, h (ix2 j q) = (f j : EReal) := ⟨fun j => hr (ix2 j q), fun j => hhr _⟩
  obtain ⟨cq, hcq⟩ : ∃ cq : ℝ, c (ix1 q) = (cq : EReal) := hc (ix1 q)
  have hS1 : colSum h q = ((∑ j, f j : ℝ) : EReal) := by
    rw [coe_sum]
    exact Finset.sum_congr rfl fun j _ => hf j
  have hS2 : colSum (sq h) q = ((∑ j, f j * f j : ℝ) : EReal) := by
    rw [coe_sum]
    refine Finset.sum_congr rfl fun j _ => ?_
    show h (ix2 j q) * h (ix2 j q) = _
    rw [hf, EReal.coe_mul]
  have hm : Ideal.div (colSum h q) (((n : ℕ) : ℝ) : EReal) = (((∑ j, f j) / (n : ℝ) : ℝ) : EReal) := by
    rw [hS1, div_real _ _ hNne]
  have hS3 : colSum (sq (centred (((n : ℕ) : ℝ) : EReal) h c)) q
      = ((∑ j, (f j - cq * ((∑ j, f j) / (n : ℝ))) * (f j - cq * ((∑ j, f j) / (n : ℝ))) : ℝ) : EReal) := by
    rw [coe_sum]
    refine Finset.sum_congr rfl fun j _ => ?_
    show (h (ix2 j q) - c (ix1 q) * Ideal.div (colSum h q) _) * (h (ix2 j q) - c (ix1 q) * Ideal.div (colSum h q) _) = _
    rw [hm, hf, hcq, ← EReal.coe_mul, ← EReal.coe_sub, ← EReal.coe_mul]
  have hpos : 0 < (∑ j, (f j - cq * ((∑ j, f j) / (n : ℝ))) * (f j - cq * ((∑ j, f j) / (n : ℝ)))) / (n : ℝ) + e :=
    add_pos_of_nonneg_of_pos (div_nonneg (Finset.sum_nonneg fun j _ => mul_self_nonneg _) (Nat.cast_nonneg n)) he
  rw [normMoments_ix2, normCentred_ix2, hS3, hS2, hm, hcq, div_real _ _ hNne, div_real _ _ hNne, var_coe hn f cq e,
    ← EReal.coe_add, mul_rsqrt_eq_div_sqrt _ _ hpos]

/-! ### Per-block partial sums -/

/-- A sum over T blocks of J places, where a block's first place holds the sum of that block's B entries and its other
    places hold zero, is the sum of all T * B entries. -/
theorem sum_partials_range {M : Type*} [AddCommMonoid M] (T B J : ℕ) (P H : ℕ → M)
    (h0 : ∀ t, t < T → P (J * t) = ∑ r ∈ Finset.range B, H (B * t + r))
    (hz : ∀ t j, t < T → 0 < j → j < J → P (J * t + j) = 0) (hJ : 0 < J) :
    ∑ k ∈ Finset.range (T * J), P k = ∑ r ∈ Finset.range (T * B), H r := by
  induction T with
  | zero => simp
  | succ T ih =>
    rw [Nat.succ_mul, Nat.succ_mul, Finset.sum_range_add, Finset.sum_range_add,
      ih (fun t ht => h0 t (Nat.lt_succ_of_lt ht)) (fun t j ht => hz t j (Nat.lt_succ_of_lt ht))]
    congr 1
    obtain ⟨J', rfl⟩ : ∃ J', J = J' + 1 := ⟨J - 1, by omega⟩
    rw [Finset.sum_range_succ', Finset.sum_eq_zero, zero_add, Nat.add_zero, Nat.mul_comm, h0 T (Nat.lt_succ_self T)]
    · exact Finset.sum_congr rfl fun r _ => by rw [Nat.mul_comm]
    · intro x hx
      rw [Nat.mul_comm]
      exact hz T (x + 1) (Nat.lt_succ_self T) (Nat.succ_pos x) (by have := Finset.mem_range.mp hx; omega)

end Cert.GraphNorm

end
-- ==== Proof.NormRows.lean ====
/-
  The host operations between the node network's region and the normalization's region, read at an entry.

  The node network's region leaves two arrays of per-block partial sums, of the result and of its squares.  The host
  adds up each array's 160 rows, divides by the number of rows of the result to get the mean and the mean square, and
  forms the variance max(mean square - mean * mean * (c (2 - c)), 0).  Since each block of 8 rows holds one block's
  column sums in its first row and zero in the others, the 160 rows add up to the column sums over all rows; so the
  normalization applied with these two rows is the one-pass normalization of the whole result.
-/
import Idealize.ShloMosaic.Lib.IdealHost
import proofs.«154507_j64252710748259_2_alg».proof.Proof.NormAlgebra
import proofs.«154507_j64252710748259_2_alg».proof.Proof.SpecBlocks
import proofs.«154507_j64252710748259_2_alg».proof.KernelIdeal

noncomputable section

open scoped BigOperators

namespace Cert.GraphNorm

open Idealize.ShloMosaic Idealize.ShloMosaic.ValueIdx Cert.Mlp
open Cert.KernelIdeal Cert.KernelIdeal.Facts₀

/-! ### The partial sums add up to the column sums -/

/-- Row k of the partial sums at column q: a block's column sum if k is a multiple of 8, zero otherwise. -/
theorem blockSums_ix2 (H : Mat 100000 128) (k : Fin 160) (q : Fin 128) :
    blockSums H (ix2 k q)
      = if k.val % 8 = 0 then
          ∑ r : Fin 5000, H (ix2 (⟨5000 * (k.val / 8) + r.val, by
            have h1 := k.isLt
            have h2 := r.isLt
            omega⟩ : Fin 100000) q)
        else 0 := rfl

/-- The 160 rows of the partial sums add up, column by column, to the column sums over all 100000 rows: 20 blocks of
    8 rows, each holding in its first row the sum of its block of 5000 rows and zero in the other seven. -/
theorem colSum_blockSums (H : Cert.Mlp.Mat 100000 128) (q : Fin 128) :
    ∑ k : Fin 160, blockSums H (ix2 k q) = colSum H q := by
  obtain ⟨P, hP⟩ : ∃ P : ℕ → EReal, ∀ k (h : k < 160), P k = blockSums H (ix2 ⟨k, h⟩ q) :=
    ⟨fun k => if h : k < 160 then blockSums H (ix2 ⟨k, h⟩ q) else 0, fun k h => dif_pos h⟩
  obtain ⟨G, hG⟩ : ∃ G : ℕ → EReal, ∀ r (h : r < 100000), G r = H (ix2 ⟨r, h⟩ q) :=
    ⟨fun r => if h : r < 100000 then H (ix2 ⟨r, h⟩ q) else 0, fun r h => dif_pos h⟩
  have h0 : ∀ t, t < 20 → P (8 * t) = ∑ r ∈ Finset.range 5000, G (5000 * t + r) := by
    intro t ht
    have h8 : 8 * t < 160 := by omega
    rw [hP (8 * t) h8, blockSums_ix2, if_pos (show (8 * t) % 8 = 0 by omega),
      ← Fin.sum_univ_eq_sum_range (fun r => G (5000 * t + r)) 5000]
    refine Finset.sum_congr rfl fun r _ => ?_
    have hr : 5000 * t + r.val < 100000 := by have := r.isLt; omega
    rw [hG (5000 * t + r.val) hr]
    exact congrArg (fun a => H (ix2 a q)) (Fin.ext (show 5000 * ((8 * t) / 8) + r.val = 5000 * t + r.val by omega))
  have hz : ∀ t j, t < 20 → 0 < j → j < 8 → P (8 * t + j) = 0 := by
    intro t j ht hj hj'
    have h8 : 8 * t + j < 160 := by omega
    rw [hP (8 * t + j) h8, blockSums_ix2, if_neg (show ¬ (8 * t + j) % 8 = 0 by omega)]
  calc ∑ k : Fin 160, blockSums H (ix2 k q)
      = ∑ k : Fin 160, P k.val := Finset.sum_congr rfl fun k _ => (hP k.val k.isLt).symm
    _ = ∑ k ∈ Finset.range (20 * 8), P k := Fin.sum_univ_eq_sum_range P 160
    _ = ∑ r ∈ Finset.range (20 * 5000), G r := sum_partials_range 20 5000 8 P G h0 hz (by norm_num)
    _ = ∑ r : Fin 100000, G r.val := (Fin.sum_univ_eq_sum_range G 100000).symm
    _ = colSum H q := Finset.sum_congr rfl fun r _ => hG r.val r.isLt

/-! ### The mean row and the variance row, as the host spells them -/

variable [Facts₀]

/-- The mean row: the 160 rows added up from zero, laid out as a row, divided by the row count's word spread over
    the row. -/
def meanRow (P : Cert.Mlp.Mat 160 128) : Cert.Mlp.Mat 1 128 :=
  Host.divf (F := Ideal) (φ := .f32)
    (broadcastInDim S1x128 ![1] bcast_S128_S1x128_1
      (Host.reduceAdd (F := Ideal) (φ := .f32) P (constant S_ .f32 0x00000000#32) reducesTo_S160x128_S128_d0 h_S_))
    (broadcastInDim S1x128 ![] bcast_S_S1x128 (constant (F := Ideal) S_ .f32 0x47C35000#32))

/-- The variance row: the mean square less mean * mean * (c * (2 - c)), bounded below by zero. -/
def varRow (P1 P2 : Cert.Mlp.Mat 160 128) (gms : Vec1 128) : Cert.Mlp.Mat 1 128 :=
  maximumf (F := Ideal) (φ := .f32)
    (subf (F := Ideal) (φ := .f32) (meanRow P2)
      (mulf (F := Ideal) (φ := .f32) (mulf (F := Ideal) (φ := .f32) (meanRow P1) (meanRow P1))
        (mulf (F := Ideal) (φ := .f32) (broadcastInDim S1x128 ![1] bcast_S128_S1x128_1 gms)
          (subf (F := Ideal) (φ := .f32) (broadcastInDim S1x128 ![] bcast_S_S1x128 (constant (F := Ideal) S_ .f32 0x40000000#32))
            (broadcastInDim S1x128 ![1] bcast_S128_S1x128_1 gms)))))
    (broadcastInDim S1x128 ![] bcast_S_S1x128 (constant (F := Ideal) S_ .f32 0x00000000#32))

/-- The sum down the columns from zero, at column q: the sum of the column's 160 entries. -/
theorem reduce_rows_apply (P : Cert.Mlp.Mat 160 128) (q : Fin 128) :
    Host.reduceAdd (F := Ideal) (φ := .f32) P (constant S_ .f32 0x00000000#32) reducesTo_S160x128_S128_d0 h_S_ (ix1 q)
      = ∑ k : Fin 160, P (ix2 k q) := by
  have h : S160x128.Reduces [0] S128 := by decide
  rw [hostReduceAdd_apply, Ideal.hostReduceAdd_single reducesTo_S160x128_S128_d0 h, constant_apply,
    Ideal.ofBits_zero_f32, zero_add]
  refine Finset.sum_congr rfl fun k _ => congrArg P (funext fun a => ?_)
  match a with
  | ⟨0, _⟩ => exact Fin.ext rfl
  | ⟨1, _⟩ => exact Fin.ext rfl

/-- The mean row at column q: the column's sum over the 160 rows divided by the row count's word. -/
theorem meanRow_apply (P : Cert.Mlp.Mat 160 128) (q : Fin 128) :
    meanRow P (ix2 (0 : Fin 1) q) = Ideal.div (∑ k : Fin 160, P (ix2 k q)) (Ideal.ofBits .f32 0x47C35000#32) := by
  unfold meanRow
  rw [hostDivf_apply, Cert.Mlp.bcast_eq_rowOf, broadcastInDim_scalar_apply, constant_apply]
  show Ideal.div (Host.reduceAdd (F := Ideal) (φ := .f32) P (constant S_ .f32 0x00000000#32)
    reducesTo_S160x128_S128_d0 h_S_ (ix1 q)) _ = _
  rw [reduce_rows_apply]

/-- The variance row at column q. -/
theorem varRow_apply (P1 P2 : Cert.Mlp.Mat 160 128) (gms : Vec1 128) (q : Fin 128) :
    varRow P1 P2 gms (ix2 (0 : Fin 1) q)
      = max (Ideal.div (∑ k : Fin 160, P2 (ix2 k q)) (Ideal.ofBits .f32 0x47C35000#32)
          - (Ideal.div (∑ k : Fin 160, P1 (ix2 k q)) (Ideal.ofBits .f32 0x47C35000#32)
              * Ideal.div (∑ k : Fin 160, P1 (ix2 k q)) (Ideal.ofBits .f32 0x47C35000#32))
            * (gms (ix1 q) * (Ideal.ofBits .f32 0x40000000#32 - gms (ix1 q)))) 0 := by
  unfold varRow
  rw [maximumf_apply, subf_apply, mulf_apply, mulf_apply, mulf_apply, subf_apply, meanRow_apply, meanRow_apply,
    Cert.Mlp.bcast_eq_rowOf, broadcastInDim_scalar_apply, broadcastInDim_scalar_apply, constant_apply, constant_apply,
    Ideal.ofBits_zero_f32]
  rfl

/-- The normalization applied with the host's two rows is the one-pass normalization of the whole array. -/
theorem host_norm (eps : EReal) (H : Cert.Mlp.Mat 100000 128) (gw gb gms : Vec1 128) :
    normApply eps H (meanRow (blockSums H)) (varRow (blockSums H) (blockSums (sq H)) gms) gw gb gms
      = normMoments (Ideal.ofBits .f32 0x47C35000#32) eps (Ideal.ofBits .f32 0x40000000#32) H gw gb gms := by
  funext i
  obtain ⟨r, q, rfl⟩ : ∃ (r : Fin 100000) (q : Fin 128), i = ix2 r q := ⟨i 0, i 1, eq_ix2 i⟩
  rw [normMoments_ix2]
  show max ((gw (ix1 q) * (H (ix2 r q) - gms (ix1 q) * meanRow (blockSums H) (ix2 (0 : Fin 1) q)))
      * Ideal.rsqrt (varRow (blockSums H) (blockSums (sq H)) gms (ix2 (0 : Fin 1) q) + eps) + gb (ix1 q)) 0 = _
  rw [meanRow_apply, varRow_apply, colSum_blockSums, colSum_blockSums]

end Cert.GraphNorm

end
-- ==== Proof.KernelValue.lean ====
/-
  The kernel's result, as a function of the launch memory.

  From the node network's region on: the region finds the aggregate and the arguments (HostValues.lean) and leaves,
  in its three outputs, the network's array h and the per-point partial sums of h and of h * h (Region1.lean); the
  host code adds the partial sums' 160 rows, divides by the node count, and forms the variance row
  max(S2 / N - m m (c (2 - c)), 0); the last region applies the normalization entry by entry (Region2.lean).  Adding
  the 160 rows is adding all 100000 rows of h (NormRows.lean), so the result array is the one-pass normalization
  `normMoments` of h.
-/
import proofs.«154507_j64252710748259_2_alg».proof.Proof.HostValues
import proofs.«154507_j64252710748259_2_alg».proof.Proof.Region1
import proofs.«154507_j64252710748259_2_alg».proof.Proof.Region2
import proofs.«154507_j64252710748259_2_alg».proof.Proof.NormRows

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen Cert.KernelIdeal.HostValue Cert.GraphNorm

section Stretch

variable (W : Valuation τ sig (Elt Ideal))

theorem s2_v24 : after (hostOps2 (F := Ideal)) W (Proc.devRef .tc main_v24) = meanRow (W (Proc.devRef .tc main_v18_1)) := by
  after_results <;> rfl

set_option maxHeartbeats 4000000 in
theorem s2_v35 : after (hostOps2 (F := Ideal)) W (Proc.devRef .tc main_v35)
    = varRow (W (Proc.devRef .tc main_v18_1)) (W (Proc.devRef .tc main_v18_2)) (W (Proc.devRef .tc main_arg11)) := by
  after_results_simp <;> rfl

end Stretch

variable (m : (ℓ : Loc nD τ sig) → Buf (Elt Ideal) ℓ) (ρ : Dev nD → PrngReg) (c : Dev nD)

/-- The node network's array of the launch contents. -/
abbrev hK : Cert.Mlp.Mat 100000 128 :=
  nodeNet (aggK (m ((c : Thread nD τ).loc main_arg0)) (m ((c : Thread nD τ).loc main_arg1)) (edgeLin (m ((c : Thread nD τ).loc main_arg2)) (m ((c : Thread nD τ).loc main_arg3)) (m ((c : Thread nD τ).loc main_arg4)))) (m ((c : Thread nD τ).loc main_arg0)) (m ((c : Thread nD τ).loc main_arg5)) (m ((c : Thread nD τ).loc main_arg6)) (m ((c : Thread nD τ).loc main_arg7)) (m ((c : Thread nD τ).loc main_arg8))

/-! ### The node network's region -/

theorem W6_h : W6 m ρ c (Proc.devRef .tc main_v18_0) = hK m c := by
  refine ((W6_arr m ρ c 6).trans (Cert.KernelIdeal.Region1.final_h (V5 m ρ) c)).trans ?_
  show nodeNet (W5 m ρ c (Proc.devRef .tc main_v17)) (W5 m ρ c (Proc.devRef .tc main_arg0)) (W5 m ρ c (Proc.devRef .tc main_arg5))
    (W5 m ρ c (Proc.devRef .tc main_arg6)) (W5 m ρ c (Proc.devRef .tc main_arg7)) (W5 m ρ c (Proc.devRef .tc main_arg8)) = _
  rw [W5_v17, W5_arg0, W5_arg5, W5_arg6, W5_arg7, W5_arg8]

theorem W6_sum : W6 m ρ c (Proc.devRef .tc main_v18_1) = blockSums (hK m c) := by
  refine ((W6_arr m ρ c 7).trans (Cert.KernelIdeal.Region1.final_sum (V5 m ρ) c)).trans ?_
  show blockSums (nodeNet (W5 m ρ c (Proc.devRef .tc main_v17)) (W5 m ρ c (Proc.devRef .tc main_arg0)) (W5 m ρ c (Proc.devRef .tc main_arg5))
    (W5 m ρ c (Proc.devRef .tc main_arg6)) (W5 m ρ c (Proc.devRef .tc main_arg7)) (W5 m ρ c (Proc.devRef .tc main_arg8))) = _
  rw [W5_v17, W5_arg0, W5_arg5, W5_arg6, W5_arg7, W5_arg8]

theorem W6_sumsq : W6 m ρ c (Proc.devRef .tc main_v18_2) = blockSums (sq (hK m c)) := by
  refine ((W6_arr m ρ c 8).trans (Cert.KernelIdeal.Region1.final_sumsq (V5 m ρ) c)).trans ?_
  show blockSums (sq (nodeNet (W5 m ρ c (Proc.devRef .tc main_v17)) (W5 m ρ c (Proc.devRef .tc main_arg0)) (W5 m ρ c (Proc.devRef .tc main_arg5))
    (W5 m ρ c (Proc.devRef .tc main_arg6)) (W5 m ρ c (Proc.devRef .tc main_arg7)) (W5 m ρ c (Proc.devRef .tc main_arg8)))) = _
  rw [W5_v17, W5_arg0, W5_arg5, W5_arg6, W5_arg7, W5_arg8]

theorem W6_arg9 : W6 m ρ c (Proc.devRef .tc main_arg9) = m ((c : Thread nD τ).loc main_arg9) :=
  (W6_of_ne m ρ c main_arg9 (by decide)).trans (W5_arg9 m ρ c)
theorem W6_arg10 : W6 m ρ c (Proc.devRef .tc main_arg10) = m ((c : Thread nD τ).loc main_arg10) :=
  (W6_of_ne m ρ c main_arg10 (by decide)).trans (W5_arg10 m ρ c)
theorem W6_arg11 : W6 m ρ c (Proc.devRef .tc main_arg11) = m ((c : Thread nD τ).loc main_arg11) :=
  (W6_of_ne m ρ c main_arg11 (by decide)).trans (W5_arg11 m ρ c)

/-! ### The normalization's region -/

theorem W7_h : W7 m ρ c (Proc.devRef .tc main_v18_0) = hK m c :=
  (keep2_main_v18_0 (W6 m ρ c)).trans (W6_h m ρ c)

theorem W7_arg9 : W7 m ρ c (Proc.devRef .tc main_arg9) = m ((c : Thread nD τ).loc main_arg9) :=
  (keep2_main_arg9 (W6 m ρ c)).trans (W6_arg9 m ρ c)
theorem W7_arg10 : W7 m ρ c (Proc.devRef .tc main_arg10) = m ((c : Thread nD τ).loc main_arg10) :=
  (keep2_main_arg10 (W6 m ρ c)).trans (W6_arg10 m ρ c)
theorem W7_arg11 : W7 m ρ c (Proc.devRef .tc main_arg11) = m ((c : Thread nD τ).loc main_arg11) :=
  (keep2_main_arg11 (W6 m ρ c)).trans (W6_arg11 m ρ c)

theorem W7_mean : W7 m ρ c (Proc.devRef .tc main_v24) = meanRow (blockSums (hK m c)) := by
  refine (s2_v24 (W6 m ρ c)).trans ?_
  rw [W6_sum]

theorem W7_var : W7 m ρ c (Proc.devRef .tc main_v35)
    = varRow (blockSums (hK m c)) (blockSums (sq (hK m c))) (m ((c : Thread nD τ).loc main_arg11)) := by
  refine (s2_v35 (W6 m ρ c)).trans ?_
  rw [W6_sum, W6_sumsq, W6_arg11]

/-- THE RESULT ARRAY after the run: the one-pass normalization of the node network's array. -/
theorem W8_v36 : W8 m ρ c (Proc.devRef .tc main_v36)
    = normMoments (Ideal.ofBits .f32 0x47C35000#32) (Ideal.ofBits .f32 0x3727C5AC#32) (Ideal.ofBits .f32 0x40000000#32)
        (hK m c) (m ((c : Thread nD τ).loc main_arg9)) (m ((c : Thread nD τ).loc main_arg10)) (m ((c : Thread nD τ).loc main_arg11)) := by
  refine ((W8_arr m ρ c 6).trans (Cert.KernelIdeal.Region2.final_out (V7 m ρ) c)).trans ?_
  show normApply (Ideal.ofBits .f32 0x3727C5AC#32) (W7 m ρ c (Proc.devRef .tc main_v18_0)) (W7 m ρ c (Proc.devRef .tc main_v24))
    (W7 m ρ c (Proc.devRef .tc main_v35)) (W7 m ρ c (Proc.devRef .tc main_arg9)) (W7 m ρ c (Proc.devRef .tc main_arg10))
    (W7 m ρ c (Proc.devRef .tc main_arg11)) = _
  rw [W7_h, W7_mean, W7_var, W7_arg9, W7_arg10, W7_arg11]
  exact host_norm _ _ _ _ _

end Cert.KernelIdeal.KernelValue

end
-- ==== Proof.RefValue.lean ====
/-
  The reference's result as a function of its twelve argument arrays, on the extended reals.

  The reference computes, in order: the edge layer e = a W + b over the 1600000 edges; for every edge the row of the
  node array x at the edge's source (a negative source index wrapped once by the number of nodes), plus the edge's
  row of e, rectified; the sum of those rows into the node at the edge's destination, starting from zeros (`aggR`:
  kept as ONE function of x, the index array and e, and never read at an entry here — which rows an index selects
  plays no part in what follows); the two-layer perceptron of aggregate + x (the node network); and, per column over
  all 100000 nodes, the two-pass normalization: subtract c times the column mean, divide by the square root of the mean
  of the squared differences plus eps, scale by gw, shift by gb, rectify.

  Each step is identified with the specification's function of the same name, as a whole array where the step is a
  matrix product with a bias row (the edge layer, the hidden layer, the node network), and entry by entry for the
  normalization, whose two column sums start from the word of zero (which denotes 0, so the sum is the plain sum over
  the rows) and whose broadcasts of a [128] vector over the rows read the vector's entry of the column.
-/
import proofs.«154507_j64252710748259_2_alg».proof.Proof.Gen.ReferenceIdeal.Read
import proofs.«154507_j64252710748259_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The aggregation as the reference spells it: into zeros, at the destination column, the sum of
    max(x0(source) + e, 0), the source column read with a negative index wrapped once. -/
def aggR (x0 : S100000x128.Idx → EReal) (x1 : S2x1600000.Idx → BitVec 32) (e : S1600000x128.Idx → EReal) :
    S100000x128.Idx → EReal :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast S1600000 (extractStridedSlice S1x1600000 ![1, 0] x1 slices_S2x1600000_S1x1600000_1_0) shapeCasts_S1x1600000_S1600000))
    (maximumf (F := Ideal) (φ := .f32)
      (addf (F := Ideal) (φ := .f32)
        (Host.gather gather_S100000x128_S1600000x1_S1600000x128_1_0_n_n_0_1_1128 x0
          (broadcastInDim S1600000x1 ![0] bcast_S1600000_S1600000x1_0
            (select
              (cmpi .slt
                (shapeCast S1600000 (extractStridedSlice S1x1600000 ![0, 0] x1 slices_S2x1600000_S1x1600000_0_0) shapeCasts_S1x1600000_S1600000)
                (broadcastInDim S1600000 ![] bcast_S_S1600000 (constantI S_ 32 0#32)))
              (addi
                (shapeCast S1600000 (extractStridedSlice S1x1600000 ![0, 0] x1 slices_S2x1600000_S1x1600000_0_0) shapeCasts_S1x1600000_S1600000)
                (broadcastInDim S1600000 ![] bcast_S_S1600000 (constantI S_ 32 100000#32)))
              (shapeCast S1600000 (extractStridedSlice S1x1600000 ![0, 0] x1 slices_S2x1600000_S1x1600000_0_0) shapeCasts_S1x1600000_S1600000))))
        e)
      (broadcastInDim S1600000x128 ![] bcast_S_S1600000x128 (constant (F := Ideal) S_ .f32 0x00000000#32)))

/-- The scatter stage is the aggregation of the edge stage. -/
theorem v19_eq (x0 : S100000x128.Idx → EReal) (x1 : S2x1600000.Idx → BitVec 32) (x2 : S1600000x32.Idx → EReal)
    (x3 : S32x128.Idx → EReal) (x4 : S128.Idx → EReal) :
    val_main_v19 (F := Ideal) x0 x1 x2 x3 x4 = aggR x0 x1 (val_main_v7 (F := Ideal) x2 x3 x4) := rfl

/-- The edge stage is the edge layer. -/
theorem v7_eq (x2 : S1600000x32.Idx → EReal) (x3 : S32x128.Idx → EReal) (x4 : S128.Idx → EReal) :
    val_main_v7 (F := Ideal) x2 x3 x4 = Cert.GraphNorm.edgeLin x2 x3 x4 := by
  unfold val_main_v7 val_main_v4 val_main_v6 val_main_v5 Cert.GraphNorm.edgeLin
  rw [Cert.Mlp.bcast_eq_rowOf]
  exact (Cert.Dense.biased_eq_host dot_S1600000x32_S32x128_S1600000x128_1_0_0_1_n_n rfl rfl rfl rfl rfl rfl x2 x3 _ _).symm

/-- The hidden stage: the rectified biased product of aggregate + x with the first weight matrix. -/
theorem v25_eq (x0 : S100000x128.Idx → EReal) (x1 : S2x1600000.Idx → BitVec 32) (x2 : S1600000x32.Idx → EReal) (x3 : S32x128.Idx → EReal) (x4 : S128.Idx → EReal) (x5 : S128x128.Idx → EReal) (x6 : S128.Idx → EReal) :
    val_main_v25 (F := Ideal) x0 x1 x2 x3 x4 x5 x6
      = Cert.Mlp.hidden (Cert.GraphNorm.plus (aggR x0 x1 (Cert.GraphNorm.edgeLin x2 x3 x4)) x0) x5 (Cert.Mlp.rowOf x6) := by
  unfold val_main_v25 val_main_v24 val_main_v21 val_main_v23 val_main_v22 val_main_v20 val_main_call1_v0 val_main_call1_cst
  rw [v19_eq, v7_eq, Cert.Mlp.bcast_eq_rowOf,
    ← Cert.Dense.biased_eq_host dot_S100000x128_S128x128_S100000x128_1_0_0_1_n_n rfl rfl rfl rfl rfl rfl]
  funext i
  rw [maximumf_apply, broadcastInDim_apply ![] bcast_S_S100000x128 _ i ix0 (fun ax => ax.elim0), constant_apply,
    Ideal.ofBits_zero_f32]
  rfl

/-- The node stage is the node network of the aggregation of the edge layer. -/
theorem v29_eq (x0 : S100000x128.Idx → EReal) (x1 : S2x1600000.Idx → BitVec 32) (x2 : S1600000x32.Idx → EReal) (x3 : S32x128.Idx → EReal) (x4 : S128.Idx → EReal) (x5 : S128x128.Idx → EReal) (x6 : S128.Idx → EReal) (x7 : S128x128.Idx → EReal) (x8 : S128.Idx → EReal) :
    val_main_v29 (F := Ideal) x0 x1 x2 x3 x4 x5 x6 x7 x8
      = Cert.GraphNorm.nodeNet (aggR x0 x1 (Cert.GraphNorm.edgeLin x2 x3 x4)) x0 x5 x6 x7 x8 := by
  unfold val_main_v29 val_main_v26 val_main_v28 val_main_v27 Cert.GraphNorm.nodeNet Cert.Mlp.net
  rw [v25_eq, Cert.Mlp.bcast_eq_rowOf,
    ← Cert.Dense.biased_eq_host dot_S100000x128_S128x128_S100000x128_1_0_0_1_n_n rfl rfl rfl rfl rfl rfl]

/-! The index functions of the generated stages, on coordinates. -/

theorem idx36 (r : Fin 100000) (q : Fin 128) : idx_main_v36 (ix2 r q) = ix2 (0 : Fin 1) q :=
  funext fun a => Fin.ext (by match a with | ⟨0, _⟩ => rfl | ⟨1, _⟩ => rfl)
theorem idx44 (r : Fin 100000) (q : Fin 128) : idx_main_v44 (ix2 r q) = ix2 (0 : Fin 1) q :=
  funext fun a => Fin.ext (by match a with | ⟨0, _⟩ => rfl | ⟨1, _⟩ => rfl)
theorem idx49 (r : Fin 100000) (q : Fin 128) : idx_main_v49 (ix2 r q) = ix2 (0 : Fin 1) q :=
  funext fun a => Fin.ext (by match a with | ⟨0, _⟩ => rfl | ⟨1, _⟩ => rfl)
theorem idx52 (r : Fin 100000) (q : Fin 128) : idx_main_v52 (ix2 r q) = ix2 (0 : Fin 1) q :=
  funext fun a => Fin.ext (by match a with | ⟨0, _⟩ => rfl | ⟨1, _⟩ => rfl)
theorem idx31 (u : Fin 1) (q : Fin 128) : idx_main_v31 (ix2 u q) = ix1 q :=
  funext fun a => Fin.ext (by match a with | ⟨0, _⟩ => rfl)
theorem idx34 (u : Fin 1) (q : Fin 128) : idx_main_v34 (ix2 u q) = ix1 q :=
  funext fun a => Fin.ext (by match a with | ⟨0, _⟩ => rfl)
theorem idx40 (u : Fin 1) (q : Fin 128) : idx_main_v40 (ix2 u q) = ix1 q :=
  funext fun a => Fin.ext (by match a with | ⟨0, _⟩ => rfl)
theorem idx43 (u : Fin 1) (q : Fin 128) : idx_main_v43 (ix2 u q) = ix1 q :=
  funext fun a => Fin.ext (by match a with | ⟨0, _⟩ => rfl)
theorem idx51 (u : Fin 1) (q : Fin 128) : idx_main_v51 (ix2 u q) = ix1 q :=
  funext fun a => Fin.ext (by match a with | ⟨0, _⟩ => rfl)
theorem idx30 (q : Fin 128) (k : Fin 100000) : idx_main_v30 (ix1 q) k = ix2 k q :=
  funext fun a => Fin.ext (by match a with | ⟨0, _⟩ => rfl | ⟨1, _⟩ => rfl)
theorem idx39 (q : Fin 128) (k : Fin 100000) : idx_main_v39 (ix1 q) k = ix2 k q :=
  funext fun a => Fin.ext (by match a with | ⟨0, _⟩ => rfl | ⟨1, _⟩ => rfl)

/-- The mean row: entry q is the column sum of the node stage over N. -/
theorem v33_ix2 (x0 : S100000x128.Idx → EReal) (x1 : S2x1600000.Idx → BitVec 32) (x2 : S1600000x32.Idx → EReal) (x3 : S32x128.Idx → EReal) (x4 : S128.Idx → EReal) (x5 : S128x128.Idx → EReal) (x6 : S128.Idx → EReal) (x7 : S128x128.Idx → EReal) (x8 : S128.Idx → EReal) (u : Fin 1) (q : Fin 128) :
    val_main_v33 (F := Ideal) x0 x1 x2 x3 x4 x5 x6 x7 x8 (ix2 u q)
      = Ideal.div (Cert.GraphNorm.colSum (val_main_v29 (F := Ideal) x0 x1 x2 x3 x4 x5 x6 x7 x8) q) (Ideal.ofBits .f32 0x47C35000#32) := by
  rw [val_main_v33_apply, val_main_v31_apply, idx31, val_main_v30_apply, val_main_v32_apply, val_main_cst_1_apply,
    val_main_cst_2_apply, Ideal.hostDivf_def, Ideal.ofBits_def, Ideal.ofBits_def, Ideal.ofBits_zero_f32, zero_add,
    Cert.GraphNorm.colSum]
  exact congrArg (fun s : EReal => Ideal.div s (Ideal.ofBits .f32 0x47C35000#32))
    (Finset.sum_congr (s₁ := Finset.univ) rfl fun k _ => congrArg (val_main_v29 (F := Ideal) x0 x1 x2 x3 x4 x5 x6 x7 x8) (idx30 q k))

/-- The centred column at an entry. -/
theorem centred_ix2 {n d : ℕ} (Nw : EReal) (h : Cert.Mlp.Mat n d) (c : Cert.GraphNorm.Vec1 d) (r : Fin n) (q : Fin d) :
    Cert.GraphNorm.centred Nw h c (ix2 r q) = h (ix2 r q) - c (ix1 q) * Ideal.div (Cert.GraphNorm.colSum h q) Nw := rfl

/-- The square at an entry. -/
theorem sq_apply {n d : ℕ} (h : Cert.Mlp.Mat n d) (i : (⟨2, ![n, d]⟩ : Shape).Idx) : Cert.GraphNorm.sq h i = h i * h i := rfl

/-- The centred stage: the node stage less c times the column mean. -/
theorem v37_ix2 (x0 : S100000x128.Idx → EReal) (x1 : S2x1600000.Idx → BitVec 32) (x2 : S1600000x32.Idx → EReal) (x3 : S32x128.Idx → EReal) (x4 : S128.Idx → EReal) (x5 : S128x128.Idx → EReal) (x6 : S128.Idx → EReal) (x7 : S128x128.Idx → EReal) (x8 : S128.Idx → EReal) (x11 : S128.Idx → EReal) (r : Fin 100000) (q : Fin 128) :
    val_main_v37 (F := Ideal) x0 x1 x2 x3 x4 x5 x6 x7 x8 x11 (ix2 r q)
      = Cert.GraphNorm.centred (Ideal.ofBits .f32 0x47C35000#32) (val_main_v29 (F := Ideal) x0 x1 x2 x3 x4 x5 x6 x7 x8) x11 (ix2 r q) := by
  rw [val_main_v37_apply, val_main_v36_apply, idx36, val_main_v35_apply, val_main_v34_apply, idx34, v33_ix2,
    Ideal.subf_def, Ideal.mulf_def, centred_ix2]

/-- The variance row: entry q is the column sum of the squared centred stage over N. -/
theorem v42_ix2 (x0 : S100000x128.Idx → EReal) (x1 : S2x1600000.Idx → BitVec 32) (x2 : S1600000x32.Idx → EReal) (x3 : S32x128.Idx → EReal) (x4 : S128.Idx → EReal) (x5 : S128x128.Idx → EReal) (x6 : S128.Idx → EReal) (x7 : S128x128.Idx → EReal) (x8 : S128.Idx → EReal) (x11 : S128.Idx → EReal) (u : Fin 1) (q : Fin 128) :
    val_main_v42 (F := Ideal) x0 x1 x2 x3 x4 x5 x6 x7 x8 x11 (ix2 u q)
      = Ideal.div (Cert.GraphNorm.colSum (Cert.GraphNorm.sq (Cert.GraphNorm.centred (Ideal.ofBits .f32 0x47C35000#32) (val_main_v29 (F := Ideal) x0 x1 x2 x3 x4 x5 x6 x7 x8) x11)) q) (Ideal.ofBits .f32 0x47C35000#32) := by
  rw [val_main_v42_apply, val_main_v40_apply, idx40, val_main_v39_apply, val_main_v41_apply, val_main_cst_3_apply,
    val_main_cst_4_apply, Ideal.hostDivf_def, Ideal.ofBits_def, Ideal.ofBits_def, Ideal.ofBits_zero_f32, zero_add,
    Cert.GraphNorm.colSum]
  refine congrArg (fun s : EReal => Ideal.div s (Ideal.ofBits .f32 0x47C35000#32)) (Finset.sum_congr (s₁ := Finset.univ) rfl fun k _ => ?_)
  rw [idx39, val_main_v38_apply, v37_ix2, Ideal.mulf_def, sq_apply]

/-- The last stage at an entry: the two-pass normalization of the node stage. -/
theorem v54_ix2 (x0 : S100000x128.Idx → EReal) (x1 : S2x1600000.Idx → BitVec 32) (x2 : S1600000x32.Idx → EReal) (x3 : S32x128.Idx → EReal) (x4 : S128.Idx → EReal) (x5 : S128x128.Idx → EReal) (x6 : S128.Idx → EReal) (x7 : S128x128.Idx → EReal) (x8 : S128.Idx → EReal) (x9 : S128.Idx → EReal) (x10 : S128.Idx → EReal) (x11 : S128.Idx → EReal) (r : Fin 100000) (q : Fin 128) :
    val_main_v54 (F := Ideal) x0 x1 x2 x3 x4 x5 x6 x7 x8 x9 x10 x11 (ix2 r q)
      = Cert.GraphNorm.normCentred (Ideal.ofBits .f32 0x47C35000#32) (Ideal.ofBits .f32 0x3727C5AC#32) (val_main_v29 (F := Ideal) x0 x1 x2 x3 x4 x5 x6 x7 x8) x9 x10 x11 (ix2 r q) := by
  rw [Cert.GraphNorm.normCentred_ix2, val_main_v54_apply, val_main_v53_apply, val_main_v50_apply, val_main_v45_apply,
    val_main_v44_apply, idx44, val_main_v43_apply, idx43, v37_ix2, centred_ix2, val_main_v49_apply, idx49, val_main_v48_apply,
    val_main_v47_apply, v42_ix2, val_main_v46_apply, val_main_cst_5_apply, val_main_v52_apply, idx52, val_main_v51_apply, idx51,
    val_main_call2_v0_apply, val_main_call2_cst_apply, Ideal.maximumf_def, Ideal.addf_def, Ideal.hostDivf_def, Ideal.mulf_def,
    Ideal.hostUnary_sqrt_def, Ideal.addf_def, Ideal.ofBits_def, Ideal.ofBits_def, Ideal.ofBits_zero_f32]

/-- The reference's last stage, as a whole array: the two-pass normalization of the node network of the
    aggregation of the edge layer. -/
theorem val_eq (x0 : S100000x128.Idx → EReal) (x1 : S2x1600000.Idx → BitVec 32) (x2 : S1600000x32.Idx → EReal) (x3 : S32x128.Idx → EReal) (x4 : S128.Idx → EReal) (x5 : S128x128.Idx → EReal) (x6 : S128.Idx → EReal) (x7 : S128x128.Idx → EReal) (x8 : S128.Idx → EReal) (x9 : S128.Idx → EReal) (x10 : S128.Idx → EReal) (x11 : S128.Idx → EReal) :
    val_main_v54 (F := Ideal) x0 x1 x2 x3 x4 x5 x6 x7 x8 x9 x10 x11
      = Cert.GraphNorm.normCentred (Ideal.ofBits .f32 0x47C35000#32) (Ideal.ofBits .f32 0x3727C5AC#32)
          (Cert.GraphNorm.nodeNet (aggR x0 x1 (Cert.GraphNorm.edgeLin x2 x3 x4)) x0 x5 x6 x7 x8) x9 x10 x11 := by
  funext i
  obtain ⟨r, q, rfl⟩ : ∃ (r : Fin 100000) (q : Fin 128), i = ix2 r q := ⟨i 0, i 1, eq_ix2 i⟩
  rw [v54_ix2, v29_eq]

/-- The reference's result, of the arguments' launch contents. -/
theorem ref_value (m : (ℓ : Loc nD τ sig) → Buf (Elt Ideal) ℓ) (c : Dev nD) :
    Cert.ReferenceIdeal.Value.res_main_v54 (F := Ideal) m c
      = Cert.GraphNorm.normCentred (Ideal.ofBits .f32 0x47C35000#32) (Ideal.ofBits .f32 0x3727C5AC#32)
          (Cert.GraphNorm.nodeNet
            (aggR (m ((c.tc : Thread nD τ).loc main_arg0)) (m ((c.tc : Thread nD τ).loc main_arg1)) (Cert.GraphNorm.edgeLin (m ((c.tc : Thread nD τ).loc main_arg2)) (m ((c.tc : Thread nD τ).loc main_arg3)) (m ((c.tc : Thread nD τ).loc main_arg4))))
            (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))
          (m ((c.tc : Thread nD τ).loc main_arg9)) (m ((c.tc : Thread nD τ).loc main_arg10)) (m ((c.tc : Thread nD τ).loc main_arg11)) :=
  (val_main_v54_eq m c).trans (val_eq _ _ _ _ _ _ _ _ _ _ _ _)

end Cert.ReferenceIdeal.RefValue

end
-- ==== Proof.LibPreDecode.lean ====
/-
  A precondition's conjuncts read back, element by element.

  A precondition written as a conjunction of `jnp.all` tests prints as a chain of `and`s of whole-array reductions by
  `and`, and the claim says the chain is 1. Each reduction that is 1 met only 1s (the library's `Host.reduce_andi_all`);
  what an element being 1 says depends on the test:

  * `|x| < +inf` on a float array, read at the extended reals: the entry is a real number (the only extended reals
    whose absolute value is not the top element) — `all_real`;
  * `(m == 0) | (m == 1)` on an integer array: the entry is the word 0 or the word 1 — `all_zero_or_one` —, and such a
    word converted to a float is the real 0 or 1 — `sitofp_zero_or_one` —, so that it is its own square
    (`mask_idem`).

  Everything is stated over any shapes, the compared constants as arrays with their entries given, so that a
  printed `broadcast_in_dim` of a scalar constant is supplied by `fun _ => rfl`.
-/
import Idealize.ShloMosaic.Lib.ReduceAll
import Idealize.ShloMosaic.PureOps.Ideal
import Idealize.ShloMosaic.PureOps.Ideal.Laws

noncomputable section

namespace Cert.LibPreDecode

open Idealize.ShloMosaic

/-- The f32 word of +inf denotes the top extended real. -/
theorem ofBits_inf : FloatOps.ofBits (F := Ideal) .f32 0x7F800000#32 = (⊤ : EReal) := by
  simp [Ideal.ofBits, Ideal.ieee]

/-- An extended real whose absolute value lies strictly below the top is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One entry of the test `|x| < +inf` being 1 says the entry is a real number. -/
theorem real_of_abs_lt_inf (x y : Ideal .f32) (hy : y = FloatOps.ofBits (F := Ideal) .f32 0x7F800000#32)
    (h : FloatOps.cmpf (F := Ideal) .olt (FloatOps.hostAbsf x) y = 1#1) : ∃ r : ℝ, x = (r : EReal) := by
  rw [hy, ofBits_inf, Ideal.hostAbsf_def, Ideal.cmpf_def, Ideal.absf_def] at h
  refine exists_real_of_abs_lt_top x ?_
  by_contra hlt
  simp [Ideal.cmp, hlt] at h

/-- `jnp.all(|x| < inf)` is 1: every entry of `x` is a real number. -/
theorem all_real {s t u : Shape} {axes : List (Fin s.rank)} [Subsingleton t.Idx]
    (x inf : FVec Ideal s .f32) (hinf : ∀ i, inf i = FloatOps.ofBits (F := Ideal) .f32 0x7F800000#32)
    (init : u.Idx → BitVec 1) (h : s.ReducesTo axes t) (hu : 0 < u.numel) (j : t.Idx)
    (e : Host.reduce IntOp.andi (cmpf .olt (Host.absf x) inf) init h hu j = 1#1) (i : s.Idx) :
    ∃ r : ℝ, x i = (r : EReal) :=
  real_of_abs_lt_inf (x i) (inf i) (hinf i) (Host.reduce_andi_all _ init h hu j e i)

/-- `jnp.all((m == 0) | (m == 1))` is 1: every entry of `m` is the word 0 or the word 1. -/
theorem all_zero_or_one {s t u : Shape} {axes : List (Fin s.rank)} [Subsingleton t.Idx] {w : Nat}
    (m z o : IVec s w) (a b : BitVec w) (hz : ∀ i, z i = a) (ho : ∀ i, o i = b)
    (init : u.Idx → BitVec 1) (h : s.ReducesTo axes t) (hu : 0 < u.numel) (j : t.Idx)
    (e : Host.reduce IntOp.andi (ori (cmpi .eq m z) (cmpi .eq m o)) init h hu j = 1#1) (i : s.Idx) :
    m i = a ∨ m i = b := by
  have h1 : IntOp.ori (IntOp.cmpi .eq (m i) (z i)) (IntOp.cmpi .eq (m i) (o i)) = 1#1 :=
    Host.reduce_andi_all _ init h hu j e i
  rcases IntOp.ori_eq_one.1 h1 with h2 | h2
  · exact Or.inl ((IntOp.cmpi_eq.1 h2).trans (hz i))
  · exact Or.inr ((IntOp.cmpi_eq.1 h2).trans (ho i))

/-- A 32-bit word that is 0 or 1, converted to a float, is the real 0 or the real 1. -/
theorem sitofp_zero_or_one (b : BitVec 32) (h : b = 0#32 ∨ b = 1#32) :
    FloatOps.sitofp (F := Ideal) .f32 b = ((0 : ℝ) : EReal) ∨ FloatOps.sitofp (F := Ideal) .f32 b = ((1 : ℝ) : EReal) := by
  rcases h with rfl | rfl
  · left; show (((0#32 : BitVec 32).toInt : ℝ) : EReal) = _; norm_num
  · right; show (((1#32 : BitVec 32).toInt : ℝ) : EReal) = _; norm_num

/-- A mask entry that is the real 0 or 1 is its own square. -/
theorem mask_idem (x : EReal) (h : x = ((0 : ℝ) : EReal) ∨ x = ((1 : ℝ) : EReal)) : x * x = x := by
  rcases h with rfl | rfl <;> simp

end Cert.LibPreDecode

end
-- ==== Proof.LibRealSums.lean ====
/-
  The extended reals that are real numbers. They are closed under the operations of the ideal instance that a
  sum-and-scale computation uses (sum, product, maximum, finite sums, the quotient of one by a real that is at least one),
  the bit patterns of zero and of one denote them, and over them a scaled aggregate of matrix products is the matrix
  product of the scaled aggregate: the distributive law, which fails over the extended reals at large (a sum that meets
  both infinities) and holds as soon as every entry is a real number.
-/
import Idealize.ShloMosaic.PureOps.Ideal
import Idealize.ShloMosaic.PureOps.Ideal.Laws
import Idealize.ShloMosaic.Lib.IdealHost
import Mathlib.Algebra.BigOperators.Ring.Finset
import Mathlib.Tactic.Ring
import Mathlib.Tactic.Linarith

namespace Cert.LibRealSums

open Idealize.ShloMosaic

/-- An extended real that is a real number: neither infinity. -/
def IsReal (x : EReal) : Prop := ∃ r : ℝ, x = (r : EReal)

/-- A real number, seen as an extended real, is a real number. -/
theorem isReal_coe (r : ℝ) : IsReal (r : EReal) := ⟨r, rfl⟩

/-- Zero is a real number. -/
theorem isReal_zero : IsReal 0 := ⟨0, EReal.coe_zero.symm⟩

/-- One is a real number. -/
theorem isReal_one : IsReal 1 := ⟨1, EReal.coe_one.symm⟩

/-- The sum of two real numbers is a real number. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem isReal_max {x y : EReal} (hx : IsReal x) (hy : IsReal y) : IsReal (max x y) := by
  rcases le_total x y with h | h
  · rw [max_eq_right h]; exact hy
  · rw [max_eq_left h]; exact hx

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The single-precision pattern of zero denotes zero. -/
theorem ofBits_zero : Ideal.ofBits .f32 0x00000000#32 = 0 := Ideal.ofBits_zero_f32

/-- The single-precision pattern `0x3F800000` denotes one. -/
theorem ofBits_one : Ideal.ofBits .f32 0x3F800000#32 = 1 := Ideal.ofBits_one_f32

/-- The single-precision pattern of zero denotes a real number. -/
theorem isReal_ofBits_zero : IsReal (Ideal.ofBits .f32 0x00000000#32) := by
  rw [ofBits_zero]; exact isReal_zero

/-- The single-precision pattern of one denotes a real number. -/
theorem isReal_ofBits_one : IsReal (Ideal.ofBits .f32 0x3F800000#32) := by
  rw [ofBits_one]; exact isReal_one

/-- The inverse degree: the quotient of one by the larger of a real number and one is a real number. The divisor is a
    real that is at least one, so it is not zero, and the quotient is the product with its reciprocal. -/
theorem isReal_invDeg (d : EReal) (hd : IsReal d) : IsReal (Ideal.div 1 (max d 1)) := by
  obtain ⟨m, hm⟩ := isReal_max hd isReal_one
  have h1 : (1 : ℝ) ≤ m := by
    have h : ((1 : ℝ) : EReal) ≤ (m : EReal) := by
      rw [← hm, EReal.coe_one]; exact le_max_right _ _
    exact EReal.coe_le_coe_iff.1 h
  have hne : m ≠ 0 := by linarith
  rw [hm, Ideal.div_coe hne, one_mul]
  exact isReal_coe _

/-- The distributive law of the aggregation. Over real entries, the sum over a set `S` of rows of the matrix products
    `∑ k, a e k * w k`, scaled by `v`, is the matrix product of the scaled sum of the rows: both are the double sum of
    `a e k * v * w k`. The leading zeros are the initial values the two sums start from. -/
theorem agg_law {ι κ : Type} [Fintype κ] (S : Finset ι) (a : ι → κ → EReal) (w : κ → EReal) (v : EReal)
    (ha : ∀ e k, IsReal (a e k)) (hw : ∀ k, IsReal (w k)) (hv : IsReal v) :
    (0 + ∑ e ∈ S, ∑ k, a e k * w k) * v = ∑ k, ((0 + ∑ e ∈ S, a e k) * v) * w k := by
  choose ar har using ha
  choose wr hwr using hw
  obtain ⟨vr, rfl⟩ := hv
  obtain rfl : a = fun e k => (ar e k : EReal) := funext fun e => funext fun k => har e k
  obtain rfl : w = fun k => (wr k : EReal) := funext hwr
  simp only [zero_add, ← EReal.coe_mul, ← coe_sum]
  congr 1
  simp only [Finset.sum_mul]
  rw [Finset.sum_comm]
  exact Finset.sum_congr rfl fun k _ => Finset.sum_congr rfl fun e _ => by ring

end Cert.LibRealSums
-- ==== Proof.LibConcatCols.lean ====
/-
  Two matrices joined side by side, read at an entry. For a [K, N₁] matrix and a [K, N₂] matrix concatenated along
  the column axis into a [K, N] matrix, the entry in column q is the left matrix's entry in column q when q < N₁, and the
  right matrix's entry in column q - N₁ otherwise. Consequently a sum over k of x(r, k) * joined(k, q) is the same sum
  against the one matrix the column q falls in: a product with the joined matrix, cut back into its two column ranges,
  is the two products.
-/
import Idealize.ShloMosaic.PureOps.Ideal
import Idealize.ShloMosaic.Lib.Pipeline.Value
import Idealize.ShloMosaic.Lib.ValueIdx

noncomputable section

open scoped BigOperators

namespace Cert.LibConcatCols

open Idealize.ShloMosaic Idealize.ShloMosaic.ValueIdx

variable {α : Type} {K N₁ N₂ N : Nat}

/-- A column of the joined matrix that lies in the left matrix's range is that matrix's column. -/
theorem cols_left (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₁) (hq : q'.val = q.val) :
    concatenate ⟨2, ![K, N]⟩ 1 [⟨⟨2, ![K, N₁]⟩, a⟩, ⟨⟨2, ![K, N₂]⟩, b⟩] h (ix2 k q) = a (ix2 k q') := by
  refine concatenate_pair_apply_left 1 a b h (ix2 k q) rfl (ix2 k q') fun d => ?_
  match d with
  | ⟨0, _⟩ => rfl
  | ⟨1, _⟩ => exact hq

/-- A column past the left matrix's range is the right matrix's column, the left width less. -/
theorem cols_right (a : (⟨2, ![K, N₁]⟩ : Shape).Idx → α) (b : (⟨2, ![K, N₂]⟩ : Shape).Idx → α)
    (h : Shape.Concatenates [(⟨2, ![K, N₁]⟩ : Shape), ⟨2, ![K, N₂]⟩] ⟨2, ![K, N]⟩ 1)
    (k : Fin K) (q : Fin N) (q' : Fin N₂) (hq : q'.val + N₁ = q.val) :
    concatenate ⟨2, ![K, N]⟩ 1 [⟨⟨2, ![K, N₁]⟩, a⟩, ⟨⟨2, ![K, N₂]⟩, b⟩] h (ix2 k q) = b (ix2 k q') := by
  refine concatenate_pair_apply_right 1 a b h (ix2 k q) rfl rfl (ix2 k q') (fun d hd => ?_) hq
  match d with
  | ⟨0, _⟩ => rfl
  | ⟨1, _⟩ => exact absurd rfl hd

/-- A row of x against a left-range column of the joined matrix is that row against the left matrix's column. -/
theorem sum_cols_left {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₁) (hq : q'.val = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * a (ix2 k q') :=
  Finset.sum_congr rfl fun k _ => by rw [cols_left a b h k q q' hq]

/-- A row of x against a right-range column of the joined matrix is that row against the right matrix's column. -/
theorem sum_cols_right {M : Nat} (x : (⟨2, ![M, K]⟩ : Shape).Idx → EReal)
    (a : (⟨2, ![K, N₁]⟩ : Shape).Idx → EReal) (b : (⟨2, ![K, N₂]⟩ : Shape).Idx → EReal)
    (h : Shape.Concatenates [(⟨2, ![K, N₁]⟩ : Shape), ⟨2, ![K, N₂]⟩] ⟨2, ![K, N]⟩ 1)
    (r : Fin M) (q : Fin N) (q' : Fin N₂) (hq : q'.val + N₁ = q.val) :
    ∑ k : Fin K, x (ix2 r k) * concatenate ⟨2, ![K, N]⟩ 1 [⟨⟨2, ![K, N₁]⟩, a⟩, ⟨⟨2, ![K, N₂]⟩, b⟩] h (ix2 k q)
      = ∑ k : Fin K, x (ix2 r k) * b (ix2 k q') :=
  Finset.sum_congr rfl fun k _ => by rw [cols_right a b h k q q' hq]

end Cert.LibConcatCols

end
-- ==== Proof.LibAggRows.lean ====
/-
  ROWS OF A TABLE READ AND ACCUMULATED THROUGH AN INDEX COLUMN, AT AN ENTRY.

  Two host operations over a table of `N` rows and `C` columns and a column of `E` integer words (held as an
  `[E, 1]` array):
    • the ROW GATHER `table[idx]`: result row `e` is the table's row at the `e`-th word, read as a signed integer
      and clamped into `[0, N − 1]` (`srcRow`, `rowGather_apply`);
    • the ROW SCATTER-ADD `zeros.at[idx].add(rows)` over the extended reals: entry `(i, c)` of the result is the
      operand's entry plus the sum of the entries `(e, c)` of the update rows whose word, read as a signed integer
      and NOT clamped, is `i`; a word outside `[0, N)` drops its row (`dstRow?`, `rowScatterAdd_apply`).
  Every statement is over the extents `N`, `E`, `C` and the word width `w` as variables.
-/
import Idealize.ShloMosaic.PureOps.Ideal
import Idealize.ShloMosaic.Lib.ValueIdx

noncomputable section

open scoped BigOperators

namespace Cert.LibAggRows

open Idealize.ShloMosaic Idealize.ShloMosaic.ValueIdx

/-! ## The row gather

Operand `[N, C]`, start indices `[E, 1]`, result `[E, C]`; the operand's axis 0 is collapsed and is the one the start
index names, its axis 1 is kept whole (slice sizes `[1, C]`) and is the result's offset axis 1; the index vector lies
along the start indices' axis 1. -/

section Gather
variable {α : Type}

/-- The row gather's dimension numbers for an operand `[N, C]`, start indices `[E, 1]` and result `[E, C]`; their
    conditions `wf` are decided on literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that result row `e` reads: the `e`-th start index, read as a signed integer and clamped into
    `[0, N − 1]` (a negative word reads row `0`, a word at or above `N` reads row `N − 1`). It depends on neither
    the number of columns nor the table's contents. -/
def srcRow {E w : Nat} (N : Nat) (hN : 0 < N) (idx : IVec ⟨2, ![E, 1]⟩ w) (e : Fin E) : Fin N :=
  ⟨min (idx (ix2 e (0 : Fin 1))).toInt.toNat (N - 1), by omega⟩

/-- On the operand's axis 0 (collapsed, named by the start index map) the operand index of result entry `(e, c)` is
    the clamped start index: no batching coordinate, no offset. -/
theorem rowGather_operandIdx0 {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 0 = srcRow N hN idx e := by
  refine Fin.ext ?_
  show (rowGatherDims N E C wf).start (ix2 e c) idx 0 + (rowGatherDims N E C wf).batchCoord (ix2 e c) 0
    + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the operand's axis 1 (kept whole, not named by the start index map) the operand index of result entry
    `(e, c)` is the result's column `c`: start `0`, no batching coordinate, offset `c`. -/
theorem rowGather_operandIdx1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx 1 = c := by
  refine Fin.ext ?_
  show (rowGatherDims N E C wf).start (ix2 e c) idx 1 + (rowGatherDims N E C wf).batchCoord (ix2 e c) 1
    + (rowGatherDims N E C wf).offCoord (ix2 e c) 1 = _
  have hk : (1 : Fin 2) ∈ (rowGatherDims N E C wf).sKept :=
    (GatherDims.mem_sKept _ _).mpr ⟨(by decide : (1 : Fin 2) ∉ [0]), List.not_mem_nil⟩
  rw [GatherDims.batchCoord_eq_zero _ _ _ List.not_mem_nil]
  unfold GatherDims.start GatherDims.offCoord
  rw [dif_neg (show (1 : Fin 2) ∉ (rowGatherDims N E C wf).startIndexMap from (by decide : (1 : Fin 2) ∉ [0])), dif_pos hk]
  simp only [Nat.add_zero, Nat.zero_add]
  rfl

/-- THE ROW GATHER READ AT `(e, c)`: the table's entry in column `c` of the row `srcRow N hN idx e`, the `e`-th start
    index read signed and clamped into `[0, N − 1]`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (srcRow N hN idx e) c) := by
  unfold Host.gather
  rw [eq_ix2 ((rowGatherDims N E C wf).operandIdx (ix2 e c) idx), rowGather_operandIdx0 hN wf idx e c,
    rowGather_operandIdx1 wf idx e c]
  rfl

end Gather

/-! ## The row scatter-add, over the extended reals

Operand `[N, C]`, scatter indices `[E, 1]`, updates `[E, C]`; the operand's axis 0 is inserted and is the one the
scatter index names, the updates' axis 1 is the window axis and goes to the operand's axis 1; the index vector lies along
the scatter indices' axis 1. -/

section ScatterAdd

/-- Two rank-2 indices with equal coordinates are equal. -/
theorem idx2_ext {n0 n1 : Nat} (f g : (⟨2, ![n0, n1]⟩ : Shape).Idx) (h0 : f 0 = g 0) (h1 : f 1 = g 1) : f = g := by
  rw [eq_ix2 f, eq_ix2 g, h0, h1]

/-- The row scatter's dimension numbers for an operand `[N, C]`, scatter indices `[E, 1]` and updates `[E, C]`; their
    conditions `wf` are decided on literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The operand row that update row `e` is added to: the `e`-th scatter index read as a signed integer, NOT clamped,
    when it lies in `[0, N)`; `none` when it does not (the row is dropped). It depends on neither the number of
    columns nor the arrays' contents. -/
def dstRow? {E w : Nat} (N : Nat) (idx : IVec ⟨2, ![E, 1]⟩ w) (e : Fin E) : Option (Fin N) :=
  if h : 0 ≤ (idx (ix2 e (0 : Fin 1))).toInt ∧ (idx (ix2 e (0 : Fin 1))).toInt < (N : Int) then
    some ⟨(idx (ix2 e (0 : Fin 1))).toInt.toNat, by omega⟩
  else none

/-- On the operand's axis 0 the window of update entry `(e, c)` starts at the `e`-th scatter index, read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's axis 1, which the scatter index does not name, the window starts at `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from (by decide : (1 : Fin 2) ∉ [0]))]

/-- On the operand's axis 0, an inserted axis, the window coordinate is `0`. -/
theorem rowScatter_window0 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 0 = 0 := by
  unfold ScatterDims.window
  rw [dif_neg]
  show (0 : Fin 2) ∉ Shape.kept ⟨2, ![N, C]⟩ [0]
  simp [Shape.kept]

/-- On the operand's axis 1 the window coordinate of update entry `(e, c)` is its column `c`. -/
theorem rowScatter_window1 {N E C : Nat} (wf : ScatterDims.WF ⟨2, ![N, C]⟩ ⟨2, ![E, 1]⟩ ⟨2, ![E, C]⟩ [1] [0] [0] 1)
    (e : Fin E) (c : Fin C) : (rowScatterDims N E C wf).window (ix2 e c) 1 = c.val := by
  unfold ScatterDims.window
  have hk : (1 : Fin 2) ∈ (rowScatterDims N E C wf).sKept := by
    show (1 : Fin 2) ∈ Shape.kept ⟨2, ![N, C]⟩ [0]
    simp [Shape.kept]
  rw [dif_pos hk]
  rfl

/-- THE LANDING ENTRY of update entry `(e, c)`: column `c` of the row `dstRow? N idx e`, when there is one. -/
theorem rowScatter_resultIdx? {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).resultIdx? (ix2 e c) idx = (dstRow? N idx e).map (fun r => ix2 r c) := by
  have hs0 := rowScatter_start0 wf idx e c
  have hs1 := rowScatter_start1 wf idx e c
  have hw0 := rowScatter_window0 wf e c
  have hw1 := rowScatter_window1 wf e c
  have hc : c.val < C := c.isLt
  unfold ScatterDims.resultIdx? dstRow?
  by_cases h : 0 ≤ (idx (ix2 e (0 : Fin 1))).toInt ∧ (idx (ix2 e (0 : Fin 1))).toInt < (N : Int)
  · have hall : ∀ a, 0 ≤ (rowScatterDims N E C wf).start (ix2 e c) idx a + (rowScatterDims N E C wf).window (ix2 e c) a ∧
        (rowScatterDims N E C wf).start (ix2 e c) idx a + (rowScatterDims N E C wf).window (ix2 e c) a
          < (⟨2, ![N, C]⟩ : Shape).size a := by
      rw [Fin.forall_fin_two, hs0, hs1, hw0, hw1]
      refine ⟨⟨by simpa using h.1, by simpa using h.2⟩, ⟨by simp, by simpa using hc⟩⟩
    rw [dif_pos hall, dif_pos h, Option.map_some]
    refine congrArg some (idx2_ext _ _ (Fin.ext ?_) (Fin.ext ?_))
    · show ((rowScatterDims N E C wf).start (ix2 e c) idx 0 + (rowScatterDims N E C wf).window (ix2 e c) 0).toNat
        = (idx (ix2 e (0 : Fin 1))).toInt.toNat
      rw [hs0, hw0]; simp
    · show ((rowScatterDims N E C wf).start (ix2 e c) idx 1 + (rowScatterDims N E C wf).window (ix2 e c) 1).toNat
        = c.val
      rw [hs1, hw1]; simp
  · rw [dif_neg h, dif_neg]
    · rfl
    · intro hall
      have h0 := hall 0
      rw [hs0, hw0] at h0
      exact h (by simpa using h0)

/-- An update entry `j` lands on entry `(i, c)` exactly when its row's scatter index is `i` and its column is `c`. -/
theorem rowScatter_resultIdx?_eq_some {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : Fin N) (c : Fin C) :
    (rowScatterDims N E C wf).resultIdx? j idx = some (ix2 i c) ↔ dstRow? N idx (j 0) = some i ∧ j 1 = c := by
  obtain ⟨e, c', rfl⟩ : ∃ e c', j = ix2 e c' := ⟨j 0, j 1, eq_ix2 j⟩
  show _ ↔ dstRow? N idx e = some i ∧ c' = c
  rw [rowScatter_resultIdx? wf idx e c', Option.map_eq_some_iff]
  constructor
  · rintro ⟨r, hr, hrc⟩
    have h0 : r = i := congrFun hrc 0
    have h1 : c' = c := congrFun hrc 1
    exact ⟨by rw [hr, h0], h1⟩
  · rintro ⟨hr, rfl⟩
    exact ⟨i, hr, rfl⟩

/-- THE ROW SCATTER-ADD READ AT `(i, c)`: the operand's entry plus the sum, over the update rows `e` whose scatter
    index (read signed, not clamped) is `i`, of their entries in column `c`. -/
theorem rowScatterAdd_apply {N E C w : Nat} (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (i : Fin N) (c : Fin C) :
    Host.scatterAdd (F := Ideal) (rowScatterDims N E C wf) x idx upd (ix2 i c)
      = x (ix2 i c) + ∑ e ∈ Finset.univ.filter (fun e : Fin E => dstRow? N idx e = some i), upd (ix2 e c) := by
  show x (ix2 i c) + ∑ j ∈ Finset.univ.filter (fun j => (rowScatterDims N E C wf).resultIdx? j idx = some (ix2 i c)), upd j = _
  congr 1
  refine Finset.sum_nbij' (fun j => j 0) (fun e => ix2 e c) ?_ ?_ ?_ ?_ ?_
  · intro j hj
    rw [Finset.mem_filter] at hj
    exact Finset.mem_filter.mpr ⟨Finset.mem_univ _, ((rowScatter_resultIdx?_eq_some wf idx j i c).mp hj.2).1⟩
  · intro e he
    rw [Finset.mem_filter] at he
    exact Finset.mem_filter.mpr ⟨Finset.mem_univ _, (rowScatter_resultIdx?_eq_some wf idx (ix2 e c) i c).mpr ⟨he.2, rfl⟩⟩
  · intro j hj
    rw [Finset.mem_filter] at hj
    have h1 := ((rowScatter_resultIdx?_eq_some wf idx j i c).mp hj.2).2
    rw [← h1]; exact (eq_ix2 j).symm
  · intro e _; rfl
  · intro j hj
    rw [Finset.mem_filter] at hj
    have h1 := ((rowScatter_resultIdx?_eq_some wf idx j i c).mp hj.2).2
    rw [← h1]; exact congrArg upd (eq_ix2 j)

end ScatterAdd

end Cert.LibAggRows

end
-- ==== Proof.LibMeanStep.lean ====
/-
  MEAN AGGREGATION OVER A DIRECTED EDGE LIST, READ AT AN ENTRY.

  A graph has N nodes and E edges; an edge list gives, per edge, the node a message is read from and the node it is
  added to, each as an integer word in an [E, 1] column. One aggregation step takes a table of node features [N, C] and a
  vector of per-node scales [N] (the reciprocal of a degree clamped below at one) and returns, at node i and
  column c,

      (0 + the sum over the edges e landing on i of table(row read by e, c)) * scale(i).

  The row an edge reads is its word read signed and clamped into [0, N-1]; the node it lands on is its word read signed
  and NOT clamped, the edge being dropped when the word is outside [0, N). Every entry of the result is a real
  number as soon as every entry of the table and of the scales is.
-/
import Idealize.ShloMosaic.PureOps.Ideal
import Idealize.ShloMosaic.PureOps.Ideal.Laws
import Idealize.ShloMosaic.Lib.ValueIdx
import Idealize.ShloMosaic.Lib.Pipeline.Value
import proofs.«154507_j64252710748259_2_alg».proof.Proof.LibAggRows
import proofs.«154507_j64252710748259_2_alg».proof.Proof.LibRealSums

noncomputable section

open scoped BigOperators

namespace Cert.MeanAgg

open Idealize.ShloMosaic Idealize.ShloMosaic.ValueIdx Cert.LibAggRows Cert.LibRealSums

/-- Every entry of an array of extended reals is a real number. -/
def AllReal {s : Shape} (x : FVec Ideal s .f32) : Prop := ∀ i, IsReal (x i)

variable {N E C w : Nat}

/-! ## Layouts of a per-node vector -/

/-- A vector [N] laid out as a column [N, 1] reads, in row i, the vector's entry i. -/
theorem column_apply {α : Type} (h1 : (⟨1, ![N]⟩ : Shape).BroadcastsInDim ⟨2, ![N, 1]⟩ ![0])
    (x : (⟨1, ![N]⟩ : Shape).Idx → α) (i : Fin N) (z : Fin 1) :
    broadcastInDim ⟨2, ![N, 1]⟩ ![0] h1 x (ix2 i z) = x (ix1 i) := by
  refine broadcastInDim_apply ![0] h1 x (ix2 i z) (ix1 i) fun a => ?_
  match a with
  | ⟨0, _⟩ =>
    show i.val = if N = 1 then 0 else i.val
    split_ifs with h
    · have := i.isLt; omega
    · rfl

/-- A column [N, 1] spread over [N, C] reads, at (i, c), the column's entry in row i. -/
theorem spread_apply {α : Type} (h2 : (⟨2, ![N, 1]⟩ : Shape).BroadcastsInDim ⟨2, ![N, C]⟩ ![0, 1])
    (x : (⟨2, ![N, 1]⟩ : Shape).Idx → α) (i : Fin N) (c : Fin C) :
    broadcastInDim ⟨2, ![N, C]⟩ ![0, 1] h2 x (ix2 i c) = x (ix2 i (0 : Fin 1)) := by
  refine broadcastInDim_apply ![0, 1] h2 x (ix2 i c) (ix2 i (0 : Fin 1)) fun a => ?_
  match a with
  | ⟨0, _⟩ =>
    show i.val = if N = 1 then 0 else i.val
    split_ifs with h
    · have := i.isLt; omega
    · rfl
  | ⟨1, _⟩ =>
    show (0 : Nat) = if (1 : Nat) = 1 then 0 else c.val
    rfl

/-- A scalar spread over any shape reads the scalar everywhere. -/
theorem scalar_apply {α : Type} {t : Shape} (hz : (⟨0, ![]⟩ : Shape).BroadcastsInDim t ![])
    (x : (⟨0, ![]⟩ : Shape).Idx → α) (j : t.Idx) :
    broadcastInDim t ![] hz x j = x (fun a => a.elim0) :=
  broadcastInDim_apply ![] hz x j (fun a => a.elim0) fun a => a.elim0

/-! ## The aggregation at an entry -/

/-- Entry (i, c) of one mean-aggregation step. -/
def aggAt (hN : 0 < N) (tbl : FVec Ideal ⟨2, ![N, C]⟩ .f32) (gidx sidx : IVec ⟨2, ![E, 1]⟩ w)
    (inv : FVec Ideal ⟨1, ![N]⟩ .f32) (i : Fin N) (c : Fin C) : EReal :=
  (0 + ∑ e ∈ Finset.univ.filter (fun e : Fin E => dstRow? N sidx e = some i), tbl (ix2 (srcRow N hN gidx e) c))
    * inv (ix1 i)

/-- The host's spelling of the step — rows gathered through one index column, added into a zero table through the
    other, and the result scaled row by row by the vector laid out as a column and spread over the columns — read at
    (i, c). -/
theorem hostAgg_apply (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (hz : (⟨0, ![]⟩ : Shape).BroadcastsInDim ⟨2, ![N, C]⟩ ![])
    (h1 : (⟨1, ![N]⟩ : Shape).BroadcastsInDim ⟨2, ![N, 1]⟩ ![0])
    (h2 : (⟨2, ![N, 1]⟩ : Shape).BroadcastsInDim ⟨2, ![N, C]⟩ ![0, 1])
    (tbl : FVec Ideal ⟨2, ![N, C]⟩ .f32) (gidx sidx : IVec ⟨2, ![E, 1]⟩ w) (inv : FVec Ideal ⟨1, ![N]⟩ .f32)
    (i : Fin N) (c : Fin C) :
    mulf (Host.scatterAdd (F := Ideal) (rowScatterDims N E C wfS)
        (broadcastInDim ⟨2, ![N, C]⟩ ![] hz (constant (F := Ideal) ⟨0, ![]⟩ .f32 0x00000000#32)) sidx
        (Host.gather (rowGatherDims N E C wfG) tbl gidx))
      (broadcastInDim ⟨2, ![N, C]⟩ ![0, 1] h2 (broadcastInDim ⟨2, ![N, 1]⟩ ![0] h1 inv)) (ix2 i c)
    = aggAt hN tbl gidx sidx inv i c := by
  rw [mulf_apply, rowScatterAdd_apply, spread_apply, column_apply, scalar_apply, constant_apply, Ideal.ofBits_zero_f32]
  unfold aggAt
  congr 2
  exact Finset.sum_congr rfl fun e _ => rowGather_apply hN wfG tbl gidx e c

/-- Over a real table and real scales every entry of the step is a real number. -/
theorem isReal_aggAt (hN : 0 < N) (tbl : FVec Ideal ⟨2, ![N, C]⟩ .f32) (gidx sidx : IVec ⟨2, ![E, 1]⟩ w)
    (inv : FVec Ideal ⟨1, ![N]⟩ .f32) (ht : AllReal tbl) (hi : AllReal inv) (i : Fin N) (c : Fin C) :
    IsReal (aggAt hN tbl gidx sidx inv i c) :=
  isReal_mul (isReal_add isReal_zero (isReal_sum _ _ fun _ _ => ht _)) (hi _)

end Cert.MeanAgg

end
-- ==== Proof.LibRealArrays.lean ====
/-
  ARRAYS WHOSE ENTRIES ARE ALL REAL NUMBERS.

  The host operations a neighbour aggregation is made of keep the property "every entry is a real number": a
  constant zero or one, a broadcast, a gather (each entry is an entry of the table), an accumulating scatter (each
  entry is an operand entry plus a finite sum of updates), a product, a sum, the reciprocal of a count clamped below
  at one, and two arrays laid side by side. None of this depends on which rows the index arrays select.
-/
import Idealize.ShloMosaic.PureOps.Ideal
import Idealize.ShloMosaic.PureOps.Ideal.Laws
import Idealize.ShloMosaic.Lib.IdealHost
import Idealize.ShloMosaic.Lib.ValueIdx
import Idealize.ShloMosaic.Lib.Pipeline.Value
import proofs.«154507_j64252710748259_2_alg».proof.Proof.LibRealSums
import proofs.«154507_j64252710748259_2_alg».proof.Proof.LibConcatCols
import proofs.«154507_j64252710748259_2_alg».proof.Proof.LibMeanStep

noncomputable section

open scoped BigOperators

namespace Cert.MeanAgg

open Idealize.ShloMosaic Idealize.ShloMosaic.ValueIdx Cert.LibRealSums

/-- The constant zero array. -/
theorem allReal_zero {s : Shape} : AllReal (constant (F := Ideal) s .f32 0x00000000#32) := fun _ => by
  rw [constant_apply, Ideal.ofBits_zero_f32]; exact isReal_zero

/-- The constant one array. -/
theorem allReal_one {s : Shape} : AllReal (constant (F := Ideal) s .f32 0x3F800000#32) := fun _ => by
  rw [constant_apply, Ideal.ofBits_one_f32]; exact isReal_one

/-- A broadcast reads entries of its operand. -/
theorem allReal_bcast {s t : Shape} (dims : Fin s.rank → Fin t.rank) (h : s.BroadcastsInDim t dims)
    (x : FVec Ideal s .f32) (hx : AllReal x) : AllReal (broadcastInDim t dims h x) := fun j => by
  unfold broadcastInDim; exact hx _

/-- A gather reads entries of its table. -/
theorem allReal_gather {s si t : Shape} {w : Nat} (d : GatherDims s si t) (x : FVec Ideal s .f32) (idx : IVec si w)
    (hx : AllReal x) : AllReal (Host.gather d x idx) := fun j => by
  unfold Host.gather; exact hx _

/-- An accumulating scatter adds finitely many updates to each operand entry. -/
theorem allReal_scatterAdd {s si su : Shape} {w : Nat} (d : ScatterDims s si su) (x : FVec Ideal s .f32)
    (idx : IVec si w) (u : FVec Ideal su .f32) (hx : AllReal x) (hu : AllReal u) :
    AllReal (Host.scatterAdd (F := Ideal) d x idx u) := fun i => by
  show IsReal (x i + ∑ j ∈ Finset.univ.filter (fun j => d.resultIdx? j idx = some i), u j)
  exact isReal_add (hx i) (isReal_sum _ _ fun j _ => hu j)

/-- A product of real arrays. -/
theorem allReal_mulf {s : Shape} (a b : FVec Ideal s .f32) (ha : AllReal a) (hb : AllReal b) : AllReal (mulf a b) :=
  fun i => isReal_mul (ha i) (hb i)

/-- One over the larger of a real array and one. -/
theorem allReal_invClamp {s : Shape} (a d o : FVec Ideal s .f32) (ha : ∀ i, a i = 1) (ho : ∀ i, o i = 1)
    (hd : AllReal d) : AllReal (Host.divf a (maximumf d o)) := fun i => by
  show IsReal (Ideal.div (a i) (max (d i) (o i)))
  rw [ha, ho]; exact isReal_invDeg _ (hd i)

/-- Two real arrays laid side by side. -/
theorem allReal_cols {K N₁ N₂ N : Nat} (hN : N = N₁ + N₂) (a : FVec Ideal ⟨2, ![K, N₁]⟩ .f32)
    (b : FVec Ideal ⟨2, ![K, N₂]⟩ .f32)
    (h : Shape.Concatenates [(⟨2, ![K, N₁]⟩ : Shape), ⟨2, ![K, N₂]⟩] ⟨2, ![K, N]⟩ 1)
    (ha : AllReal a) (hb : AllReal b) :
    AllReal (concatenate ⟨2, ![K, N]⟩ 1 [⟨⟨2, ![K, N₁]⟩, a⟩, ⟨⟨2, ![K, N₂]⟩, b⟩] h) := fun j => by
  obtain ⟨k, q, rfl⟩ : ∃ (k : Fin K) (q : Fin N), j = ix2 k q := ⟨j 0, j 1, eq_ix2 j⟩
  by_cases hq : q.val < N₁
  · rw [Cert.LibConcatCols.cols_left a b h k q ⟨q.val, hq⟩ rfl]; exact ha _
  · have hlt : q.val - N₁ < N₂ := by have := q.isLt; omega
    rw [Cert.LibConcatCols.cols_right a b h k q ⟨q.val - N₁, hlt⟩ (by show q.val - N₁ + N₁ = q.val; omega)]
    exact hb _

end Cert.MeanAgg

end
-- ==== Proof.Finite.lean ====
/-
  Every entry the node network reads is a real number, and so is every entry it returns.

  The precondition is a conjunction of eleven tests "every entry of the array has absolute value below +infinity", one
  per float argument (the integer array of row numbers is not tested).  An extended real whose absolute value is below
  the top element is a real number, so each test that holds gives every entry of its array as a real.

  The extended reals that are real numbers are closed under sum, product, maximum and finite sums.  The edge layer
  e = a W + b is a finite sum of products plus an entry of b; a gather reads entries of its table, whatever the row
  numbers are; the rectified sum max(x(source) + e, 0) is a maximum of a sum and 0; an accumulating scatter into zeros
  returns, per entry, 0 plus a finite sum of updates, whatever the row numbers are; and the two-layer perceptron of
  aggregate + x is again sums of products, maxima with 0 and bias entries.  So under the precondition every entry of
  the node network of the kernel's aggregate is a real number.
-/
import proofs.«154507_j64252710748259_2_alg».proof.Proof.HostValues
import proofs.«154507_j64252710748259_2_alg».proof.Proof.Gen.Pre_finite_inputs
import proofs.«154507_j64252710748259_2_alg».proof.Proof.LibPreDecode
import proofs.«154507_j64252710748259_2_alg».proof.Proof.LibRealArrays
import Idealize.ShloMosaic.Lib.ReduceAll

set_option maxRecDepth 16384

noncomputable section

open scoped BigOperators

namespace Cert.GraphNorm.Finite

open Idealize.ShloMosaic Idealize.ShloMosaic.ValueIdx Cert.LibRealSums Cert.MeanAgg Cert.Mlp

/-! ## The precondition, read back entry by entry -/

/-- Under the precondition every entry of every float argument is a real number. -/
theorem real_of_pre
    (a0 : Cert.Pre_finite_inputs.S100000x128.Idx → EReal) (a1 : Cert.Pre_finite_inputs.S2x1600000.Idx → BitVec 32)
    (a2 : Cert.Pre_finite_inputs.S1600000x32.Idx → EReal) (a3 : Cert.Pre_finite_inputs.S32x128.Idx → EReal) (a4 : Cert.Pre_finite_inputs.S128.Idx → EReal)
    (a5 : Cert.Pre_finite_inputs.S128x128.Idx → EReal) (a6 : Cert.Pre_finite_inputs.S128.Idx → EReal) (a7 : Cert.Pre_finite_inputs.S128x128.Idx → EReal)
    (a8 a9 a10 a11 : Cert.Pre_finite_inputs.S128.Idx → EReal)
    (h : Cert.Pre_finite_inputs.fn (F := Ideal) a0 a1 a2 a3 a4 a5 a6 a7 a8 a9 a10 a11 = (fun _ => 1#1)) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal))
      ∧ (∀ i, ∃ r : ℝ, a10 i = (r : EReal)) ∧ (∀ i, ∃ r : ℝ, a11 i = (r : EReal)) := by
  haveI : Subsingleton Cert.Pre_finite_inputs.S_.Idx := ⟨fun a b => funext fun d => d.elim0⟩
  have h0 := congrFun h ix0
  dsimp only [Cert.Pre_finite_inputs.fn, Cert.Pre_finite_inputs.fn_part1, Cert.Pre_finite_inputs.fn_part2, Cert.Pre_finite_inputs.fn_part3, Idealize.ShloMosaic.andi] at h0
  simp only [IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨Cert.LibPreDecode.all_real a0 _ (by intro _; rfl) _ _ _ ix0 e0,
    Cert.LibPreDecode.all_real a2 _ (by intro _; rfl) _ _ _ ix0 e2,
    Cert.LibPreDecode.all_real a3 _ (by intro _; rfl) _ _ _ ix0 e3,
    Cert.LibPreDecode.all_real a4 _ (by intro _; rfl) _ _ _ ix0 e4,
    Cert.LibPreDecode.all_real a5 _ (by intro _; rfl) _ _ _ ix0 e5,
    Cert.LibPreDecode.all_real a6 _ (by intro _; rfl) _ _ _ ix0 e6,
    Cert.LibPreDecode.all_real a7 _ (by intro _; rfl) _ _ _ ix0 e7,
    Cert.LibPreDecode.all_real a8 _ (by intro _; rfl) _ _ _ ix0 e8,
    Cert.LibPreDecode.all_real a9 _ (by intro _; rfl) _ _ _ ix0 e9,
    Cert.LibPreDecode.all_real a10 _ (by intro _; rfl) _ _ _ ix0 e10,
    Cert.LibPreDecode.all_real a11 _ (by intro _; rfl) _ _ _ ix0 e11⟩

/-! ## Real entries in, real entries out -/

variable {a k n hd : ℕ}

/-- A biased product of arrays of real numbers has real entries. -/
theorem isReal_biased (z : Mat a k) (W : Mat k n) (B : Mat 1 n) (hz : ∀ i, IsReal (z i)) (hW : ∀ i, IsReal (W i))
    (hB : ∀ i, IsReal (B i)) (i : (⟨2, ![a, n]⟩ : Shape).Idx) : IsReal (Cert.Dense.biased z W B i) := by
  show IsReal ((∑ c : Fin k, z (ix2 (i 0) c) * W (ix2 c (i 1))) + B (ix2 (0 : Fin 1) (i 1)))
  exact isReal_add (isReal_sum Finset.univ _ fun c _ => isReal_mul (hz _) (hW _)) (hB _)

/-- A vector of real numbers laid out as a row has real entries. -/
theorem isReal_rowOf (b : Vec1 n) (hb : ∀ i, IsReal (b i)) (i : (⟨2, ![1, n]⟩ : Shape).Idx) : IsReal (rowOf b i) := hb _

/-- The two-layer perceptron of arrays of real numbers has real entries. -/
theorem isReal_net (z : Mat a k) (W1 : Mat k hd) (B1 : Mat 1 hd) (W2 : Mat hd n) (B2 : Mat 1 n)
    (hz : ∀ i, IsReal (z i)) (hW1 : ∀ i, IsReal (W1 i)) (hB1 : ∀ i, IsReal (B1 i)) (hW2 : ∀ i, IsReal (W2 i))
    (hB2 : ∀ i, IsReal (B2 i)) (i : (⟨2, ![a, n]⟩ : Shape).Idx) : IsReal (net z W1 B1 W2 B2 i) :=
  isReal_biased (hidden z W1 B1) W2 B2 (fun j => isReal_max (isReal_biased z W1 B1 hz hW1 hB1 j) isReal_zero) hW2 hB2 i

/-- The edge layer of arrays of real numbers has real entries. -/
theorem isReal_edgeLin {e : ℕ} (x : Mat e k) (W : Mat k n) (b : Vec1 n) (hx : ∀ i, IsReal (x i)) (hW : ∀ i, IsReal (W i))
    (hb : ∀ i, IsReal (b i)) (i : (⟨2, ![e, n]⟩ : Shape).Idx) : IsReal (Cert.GraphNorm.edgeLin x W b i) :=
  isReal_biased x W (rowOf b) hx hW (isReal_rowOf b hb) i

/-- The node network of arrays of real numbers has real entries. -/
theorem isReal_nodeNet (agg x : Mat a k) (W1 : Mat k hd) (b1 : Vec1 hd) (W2 : Mat hd n) (b2 : Vec1 n)
    (hagg : ∀ i, IsReal (agg i)) (hx : ∀ i, IsReal (x i)) (hW1 : ∀ i, IsReal (W1 i)) (hb1 : ∀ i, IsReal (b1 i))
    (hW2 : ∀ i, IsReal (W2 i)) (hb2 : ∀ i, IsReal (b2 i)) (i : (⟨2, ![a, n]⟩ : Shape).Idx) :
    IsReal (Cert.GraphNorm.nodeNet agg x W1 b1 W2 b2 i) :=
  isReal_net (Cert.GraphNorm.plus agg x) W1 (rowOf b1) W2 (rowOf b2) (fun j => isReal_add (hagg j) (hx j)) hW1 (isReal_rowOf b1 hb1) hW2
    (isReal_rowOf b2 hb2) i

/-- The kernel's aggregate of a table and an edge array of real numbers has real entries, whatever the row numbers:
    a gather reads entries of the table, and a scatter-add into zeros adds finitely many updates to zero. -/
theorem isReal_aggK (x0 : Cert.KernelIdeal.S100000x128.Idx → EReal) (x1 : Cert.KernelIdeal.S2x1600000.Idx → BitVec 32)
    (e : Cert.KernelIdeal.S1600000x128.Idx → EReal) (hx : ∀ i, IsReal (x0 i)) (he : ∀ i, IsReal (e i))
    (i : Cert.KernelIdeal.S100000x128.Idx) : IsReal (Cert.KernelIdeal.HostValue.aggK x0 x1 e i) := by
  unfold Cert.KernelIdeal.HostValue.aggK
  refine allReal_scatterAdd _ _ _ _ (allReal_bcast _ _ _ allReal_zero) (fun j => ?_) i
  exact isReal_max (isReal_add (allReal_gather _ x0 _ hx j) (he j)) (allReal_bcast _ _ _ allReal_zero j)

/-- Under "every entry of x, of the edge attributes, of the edge layer's weights and bias and of the network's weights
    and biases is a real number", every entry of the node network of the kernel's aggregate is a real number. -/
theorem nodeNet_real
    (a0 : Cert.KernelIdeal.S100000x128.Idx → EReal) (a1 : Cert.KernelIdeal.S2x1600000.Idx → BitVec 32)
    (a2 : Cert.KernelIdeal.S1600000x32.Idx → EReal) (a3 : Cert.KernelIdeal.S32x128.Idx → EReal)
    (a4 : Cert.KernelIdeal.S128.Idx → EReal) (a5 : Cert.KernelIdeal.S128x128.Idx → EReal)
    (a6 : Cert.KernelIdeal.S128.Idx → EReal) (a7 : Cert.KernelIdeal.S128x128.Idx → EReal)
    (a8 : Cert.KernelIdeal.S128.Idx → EReal)
    (h0 : ∀ i, ∃ r : ℝ, a0 i = (r : EReal)) (h2 : ∀ i, ∃ r : ℝ, a2 i = (r : EReal)) (h3 : ∀ i, ∃ r : ℝ, a3 i = (r : EReal))
    (h4 : ∀ i, ∃ r : ℝ, a4 i = (r : EReal)) (h5 : ∀ i, ∃ r : ℝ, a5 i = (r : EReal)) (h6 : ∀ i, ∃ r : ℝ, a6 i = (r : EReal))
    (h7 : ∀ i, ∃ r : ℝ, a7 i = (r : EReal)) (h8 : ∀ i, ∃ r : ℝ, a8 i = (r : EReal)) :
    ∀ i, ∃ r : ℝ, Cert.GraphNorm.nodeNet (Cert.KernelIdeal.HostValue.aggK a0 a1 (Cert.GraphNorm.edgeLin a2 a3 a4)) a0 a5 a6 a7 a8 i
      = (r : EReal) :=
  fun i => isReal_nodeNet _ a0 a5 a6 a7 a8 (isReal_aggK a0 a1 _ h0 (isReal_edgeLin a2 a3 a4 h2 h3 h4)) h0 h5 h6 h7 h8 i

/-- The same from the precondition itself. -/
theorem nodeNet_real_of_pre
    (a0 : Cert.Pre_finite_inputs.S100000x128.Idx → EReal) (a1 : Cert.Pre_finite_inputs.S2x1600000.Idx → BitVec 32)
    (a2 : Cert.Pre_finite_inputs.S1600000x32.Idx → EReal) (a3 : Cert.Pre_finite_inputs.S32x128.Idx → EReal) (a4 : Cert.Pre_finite_inputs.S128.Idx → EReal)
    (a5 : Cert.Pre_finite_inputs.S128x128.Idx → EReal) (a6 : Cert.Pre_finite_inputs.S128.Idx → EReal) (a7 : Cert.Pre_finite_inputs.S128x128.Idx → EReal)
    (a8 a9 a10 a11 : Cert.Pre_finite_inputs.S128.Idx → EReal)
    (h : Cert.Pre_finite_inputs.fn (F := Ideal) a0 a1 a2 a3 a4 a5 a6 a7 a8 a9 a10 a11 = (fun _ => 1#1)) :
    ∀ i, ∃ r : ℝ, Cert.GraphNorm.nodeNet (Cert.KernelIdeal.HostValue.aggK a0 a1 (Cert.GraphNorm.edgeLin a2 a3 a4)) a0 a5 a6 a7 a8 i
      = (r : EReal) := by
  obtain ⟨h0, h2, h3, h4, h5, h6, h7, h8, -⟩ := real_of_pre a0 a1 a2 a3 a4 a5 a6 a7 a8 a9 a10 a11 h
  exact nodeNet_real a0 a1 a2 a3 a4 a5 a6 a7 a8 h0 h2 h3 h4 h5 h6 h7 h8

end Cert.GraphNorm.Finite

end
-- ==== Proof.lean ====
/-
  The proof of `Cert.Claim` for a graph block — edge layer, gather / rectify / scatter-add aggregation, a two-layer
  node network, and a normalization over all nodes — whose kernel runs three regions against a one-pass reference.

  The three frames: the two kernel programs' are the generated frame certificates; the reference's is its generated
  run with the result dropped.  The idealization rewrote nothing, so `preserves` is trivial.

  `algebraic`: both programs compute the same edge layer e = a W + b, the same aggregate (the kernel's host code
  and the reference spell the gather, the rectifier and the scatter-add identically, so the two aggregates are one
  function of x, the index array and e), and the same network h of aggregate + x.  They differ in the last step
  only.  The kernel adds per-block partial sums of h and h * h, forms the variance as
  max(S2 / N - m m (c (2 - c)), 0) from the two moments and multiplies by the reciprocal square root; the reference
  centres h by c m first, takes the mean of the squares, and divides by the square root.  Under the precondition
  every input entry is a real number, hence so is every entry of h, and over real entries the two forms agree:
  the sum of (h - c m)^2 is S2 - 2 c m S1 + N c^2 m^2, a mean of squares is not negative, and for a positive real
  v multiplying by 1 / sqrt v is dividing by sqrt v.
-/
import proofs.«154507_j64252710748259_2_alg».proof.Defs
import proofs.«154507_j64252710748259_2_alg».proof.Proof.Gen.Kernel
import proofs.«154507_j64252710748259_2_alg».proof.Proof.Gen.Kernel.Skeleton
import proofs.«154507_j64252710748259_2_alg».proof.Proof.Gen.Kernel.Launch
import proofs.«154507_j64252710748259_2_alg».proof.Proof.Gen.Kernel.Points
import proofs.«154507_j64252710748259_2_alg».proof.Proof.Gen.Kernel.Frame
import proofs.«154507_j64252710748259_2_alg».proof.Proof.Gen.KernelIdeal
import proofs.«154507_j64252710748259_2_alg».proof.Proof.Gen.KernelIdeal.Skeleton
import proofs.«154507_j64252710748259_2_alg».proof.Proof.Gen.KernelIdeal.Launch
import proofs.«154507_j64252710748259_2_alg».proof.Proof.Gen.KernelIdeal.Points
import proofs.«154507_j64252710748259_2_alg».proof.Proof.Gen.KernelIdeal.Frame
import proofs.«154507_j64252710748259_2_alg».proof.Proof.Gen.ReferenceIdeal
import proofs.«154507_j64252710748259_2_alg».proof.Proof.Gen.Pre_finite_inputs
import proofs.«154507_j64252710748259_2_alg».proof.Proof.Gen.ReferenceIdeal.Run
import proofs.«154507_j64252710748259_2_alg».proof.Proof.Gen.ReferenceIdeal.Read
import proofs.«154507_j64252710748259_2_alg».proof.Proof.KernelRun
import proofs.«154507_j64252710748259_2_alg».proof.Proof.KernelValue
import proofs.«154507_j64252710748259_2_alg».proof.Proof.RefValue
import proofs.«154507_j64252710748259_2_alg».proof.Proof.Finite
import proofs.«154507_j64252710748259_2_alg».proof.Proof.NormAlgebra
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's host code and the reference spell the aggregation with the same operations: one function. -/
theorem agg_eq (x0 : Cert.KernelIdeal.S100000x128.Idx → EReal) (x1 : Cert.KernelIdeal.S2x1600000.Idx → BitVec 32)
    (e : Cert.KernelIdeal.S1600000x128.Idx → EReal) :
    Cert.ReferenceIdeal.RefValue.aggR x0 x1 e = Cert.KernelIdeal.HostValue.aggK x0 x1 e := rfl

theorem algebraic : Cert.algebraic_KernelIdeal_ReferenceIdeal := by
  intro m ρ m' ρ' hpre hagree
  refine ⟨fun c => Cert.GraphNorm.normMoments (Ideal.ofBits .f32 0x47C35000#32) (Ideal.ofBits .f32 0x3727C5AC#32)
      (Ideal.ofBits .f32 0x40000000#32) (Cert.KernelIdeal.KernelValue.hK m c) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KernelValue.W8_v36 m ρ c), (h c).2⟩)
      (Cert.KernelIdeal.Gen.run_value m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.RefValue.ref_value, e0, e1, e2, e3, e4, e5, e6, e7, e8, e9, e10, e11, agg_eq]
    obtain ⟨r0, r2, r3, r4, r5, r6, r7, r8, r9, r10, r11⟩ := Cert.GraphNorm.Finite.real_of_pre _ _ _ _ _ _ _ _ _ _ _ _ (hpre c)
    exact (Cert.GraphNorm.normMoments_eq_normCentred _ _ _ Cert.GraphNorm.word_N (by norm_num) Cert.GraphNorm.word_eps
      Cert.GraphNorm.word_two _ _ _ _ (Cert.GraphNorm.Finite.nodeNet_real _ _ _ _ _ _ _ _ _ r0 r2 r3 r4 r5 r6 r7 r8) r9 r10 r11).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
